-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x512x1024 : Shape := ⟨3, ![1, 512, 1024]⟩
abbrev S512x1 : Shape := ⟨2, ![512, 1]⟩
abbrev S512x512 : Shape := ⟨2, ![512, 512]⟩
abbrev S512 : Shape := ⟨1, ![512]⟩

abbrev nBuf : Space → Nat
  | .hbm => 18
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S4x2048x2048, .i1⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Region0.lean ====
import proofs.«182005_j67748814127590_2_alg».proof.Proof.Gen.Kernel.Launch
import proofs.«182005_j67748814127590_2_alg».proof.Proof.Gen.Kernel.Skeleton
import proofs.«182005_j67748814127590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: what each grid point's body leaves in the staging buffers

The first region of the program runs over 16 grid points.  At a point it reads a block of 512 rows of the
activation array (f32) and three whole weight matrices (bf16), and writes three blocks of 512 rows: each is
the activation block rounded to bf16, multiplied by one weight matrix, and the product rounded to bf16 again.

This module states the proof data of that pipeline at arbitrary entry contents `V` of the core's buffers and
proves the obligation on the body: started on staging buffers holding the input blocks, the body ends with the
input buffers unchanged and each output buffer holding the product just described.  Before each store the body
also reads the output buffer it is about to overwrite; that value is never used, so the output buffers may hold
anything at the start.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks -/

/-- The block of window `w` at grid point `t`, cut out of that window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each access is of a whole staging buffer -/

/-- All of a 512 × 1024 buffer. -/
abbrev rectX : Rect S512x1024 := Rect.unit (s := S512x1024) ![0, 0] S512x1024.size inb_S512x1024_S512x1024_0_0
/-- All of a 1024 × 1024 buffer. -/
abbrev rectW : Rect S1024x1024 := Rect.unit (s := S1024x1024) ![0, 0] S1024x1024.size inb_S1024x1024_S1024x1024_0_0

/-! ## The contents of the three output buffers after the body

Each output buffer receives exactly one store, of the whole buffer; as a function of the activation block `x0`
and of the weight `xw` the body multiplies by, the buffer then reads as that single piece. -/

def out0_4 (x0 : Vec F S512x1024 .f32) (xw : Vec F S1024x1024 .bf16) : Vec F S512x1024 .bf16 :=
  View.canon [⟨rectX, k0_pay2 (View.ld x0 rectX) (View.ld xw rectW)⟩]

def out0_5 (x0 : Vec F S512x1024 .f32) (xw : Vec F S1024x1024 .bf16) : Vec F S512x1024 .bf16 :=
  View.canon [⟨rectX, k0_pay3 (View.ld x0 rectX) (View.ld xw rectW)⟩]

def out0_6 (x0 : Vec F S512x1024 .f32) (xw : Vec F S1024x1024 .bf16) : Vec F S512x1024 .bf16 :=
  View.canon [⟨rectX, k0_pay4 (View.ld x0 rectX) (View.ld xw rectW)⟩]

/-- A single piece over the whole-buffer rectangle reaches every index of the buffer. -/
theorem whole_piece_covers (p : Vec F S512x1024 .bf16) (y : S512x1024.Idx) :
    ∃ pc ∈ ([⟨rectX, p⟩] : List (View.Piece (Elt F) S512x1024 .bf16)), y ∈ pc.1.set :=
  View.cover_of_tiled [⟨rectX, p⟩] S512x1024.size (by rfl) y

/-! ## The body, run on whole staging buffers -/

set_option maxHeartbeats 1000000 in
/-- Run on seven whole staging buffers — the four inputs at given contents, the three outputs at any contents —
    the body terminates without fault, the inputs as they were and every output at its product. -/
theorem kernel_triple0 (c : Dev nD) (E : Set ℕ)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (i : grid0.Coords) (x0 : Vec F S512x1024 .f32) (w1 w2 w3 : Vec F S1024x1024 .bf16) (K : PUnit → sProp 𝕄) :
    iprop(owns (c : Thread nD τ) arg1 fullShare x0
        ∗ owns (c : Thread nD τ) arg2 fullShare w1
        ∗ owns (c : Thread nD τ) arg3 fullShare w2
        ∗ owns (c : Thread nD τ) arg4 fullShare w3
        ∗ (∃ d, owns (c : Thread nD τ) arg5 fullShare d)
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare w1
            ∗ owns (c : Thread nD τ) arg3 fullShare w2
            ∗ owns (c : Thread nD τ) arg4 fullShare w3
            ∗ owns (c : Thread nD τ) arg5 fullShare (out0_4 x0 w1)
            ∗ owns (c : Thread nD τ) arg6 fullShare (out0_5 x0 w2)
            ∗ owns (c : Thread nD τ) arg7 fullShare (out0_6 x0 w3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_piece_covers _)
  isplitl [H6]
  · iexists _; isplitr
    swap; · iexact H6
    ipureintro
    exact View.read_writes_eq_canon _ _ _ (whole_piece_covers _)
  iexists _; isplitr
  swap; · iexact H7
  ipureintro
  exact View.read_writes_eq_canon _ _ _ (whole_piece_covers _)

/-! ## The proof data of the pipeline -/

/-- The pipeline's proof data on core `c`.  Its arrays are the entry contents `V`.  After the body at point `t`
    an input's staging buffer still holds the input's block, and the three output buffers hold the products of
    the activation block with the first, second and third weight.  The invariant is the untouched remainder of the
    core's state; the core owes nothing and holds every array in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

/-! ## What the body finds in the input buffers

An input's staging buffer holds the input's block at every point.  Where the block was fetched this is what the
fetch wrote.  Where it was not — the weights after the first point — the block index is the one of the point before,
and the body there left the buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The obligation on the body at a grid point -/

/-- What the pipeline hands the body at point `t`: the invariant, the tallies owed, and every window's current
    staging buffer at what it holds there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body must hand back: the same, every buffer at what the proof data says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold the input blocks, so the run on whole buffers applies; the
    invariant and the tallies are not touched. -/
theorem body_triple0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_triple0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorems ask of the body, at every point. -/
theorem body_obligation0 (c : Dev nD) :
    BodyObligation (dat0 (F := F) V c) (defs₀ (F := F)) Variants.none () Set.univ := fun t => by
  rw [bigSep_W0, bigSep_W0]
  exact body_triple0 V c t

end Region0

end Cert.Kernel.Hand

end
-- ==== Proof.K.RunA.lean ====
/-
  The contents of a core's buffers along the program, up to the exit of the first region.

  The program is: seven host operations (a reshape of the activations; a transpose and a rounding to bf16 of
  each weight), the projection region, three host reshapes, the attention region.  The contents at each
  boundary are a fold from the launch memory: a host stretch rewrites the buffers its operations write, a region
  rewrites its windows' arrays with what its write-backs leave.  This file has the fold up to the first region's
  exit, and what the first stretch puts in the four arrays the first region reads.
-/
import proofs.«182005_j67748814127590_2_alg».proof.Proof.Gen.Kernel.Regions
import proofs.«182005_j67748814127590_2_alg».proof.Proof.K.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold, from the launch to the first region's exit -/

/-- Core c's buffers in the launch state (memory m, every counter zero, generator registers ρ). -/
abbrev W0 : Dev nD → Valuation τ sig (Elt F) := fun c b => (⟨m, fun _ => 0, ρ⟩ : MemSt nD τ sig (Elt F)).mem (c, b)
/-- After the first host stretch: the first region's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2
  exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2
  exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- A reference the first stretch does not write holds its launch contents at the first region's entry. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h

/-! ## What the first stretch leaves in the arrays the first region reads -/

/-- The activations, flattened to 8192 rows. -/
theorem V1_main_v0 (c : Dev nD) :
    (V1 m ρ c main_v0 : S8192x1024.Idx → Elt F .f32)
      = shapeCast S8192x1024 (m ((c : Thread nD τ).loc main_arg0)) shapeCasts_S4x2048x1024_S8192x1024 := by
  show StableHlo.after hostOps0 (fun b => m (c, b)) (Proc.devRef .tc main_v0) = _
  after_results
  rfl

/-- The first weight, transposed and rounded to bf16. -/
theorem V1_main_v2 (c : Dev nD) :
    (V1 m ρ c main_v2 : S1024x1024.Idx → Elt F .bf16)
      = truncf .bf16 (transpose S1024x1024 [1, 0] (m ((c : Thread nD τ).loc main_arg1)) transposes_S1024x1024_S1024x1024_1_0)
          bitsLt_bf16_f32 := by
  show StableHlo.after hostOps0 (fun b => m (c, b)) (Proc.devRef .tc main_v2) = _
  after_results

/-- The second weight, transposed and rounded to bf16. -/
theorem V1_main_v4 (c : Dev nD) :
    (V1 m ρ c main_v4 : S1024x1024.Idx → Elt F .bf16)
      = truncf .bf16 (transpose S1024x1024 [1, 0] (m ((c : Thread nD τ).loc main_arg2)) transposes_S1024x1024_S1024x1024_1_0)
          bitsLt_bf16_f32 := by
  show StableHlo.after hostOps0 (fun b => m (c, b)) (Proc.devRef .tc main_v4) = _
  after_results

/-- The third weight, transposed and rounded to bf16. -/
theorem V1_main_v6 (c : Dev nD) :
    (V1 m ρ c main_v6 : S1024x1024.Idx → Elt F .bf16)
      = truncf .bf16 (transpose S1024x1024 [1, 0] (m ((c : Thread nD τ).loc main_arg3)) transposes_S1024x1024_S1024x1024_1_0)
          bitsLt_bf16_f32 := by
  show StableHlo.after hostOps0 (fun b => m (c, b)) (Proc.devRef .tc main_v6) = _
  after_results

end Cert.Kernel.Hand

end
-- ==== Proof.K.R1Base.lean ====
/-
  The second pallas_call (the attention kernel, a grid of 4 × 4 × 4 points (b, qi, ki)), at the contents `V` its
  region is entered with: what its input windows hold at a point, the three conditions of the body's `scf.if`s
  as arithmetic on the point's number `t = 16 b + 4 qi + ki` (first key block: `t % 4 = 0`; key block not after
  the query block: `t % 4 ≤ t / 4 % 4`; last key block: `t % 4 = 3`), where the output window is idle, and the
  scratch operands (running maximum, normaliser, weighted sum) as memrefs.
-/
import proofs.«182005_j67748814127590_2_alg».proof.Proof.Gen.Kernel.Launch
import proofs.«182005_j67748814127590_2_alg».proof.Proof.Gen.Kernel.Skeleton
import proofs.«182005_j67748814127590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    point has the block index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- `ki = 0`: the point starts a row of key blocks (the running state is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- `ki ≤ qi`: the key block is not after the query block (the running state is updated). -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- `ki = 3`: the last key block (the quotient is written to the output block). -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block the output window is idle and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key block it is live. -/
theorem liveAt1_3 : ∀ t : Fin cfg1.N, cond1_2 (grid1.coords t) → cfg1.idle 3 (grid1.coords t) = false := by decide +kernel

/-! ## The memrefs the body is called with -/

abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands: the running maximum, the normaliser, the weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The staging buffers of the other pallas_call's windows (scoped buffers this region never touches), each at
    anything, around `P`. -/
def restI (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

theorem restI_mono (c : Dev nD) {P Q : sProp 𝕄} (h : P ⊢ Q) : restI (F := F) c P ⊢ restI (F := F) c Q := by
  unfold restI
  iintro ⟨R0, R1, R2, R3, R4, R5, R6, R7, R8, R9, R10, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iapply h; iexact HP

/-- `P` can be taken out of the rest and anything put back in its place. -/
theorem restI_frame (c : Dev nD) (P : sProp 𝕄) : restI (F := F) c P ⊢ iprop(P ∗ (∀ Q : sProp 𝕄, Q -∗ restI (F := F) c Q)) := by
  unfold restI
  iintro ⟨R0, R1, R2, R3, R4, R5, R6, R7, R8, R9, R10, HP⟩
  isplitl [HP]; · iexact HP
  iintro %Q HQ
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HQ

/-- The region's plain invariant: those buffers and the three scratch operands at anything, and the generator register. -/
theorem PhiA1_eq (c : Dev nD) :
    (Pipeline.ΦA spec1 c : sProp 𝕄)
      = iprop(restI (F := F) c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA restI; rw [scopedRest1_eq]; simp only [scM1_0, scM1_1, scM1_2, owns_whole]; try rfl

end Cert.Kernel.Hand

end
-- ==== Proof.K.R1RunA.lean ====
/-
  The attention kernel's body run whole at the first key block (the state is reset, then updated): on whole memrefs at
  their contents it runs to the continuation, each buffer it stores into holding its stores as pieces (last first).
-/
import proofs.«182005_j67748814127590_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 x1 x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunB.lean ====
/-
  The attention kernel's body run whole at a middle key block not after the query block (the state is updated): on whole memrefs at
  their contents it runs to the continuation, each buffer it stores into holding its stores as pieces (last first).
-/
import proofs.«182005_j67748814127590_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunC.lean ====
/-
  The attention kernel's body run whole at a middle key block after the query block (nothing happens): on whole memrefs at
  their contents it runs to the continuation, each buffer it stores into holding its stores as pieces (last first).
-/
import proofs.«182005_j67748814127590_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], [], [], [], fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.R1RunD.lean ====
/-
  The attention kernel's body run whole at the last key block, on the diagonal (the state is updated, then the quotient is written out): on whole memrefs at
  their contents it runs to the continuation, each buffer it stores into holding its stores as pieces (last first).
-/
import proofs.«182005_j67748814127590_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1RunE.lean ====
/-
  The attention kernel's body run whole at the last key block, after the query block (the quotient is written out): on whole memrefs at
  their contents it runs to the continuation, each buffer it stores into holding its stores as pieces (last first).
-/
import proofs.«182005_j67748814127590_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, [], [], [], fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.R1Dat.lean ====
/-
  The attention kernel's region as proof data for the pipeline: what the output block and the three scratch
  operands (running maximum, normaliser, weighted sum) hold after each grid point, point by point — the case the
  point is in, run on the point's input blocks and on what the point before left in the scratch —; the region's
  invariant carrying the scratch from point to point; and the body's obligation at every point.
-/
import proofs.«182005_j67748814127590_2_alg».proof.Proof.K.R1RunA
import proofs.«182005_j67748814127590_2_alg».proof.Proof.K.R1RunB
import proofs.«182005_j67748814127590_2_alg».proof.Proof.K.R1RunC
import proofs.«182005_j67748814127590_2_alg».proof.Proof.K.R1RunD
import proofs.«182005_j67748814127590_2_alg».proof.Proof.K.R1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block, the running maximum, the normaliser and the weighted sum. -/
abbrev St1 (F : FTy → Type) : Type := Vec F S1x512x1024 .f32 × Vec F S512x1 .f32 × Vec F S512x1 .f32 × Vec F S512x1024 .f32

/-- The output block's contents where the body stores nothing into it (never consulted: the block is not written back there). -/
def outIdle : Vec F S1x512x1024 .f32 := VO1_3.read (Elt F) VO1_3.junk

/-- What a point of case A leaves, from its input blocks. -/
def stA (c : Dev nD) (t : Fin cfg1.N) (h0 : t.val % 4 = 0) (h1 : t.val % 4 ≤ t.val / 4 % 4) (h2 : ¬t.val % 4 = 3) : St1 F :=
  (outIdle,
   VS1_0.read (Elt F) (VS1_0.writes (Elt F) VS1_0.junk (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.1),
   VS1_1.read (Elt F) (VS1_1.writes (Elt F) VS1_1.junk (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.1),
   VS1_2.read (Elt F) (VS1_2.writes (Elt F) VS1_2.junk (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2.1))

theorem scoverA_0 (c : Dev nD) (t : Fin cfg1.N) (h0 : t.val % 4 = 0) (h1 : t.val % 4 ≤ t.val / 4 % 4) (h2 : ¬t.val % 4 = 3) (y : S512x1.Idx) :
    ∃ pc ∈ (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.1, y ∈ pc.1.set :=
  View.cover_of_tiledL _ S512x1.size (by sl_kernel_rfl) y
theorem scoverA_1 (c : Dev nD) (t : Fin cfg1.N) (h0 : t.val % 4 = 0) (h1 : t.val % 4 ≤ t.val / 4 % 4) (h2 : ¬t.val % 4 = 3) (y : S512x1.Idx) :
    ∃ pc ∈ (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.1, y ∈ pc.1.set :=
  View.cover_of_tiledL _ S512x1.size (by sl_kernel_rfl) y
theorem scoverA_2 (c : Dev nD) (t : Fin cfg1.N) (h0 : t.val % 4 = 0) (h1 : t.val % 4 ≤ t.val / 4 % 4) (h2 : ¬t.val % 4 = 3) (y : S512x1024.Idx) :
    ∃ pc ∈ (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2.1, y ∈ pc.1.set :=
  View.cover_of_tiledL _ S512x1024.size (by sl_kernel_rfl) y

/-- What a point of case B leaves, from its input blocks and what the point before left. -/
def stB (c : Dev nD) (t : Fin cfg1.N) (h0 : ¬t.val % 4 = 0) (h1 : t.val % 4 ≤ t.val / 4 % 4) (h2 : ¬t.val % 4 = 3) (prev : St1 F) : St1 F :=
  (outIdle,
   VS1_0.read (Elt F) (VS1_0.writes (Elt F) VS1_0.junk (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.1),
   VS1_1.read (Elt F) (VS1_1.writes (Elt F) VS1_1.junk (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.1),
   VS1_2.read (Elt F) (VS1_2.writes (Elt F) VS1_2.junk (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.2.1))

theorem scoverB_0 (c : Dev nD) (t : Fin cfg1.N) (h0 : ¬t.val % 4 = 0) (h1 : t.val % 4 ≤ t.val / 4 % 4) (h2 : ¬t.val % 4 = 3) (prev : St1 F) (y : S512x1.Idx) :
    ∃ pc ∈ (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.1, y ∈ pc.1.set :=
  View.cover_of_tiledL _ S512x1.size (by sl_kernel_rfl) y
theorem scoverB_1 (c : Dev nD) (t : Fin cfg1.N) (h0 : ¬t.val % 4 = 0) (h1 : t.val % 4 ≤ t.val / 4 % 4) (h2 : ¬t.val % 4 = 3) (prev : St1 F) (y : S512x1.Idx) :
    ∃ pc ∈ (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.1, y ∈ pc.1.set :=
  View.cover_of_tiledL _ S512x1.size (by sl_kernel_rfl) y
theorem scoverB_2 (c : Dev nD) (t : Fin cfg1.N) (h0 : ¬t.val % 4 = 0) (h1 : t.val % 4 ≤ t.val / 4 % 4) (h2 : ¬t.val % 4 = 3) (prev : St1 F) (y : S512x1024.Idx) :
    ∃ pc ∈ (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.2.1, y ∈ pc.1.set :=
  View.cover_of_tiledL _ S512x1024.size (by sl_kernel_rfl) y

/-- What a point of case D leaves, from its input blocks and what the point before left. -/
def stD (c : Dev nD) (t : Fin cfg1.N) (h0 : ¬t.val % 4 = 0) (h1 : t.val % 4 ≤ t.val / 4 % 4) (h2 : t.val % 4 = 3) (prev : St1 F) : St1 F :=
  (VO1_3.read (Elt F) (VO1_3.writes (Elt F) VO1_3.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).1),
   VS1_0.read (Elt F) (VS1_0.writes (Elt F) VS1_0.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.1),
   VS1_1.read (Elt F) (VS1_1.writes (Elt F) VS1_1.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.1),
   VS1_2.read (Elt F) (VS1_2.writes (Elt F) VS1_2.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.2.1))

theorem scoverD_0 (c : Dev nD) (t : Fin cfg1.N) (h0 : ¬t.val % 4 = 0) (h1 : t.val % 4 ≤ t.val / 4 % 4) (h2 : t.val % 4 = 3) (prev : St1 F) (y : S512x1.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.1, y ∈ pc.1.set :=
  View.cover_of_tiledL _ S512x1.size (by sl_kernel_rfl) y
theorem scoverD_1 (c : Dev nD) (t : Fin cfg1.N) (h0 : ¬t.val % 4 = 0) (h1 : t.val % 4 ≤ t.val / 4 % 4) (h2 : t.val % 4 = 3) (prev : St1 F) (y : S512x1.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.1, y ∈ pc.1.set :=
  View.cover_of_tiledL _ S512x1.size (by sl_kernel_rfl) y
theorem scoverD_2 (c : Dev nD) (t : Fin cfg1.N) (h0 : ¬t.val % 4 = 0) (h1 : t.val % 4 ≤ t.val / 4 % 4) (h2 : t.val % 4 = 3) (prev : St1 F) (y : S512x1024.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.2.1, y ∈ pc.1.set :=
  View.cover_of_tiledL _ S512x1024.size (by sl_kernel_rfl) y
theorem coverD_3 (c : Dev nD) (t : Fin cfg1.N) (h0 : ¬t.val % 4 = 0) (h1 : t.val % 4 ≤ t.val / 4 % 4) (h2 : t.val % 4 = 3) (prev : St1 F) (y : S1x512x1024.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).1, y ∈ pc.1.set :=
  View.cover_of_tiledL _ S1x512x1024.size (by sl_kernel_rfl) y

/-- What a point of case E leaves, from its input blocks and what the point before left. -/
def stE (c : Dev nD) (t : Fin cfg1.N) (h0 : ¬t.val % 4 = 0) (h1 : ¬t.val % 4 ≤ t.val / 4 % 4) (h2 : t.val % 4 = 3) (prev : St1 F) : St1 F :=
  (VO1_3.read (Elt F) (VO1_3.writes (Elt F) VO1_3.junk (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.2.1 prev.2.2.1 prev.2.2.2).1),
   prev.2.1,
   prev.2.2.1,
   prev.2.2.2)

theorem coverE_3 (c : Dev nD) (t : Fin cfg1.N) (h0 : ¬t.val % 4 = 0) (h1 : ¬t.val % 4 ≤ t.val / 4 % 4) (h2 : t.val % 4 = 3) (prev : St1 F) (y : S1x512x1024.Idx) :
    ∃ pc ∈ (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.2.1 prev.2.2.1 prev.2.2.2).1, y ∈ pc.1.set :=
  View.cover_of_tiledL _ S1x512x1024.size (by sl_kernel_rfl) y

/-- A middle key block after the query block: nothing is stored. -/
def stC (prev : St1 F) : St1 F := (outIdle, prev.2.1, prev.2.2.1, prev.2.2.2)

/-- THE ACCUMULATION: what the output block and the scratch operands hold after the body at position `n`. -/
def outsAt1 (c : Dev nD) : (n : ℕ) → n < cfg1.N → St1 F
  | 0, hn => stA V c ⟨0, hn⟩ (by show 0 % 4 = 0; rfl) (by show 0 % 4 ≤ 0 / 4 % 4; decide) (by show ¬0 % 4 = 3; decide)
  | n + 1, hn =>
    if h0 : (n + 1) % 4 = 0 then stA V c ⟨n + 1, hn⟩ h0 (by show (n + 1) % 4 ≤ _; omega) (by show ¬(n + 1) % 4 = 3; omega)
    else if h1 : (n + 1) % 4 ≤ (n + 1) / 4 % 4 then
      if h2 : (n + 1) % 4 = 3 then stD V c ⟨n + 1, hn⟩ h0 h1 h2 (outsAt1 c n (Nat.lt_of_succ_lt hn))
      else stB V c ⟨n + 1, hn⟩ h0 h1 h2 (outsAt1 c n (Nat.lt_of_succ_lt hn))
    else
      if h2 : (n + 1) % 4 = 3 then stE V c ⟨n + 1, hn⟩ h0 h1 h2 (outsAt1 c n (Nat.lt_of_succ_lt hn))
      else stC (outsAt1 c n (Nat.lt_of_succ_lt hn))

theorem outsAt1_A (c : Dev nD) (t : Fin cfg1.N) (h0 : t.val % 4 = 0) (h1 : t.val % 4 ≤ t.val / 4 % 4) (h2 : ¬t.val % 4 = 3) :
    outsAt1 V c t.val t.isLt = stA V c t h0 h1 h2 := by
  obtain ⟨n, hn⟩ := t
  cases n with
  | zero => rfl
  | succ n => exact (dif_pos h0).trans rfl
theorem outsAt1_B (c : Dev nD) (t : Fin cfg1.N) (h0 : ¬t.val % 4 = 0) (h1 : t.val % 4 ≤ t.val / 4 % 4) (h2 : ¬t.val % 4 = 3) :
    outsAt1 V c t.val t.isLt = stB V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans rfl))
theorem outsAt1_C (c : Dev nD) (t : Fin cfg1.N) (h0 : ¬t.val % 4 = 0) (h1 : ¬t.val % 4 ≤ t.val / 4 % 4) (h2 : ¬t.val % 4 = 3) :
    outsAt1 V c t.val t.isLt = stC (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans rfl))
theorem outsAt1_D (c : Dev nD) (t : Fin cfg1.N) (h0 : ¬t.val % 4 = 0) (h1 : t.val % 4 ≤ t.val / 4 % 4) (h2 : t.val % 4 = 3) :
    outsAt1 V c t.val t.isLt = stD V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_pos h2).trans rfl))
theorem outsAt1_E (c : Dev nD) (t : Fin cfg1.N) (h0 : ¬t.val % 4 = 0) (h1 : ¬t.val % 4 ≤ t.val / 4 % 4) (h2 : t.val % 4 = 3) :
    outsAt1 V c t.val t.isLt = stE V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans rfl))

/-- The scratch operands at the contents a state names. -/
def scrAt (c : Dev nD) (s : St1 F) : sProp 𝕄 :=
  iprop(owns (c : Thread nD τ) scM1_0 fullShare s.2.1 ∗ owns (c : Thread nD τ) scM1_1 fullShare s.2.2.1 ∗ owns (c : Thread nD τ) scM1_2 fullShare s.2.2.2)

/-- The region's invariant before position `n`: before the first point the plain one (every scratch at anything);
    afterwards the scratch operands at what the point before left in them. -/
def PhiS (c : Dev nD) : (n : ℕ) → n ≤ cfg1.N → sProp 𝕄
  | 0, _ => Pipeline.ΦA spec1 c
  | n + 1, hn => iprop(restI (F := F) c (scrAt c (outsAt1 V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restI (F := F) c (scrAt c (outsAt1 V c n hn)) ∗ (∃ r, prngReg c r)) := rfl
theorem PhiS_pos (c : Dev nD) (n : ℕ) (h : n ≤ cfg1.N) (hz : n ≠ 0) :
    PhiS V c n h = iprop(restI (F := F) c (scrAt c (outsAt1 V c (n - 1) (by omega))) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.K.R1Body.lean ====
/-
  The body's obligation for the attention kernel at every grid point: the point's case is decided from its number,
  the invariant hands the body the scratch operands at what the point before left (at anything before the first
  point) and takes them back at what this point leaves; the output block is handed back untouched off the last key
  block.
-/
import proofs.«182005_j67748814127590_2_alg».proof.Proof.K.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_A V c t h0 h1 h2]
    unfold scrAt stA; (try dsimp only)
    by_cases hz : t.val = 0
    · rw [PhiS_castSucc V c t, PhiS_zero V c _ _ hz, PhiA1_eq]; unfold restI
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 Hg]
      · isplitl [R0 R1 R2 R3 R4 R5 R6 R7 R8 R9 R10 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scoverA_0 V c t h0 h1 h2)
          isplitl [HS1]
          · unfold owns; iexists _; isplitr
            swap; · iexact HS1
            ipureintro; exact View.read_writes_of_cover _ _ _ _ _ (scoverA_1 V c t h0 h1 h2)
          unfold owns; iexists _; isplitr
          swap; · iexact HS2
          ipureintro; exact View.read_writes_of_cover _ _ _ _ _ (scoverA_2 V c t h0 h1 h2)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold restI scrAt
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 Hg]
      · isplitl [R0 R1 R2 R3 R4 R5 R6 R7 R8 R9 R10 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scoverA_0 V c t h0 h1 h2)
          isplitl [HS1]
          · unfold owns; iexists _; isplitr
            swap; · iexact HS1
            ipureintro; exact View.read_writes_of_cover _ _ _ _ _ (scoverA_1 V c t h0 h1 h2)
          unfold owns; iexists _; isplitr
          swap; · iexact HS2
          ipureintro; exact View.read_writes_of_cover _ _ _ _ _ (scoverA_2 V c t h0 h1 h2)
        iexact Hg
      isplitl [Ho]; · iexact Ho
      isplitl [H0]; · iexact H0
      isplitl [H1]; · iexact H1
      isplitl [H2]; · iexact H2
      iexists _; iexact H3
  · by_cases h1 : t.val % 4 ≤ t.val / 4 % 4
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold scrAt stD; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scoverD_0 V c t h0 h1 h2 _)
            isplitl [HS1]
            · unfold owns; iexists _; isplitr
              swap; · iexact HS1
              ipureintro; exact View.read_writes_of_cover _ _ _ _ _ (scoverD_1 V c t h0 h1 h2 _)
            unfold owns; iexists _; isplitr
            swap; · iexact HS2
            ipureintro; exact View.read_writes_of_cover _ _ _ _ _ (scoverD_2 V c t h0 h1 h2 _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 V c t h0 h1 h2 _)
      · skip
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold scrAt stB; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scoverB_0 V c t h0 h1 h2 _)
            isplitl [HS1]
            · unfold owns; iexists _; isplitr
              swap; · iexact HS1
              ipureintro; exact View.read_writes_of_cover _ _ _ _ _ (scoverB_1 V c t h0 h1 h2 _)
            unfold owns; iexists _; isplitr
            swap; · iexact HS2
            ipureintro; exact View.read_writes_of_cover _ _ _ _ _ (scoverB_2 V c t h0 h1 h2 _)
          iexact Hg
        isplitl [Ho]; · iexact Ho
        isplitl [H0]; · iexact H0
        isplitl [H1]; · iexact H1
        isplitl [H2]; · iexact H2
        iexists _; iexact H3
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold scrAt stE; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_3 V c t h0 h1 h2 _)
      · skip
        rw [Dat.leavesExact_idle (dat1 V c) 3 t (idleAt1_3 t (fun h => h2 ((hcond1_2 t).mp h))) (noFlush1_3 t (fun h => h2 ((hcond1_2 t).mp h)))]
        rw [outsAt1_C V c t h0 h1 h2]
        unfold scrAt stC; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the scratch's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scrAt
  refine sep_mono (restI_mono c ?_) .rfl
  iintro ⟨HS0, HS1, HS2⟩
  isplitl [HS0]; · iexists _; iexact HS0
  isplitl [HS1]; · iexists _; iexact HS1
  iexists _; iexact HS2

end Cert.Kernel.Hand

end
-- ==== Proof.K.Run.lean ====
/-
  The whole run of the program: both regions and the host stretches between them, as the segments of the
  launch theorem for programs of several regions.

  The contents of a core's buffers are folded on from the first region's exit: the three reshapes of the
  projections, then the attention region's arrays at what its write-backs leave.  Each region is entered from
  "every unscoped buffer at the boundary's contents, the generator register at some state, nothing owed": its
  arrays are split out of the unscoped buffers and put back at the exit contents.  The second region's invariant
  carries its scratch from point to point; it starts from, and ends in, the plain invariant.  The run's final
  memory is read against the last boundary's contents, and each argument's buffer is walked back through the
  fold to the launch memory, since no operation and no region writes it.
-/
import proofs.«182005_j67748814127590_2_alg».proof.Proof.K.RunA
import proofs.«182005_j67748814127590_2_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold, from the first region's exit to the end -/

/-- After the second host stretch: the second region's entry. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4
  exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4
  exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A reference the second stretch does not write is as the first region left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ### The arguments end as launched

No host operation writes an argument and no window's array is an argument (the first region reads a reshape of
the activations and the rounded transposes of the weights), so each step of the fold leaves it alone. -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| W1_of m ρ c main_arg0 (by decide)
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| W1_of m ρ c main_arg1 (by decide)
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| W1_of m ρ c main_arg2 (by decide)
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| W1_of m ρ c main_arg3 (by decide)

/-! ### What the second region reads and what the program returns -/

/-- The result array holds what the attention pipeline's write-backs leave in it. -/
theorem W4_main_v11 (c : Dev nD) : W4 m ρ c (Proc.devRef .tc main_v11) = (dat1 (V3 m ρ) c).arrAt 3 cfg1.N :=
  W4_arr m ρ c 3

/-- The query projections as the second region reads them: the first region's first output, reshaped. -/
theorem V3_main_v8 (c : Dev nD) :
    (V3 m ρ c main_v8 : S4x2048x1024.Idx → Elt F .bf16)
      = shapeCast S4x2048x1024 ((dat0 (V1 m ρ) c).arrAt 4 cfg0.N) shapeCasts_S8192x1024_S4x2048x1024 := by
  rw [← W2_arr m ρ c 4]
  show StableHlo.after hostOps1 (W2 m ρ c) (Proc.devRef .tc main_v8) = _
  after_results
  rfl
/-- The key projections: the first region's second output, reshaped. -/
theorem V3_main_v9 (c : Dev nD) :
    (V3 m ρ c main_v9 : S4x2048x1024.Idx → Elt F .bf16)
      = shapeCast S4x2048x1024 ((dat0 (V1 m ρ) c).arrAt 5 cfg0.N) shapeCasts_S8192x1024_S4x2048x1024 := by
  rw [← W2_arr m ρ c 5]
  show StableHlo.after hostOps1 (W2 m ρ c) (Proc.devRef .tc main_v9) = _
  after_results
  rfl
/-- The value projections: the first region's third output, reshaped. -/
theorem V3_main_v10 (c : Dev nD) :
    (V3 m ρ c main_v10 : S4x2048x1024.Idx → Elt F .bf16)
      = shapeCast S4x2048x1024 ((dat0 (V1 m ρ) c).arrAt 6 cfg0.N) shapeCasts_S8192x1024_S4x2048x1024 := by
  rw [← W2_arr m ρ c 6]
  show StableHlo.after hostOps1 (W2 m ρ c) (Proc.devRef .tc main_v10) = _
  after_results
  rfl

/-! ## The proof data family and the thread state -/

/-- Each pipeline's proof data at its region's entry contents: a literal match, so that the configuration at a
    numeral index reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4.  Its invariant starts from the
    plain one and gives the plain one back after the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- From any memory with zero counters, every weakly fair execution of the program on the TensorCores
    terminates without a fault, and any property of the final memory that follows from "every unscoped buffer of
    every core holds the last contents of the fold" holds of it. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run, with the final memory read at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  run_post m ρ fun s h => h

/-- The frame: the program runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.Kernel.Hand

end
-- ==== Proof.KI.Region0.lean ====
import proofs.«182005_j67748814127590_2_alg».proof.Proof.Gen.KernelIdeal.Launch
import proofs.«182005_j67748814127590_2_alg».proof.Proof.Gen.KernelIdeal.Skeleton
import proofs.«182005_j67748814127590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: what each grid point's body leaves in the staging buffers

The first region of the program runs over 16 grid points.  At a point it reads a block of 512 rows of the
activation array (f32) and three whole weight matrices (bf16), and writes three blocks of 512 rows: each is
the activation block rounded to bf16, multiplied by one weight matrix, and the product rounded to bf16 again.

This module states the proof data of that pipeline at arbitrary entry contents `V` of the core's buffers and
proves the obligation on the body: started on staging buffers holding the input blocks, the body ends with the
input buffers unchanged and each output buffer holding the product just described.  Before each store the body
also reads the output buffer it is about to overwrite; that value is never used, so the output buffers may hold
anything at the start.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-! ## Blocks -/

/-- The block of window `w` at grid point `t`, cut out of that window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each access is of a whole staging buffer -/

/-- All of a 512 × 1024 buffer. -/
abbrev rectX : Rect S512x1024 := Rect.unit (s := S512x1024) ![0, 0] S512x1024.size inb_S512x1024_S512x1024_0_0
/-- All of a 1024 × 1024 buffer. -/
abbrev rectW : Rect S1024x1024 := Rect.unit (s := S1024x1024) ![0, 0] S1024x1024.size inb_S1024x1024_S1024x1024_0_0

/-! ## The contents of the three output buffers after the body

Each output buffer receives exactly one store, of the whole buffer; as a function of the activation block `x0`
and of the weight `xw` the body multiplies by, the buffer then reads as that single piece. -/

def out0_4 (x0 : Vec F S512x1024 .f32) (xw : Vec F S1024x1024 .bf16) : Vec F S512x1024 .bf16 :=
  View.canon [⟨rectX, k0_pay2 (View.ld x0 rectX) (View.ld xw rectW)⟩]

def out0_5 (x0 : Vec F S512x1024 .f32) (xw : Vec F S1024x1024 .bf16) : Vec F S512x1024 .bf16 :=
  View.canon [⟨rectX, k0_pay3 (View.ld x0 rectX) (View.ld xw rectW)⟩]

def out0_6 (x0 : Vec F S512x1024 .f32) (xw : Vec F S1024x1024 .bf16) : Vec F S512x1024 .bf16 :=
  View.canon [⟨rectX, k0_pay4 (View.ld x0 rectX) (View.ld xw rectW)⟩]

/-- A single piece over the whole-buffer rectangle reaches every index of the buffer. -/
theorem whole_piece_covers (p : Vec F S512x1024 .bf16) (y : S512x1024.Idx) :
    ∃ pc ∈ ([⟨rectX, p⟩] : List (View.Piece (Elt F) S512x1024 .bf16)), y ∈ pc.1.set :=
  View.cover_of_tiled [⟨rectX, p⟩] S512x1024.size (by rfl) y

/-! ## The body, run on whole staging buffers -/

set_option maxHeartbeats 1000000 in
/-- Run on seven whole staging buffers — the four inputs at given contents, the three outputs at any contents —
    the body terminates without fault, the inputs as they were and every output at its product. -/
theorem kernel_triple0 (c : Dev nD) (E : Set ℕ)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (i : grid0.Coords) (x0 : Vec F S512x1024 .f32) (w1 w2 w3 : Vec F S1024x1024 .bf16) (K : PUnit → sProp 𝕄) :
    iprop(owns (c : Thread nD τ) arg1 fullShare x0
        ∗ owns (c : Thread nD τ) arg2 fullShare w1
        ∗ owns (c : Thread nD τ) arg3 fullShare w2
        ∗ owns (c : Thread nD τ) arg4 fullShare w3
        ∗ (∃ d, owns (c : Thread nD τ) arg5 fullShare d)
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare w1
            ∗ owns (c : Thread nD τ) arg3 fullShare w2
            ∗ owns (c : Thread nD τ) arg4 fullShare w3
            ∗ owns (c : Thread nD τ) arg5 fullShare (out0_4 x0 w1)
            ∗ owns (c : Thread nD τ) arg6 fullShare (out0_5 x0 w2)
            ∗ owns (c : Thread nD τ) arg7 fullShare (out0_6 x0 w3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_piece_covers _)
  isplitl [H6]
  · iexists _; isplitr
    swap; · iexact H6
    ipureintro
    exact View.read_writes_eq_canon _ _ _ (whole_piece_covers _)
  iexists _; isplitr
  swap; · iexact H7
  ipureintro
  exact View.read_writes_eq_canon _ _ _ (whole_piece_covers _)

/-! ## The proof data of the pipeline -/

/-- The pipeline's proof data on core `c`.  Its arrays are the entry contents `V`.  After the body at point `t`
    an input's staging buffer still holds the input's block, and the three output buffers hold the products of
    the activation block with the first, second and third weight.  The invariant is the untouched remainder of the
    core's state; the core owes nothing and holds every array in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

/-! ## What the body finds in the input buffers

An input's staging buffer holds the input's block at every point.  Where the block was fetched this is what the
fetch wrote.  Where it was not — the weights after the first point — the block index is the one of the point before,
and the body there left the buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The obligation on the body at a grid point -/

/-- What the pipeline hands the body at point `t`: the invariant, the tallies owed, and every window's current
    staging buffer at what it holds there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body must hand back: the same, every buffer at what the proof data says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold the input blocks, so the run on whole buffers applies; the
    invariant and the tallies are not touched. -/
theorem body_triple0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_triple0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorems ask of the body, at every point. -/
theorem body_obligation0 (c : Dev nD) :
    BodyObligation (dat0 (F := F) V c) (defs₀ (F := F)) Variants.none () Set.univ := fun t => by
  rw [bigSep_W0, bigSep_W0]
  exact body_triple0 V c t

end Region0

end Cert.KernelIdeal.Hand

end
-- ==== Proof.KI.RunA.lean ====
/-
  The contents of a core's buffers along the program, up to the exit of the first region.

  The program is: seven host operations (a reshape of the activations; a transpose and a rounding to bf16 of
  each weight), the projection region, three host reshapes, the attention region.  The contents at each
  boundary are a fold from the launch memory: a host stretch rewrites the buffers its operations write, a region
  rewrites its windows' arrays with what its write-backs leave.  This file has the fold up to the first region's
  exit, and what the first stretch puts in the four arrays the first region reads.
-/
import proofs.«182005_j67748814127590_2_alg».proof.Proof.Gen.KernelIdeal.Regions
import proofs.«182005_j67748814127590_2_alg».proof.Proof.KI.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The fold, from the launch to the first region's exit -/

/-- Core c's buffers in the launch state (memory m, every counter zero, generator registers ρ). -/
abbrev W0 : Dev nD → Valuation τ sig (Elt F) := fun c b => (⟨m, fun _ => 0, ρ⟩ : MemSt nD τ sig (Elt F)).mem (c, b)
/-- After the first host stretch: the first region's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2
  exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2
  exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- A reference the first stretch does not write holds its launch contents at the first region's entry. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h

/-! ## What the first stretch leaves in the arrays the first region reads -/

/-- The activations, flattened to 8192 rows. -/
theorem V1_main_v0 (c : Dev nD) :
    (V1 m ρ c main_v0 : S8192x1024.Idx → Elt F .f32)
      = shapeCast S8192x1024 (m ((c : Thread nD τ).loc main_arg0)) shapeCasts_S4x2048x1024_S8192x1024 := by
  show StableHlo.after hostOps0 (fun b => m (c, b)) (Proc.devRef .tc main_v0) = _
  after_results
  rfl

/-- The first weight, transposed and rounded to bf16. -/
theorem V1_main_v2 (c : Dev nD) :
    (V1 m ρ c main_v2 : S1024x1024.Idx → Elt F .bf16)
      = truncf .bf16 (transpose S1024x1024 [1, 0] (m ((c : Thread nD τ).loc main_arg1)) transposes_S1024x1024_S1024x1024_1_0)
          bitsLt_bf16_f32 := by
  show StableHlo.after hostOps0 (fun b => m (c, b)) (Proc.devRef .tc main_v2) = _
  after_results

/-- The second weight, transposed and rounded to bf16. -/
theorem V1_main_v4 (c : Dev nD) :
    (V1 m ρ c main_v4 : S1024x1024.Idx → Elt F .bf16)
      = truncf .bf16 (transpose S1024x1024 [1, 0] (m ((c : Thread nD τ).loc main_arg2)) transposes_S1024x1024_S1024x1024_1_0)
          bitsLt_bf16_f32 := by
  show StableHlo.after hostOps0 (fun b => m (c, b)) (Proc.devRef .tc main_v4) = _
  after_results

/-- The third weight, transposed and rounded to bf16. -/
theorem V1_main_v6 (c : Dev nD) :
    (V1 m ρ c main_v6 : S1024x1024.Idx → Elt F .bf16)
      = truncf .bf16 (transpose S1024x1024 [1, 0] (m ((c : Thread nD τ).loc main_arg3)) transposes_S1024x1024_S1024x1024_1_0)
          bitsLt_bf16_f32 := by
  show StableHlo.after hostOps0 (fun b => m (c, b)) (Proc.devRef .tc main_v6) = _
  after_results

end Cert.KernelIdeal.Hand

end
-- ==== Proof.KI.R1Base.lean ====
/-
  The second pallas_call (the attention kernel, a grid of 4 × 4 × 4 points (b, qi, ki)), at the contents `V` its
  region is entered with: what its input windows hold at a point, the three conditions of the body's `scf.if`s
  as arithmetic on the point's number `t = 16 b + 4 qi + ki` (first key block: `t % 4 = 0`; key block not after
  the query block: `t % 4 ≤ t / 4 % 4`; last key block: `t % 4 = 3`), where the output window is idle, and the
  scratch operands (running maximum, normaliser, weighted sum) as memrefs.
-/
import proofs.«182005_j67748814127590_2_alg».proof.Proof.Gen.KernelIdeal.Launch
import proofs.«182005_j67748814127590_2_alg».proof.Proof.Gen.KernelIdeal.Skeleton
import proofs.«182005_j67748814127590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    point has the block index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- `ki = 0`: the point starts a row of key blocks (the running state is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- `ki ≤ qi`: the key block is not after the query block (the running state is updated). -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- `ki = 3`: the last key block (the quotient is written to the output block). -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block the output window is idle and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key block it is live. -/
theorem liveAt1_3 : ∀ t : Fin cfg1.N, cond1_2 (grid1.coords t) → cfg1.idle 3 (grid1.coords t) = false := by decide +kernel

/-! ## The memrefs the body is called with -/

abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The scratch operands: the running maximum, the normaliser, the weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The staging buffers of the other pallas_call's windows (scoped buffers this region never touches), each at
    anything, around `P`. -/
def restI (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

theorem restI_mono (c : Dev nD) {P Q : sProp 𝕄} (h : P ⊢ Q) : restI (F := F) c P ⊢ restI (F := F) c Q := by
  unfold restI
  iintro ⟨R0, R1, R2, R3, R4, R5, R6, R7, R8, R9, R10, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iapply h; iexact HP

/-- `P` can be taken out of the rest and anything put back in its place. -/
theorem restI_frame (c : Dev nD) (P : sProp 𝕄) : restI (F := F) c P ⊢ iprop(P ∗ (∀ Q : sProp 𝕄, Q -∗ restI (F := F) c Q)) := by
  unfold restI
  iintro ⟨R0, R1, R2, R3, R4, R5, R6, R7, R8, R9, R10, HP⟩
  isplitl [HP]; · iexact HP
  iintro %Q HQ
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HQ

/-- The region's plain invariant: those buffers and the three scratch operands at anything, and the generator register. -/
theorem PhiA1_eq (c : Dev nD) :
    (Pipeline.ΦA spec1 c : sProp 𝕄)
      = iprop(restI (F := F) c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA restI; rw [scopedRest1_eq]; simp only [scM1_0, scM1_1, scM1_2, owns_whole]; try rfl

end Cert.KernelIdeal.Hand

end
-- ==== Proof.KI.R1RunA.lean ====
/-
  The attention kernel's body run whole at the first key block (the state is reset, then updated): on whole memrefs at
  their contents it runs to the continuation, each buffer it stores into holding its stores as pieces (last first).
-/
import proofs.«182005_j67748814127590_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 x1 x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunB.lean ====
/-
  The attention kernel's body run whole at a middle key block not after the query block (the state is updated): on whole memrefs at
  their contents it runs to the continuation, each buffer it stores into holding its stores as pieces (last first).
-/
import proofs.«182005_j67748814127590_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunC.lean ====
/-
  The attention kernel's body run whole at a middle key block after the query block (nothing happens): on whole memrefs at
  their contents it runs to the continuation, each buffer it stores into holding its stores as pieces (last first).
-/
import proofs.«182005_j67748814127590_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], [], [], [], fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.R1RunD.lean ====
/-
  The attention kernel's body run whole at the last key block, on the diagonal (the state is updated, then the quotient is written out): on whole memrefs at
  their contents it runs to the continuation, each buffer it stores into holding its stores as pieces (last first).
-/
import proofs.«182005_j67748814127590_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1RunE.lean ====
/-
  The attention kernel's body run whole at the last key block, after the query block (the quotient is written out): on whole memrefs at
  their contents it runs to the continuation, each buffer it stores into holding its stores as pieces (last first).
-/
import proofs.«182005_j67748814127590_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (x0 x1 x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, [], [], [], fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.R1Dat.lean ====
/-
  The attention kernel's region as proof data for the pipeline: what the output block and the three scratch
  operands (running maximum, normaliser, weighted sum) hold after each grid point, point by point — the case the
  point is in, run on the point's input blocks and on what the point before left in the scratch —; the region's
  invariant carrying the scratch from point to point; and the body's obligation at every point.
-/
import proofs.«182005_j67748814127590_2_alg».proof.Proof.KI.R1RunA
import proofs.«182005_j67748814127590_2_alg».proof.Proof.KI.R1RunB
import proofs.«182005_j67748814127590_2_alg».proof.Proof.KI.R1RunC
import proofs.«182005_j67748814127590_2_alg».proof.Proof.KI.R1RunD
import proofs.«182005_j67748814127590_2_alg».proof.Proof.KI.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The output block, the running maximum, the normaliser and the weighted sum. -/
abbrev St1 (F : FTy → Type) : Type := Vec F S1x512x1024 .f32 × Vec F S512x1 .f32 × Vec F S512x1 .f32 × Vec F S512x1024 .f32

/-- The output block's contents where the body stores nothing into it (never consulted: the block is not written back there). -/
def outIdle : Vec F S1x512x1024 .f32 := VO1_3.read (Elt F) VO1_3.junk

/-- What a point of case A leaves, from its input blocks. -/
def stA (c : Dev nD) (t : Fin cfg1.N) (h0 : t.val % 4 = 0) (h1 : t.val % 4 ≤ t.val / 4 % 4) (h2 : ¬t.val % 4 = 3) : St1 F :=
  (outIdle,
   VS1_0.read (Elt F) (VS1_0.writes (Elt F) VS1_0.junk (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.1),
   VS1_1.read (Elt F) (VS1_1.writes (Elt F) VS1_1.junk (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.1),
   VS1_2.read (Elt F) (VS1_2.writes (Elt F) VS1_2.junk (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2.1))

theorem scoverA_0 (c : Dev nD) (t : Fin cfg1.N) (h0 : t.val % 4 = 0) (h1 : t.val % 4 ≤ t.val / 4 % 4) (h2 : ¬t.val % 4 = 3) (y : S512x1.Idx) :
    ∃ pc ∈ (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.1, y ∈ pc.1.set :=
  View.cover_of_tiledL _ S512x1.size (by sl_kernel_rfl) y
theorem scoverA_1 (c : Dev nD) (t : Fin cfg1.N) (h0 : t.val % 4 = 0) (h1 : t.val % 4 ≤ t.val / 4 % 4) (h2 : ¬t.val % 4 = 3) (y : S512x1.Idx) :
    ∃ pc ∈ (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.1, y ∈ pc.1.set :=
  View.cover_of_tiledL _ S512x1.size (by sl_kernel_rfl) y
theorem scoverA_2 (c : Dev nD) (t : Fin cfg1.N) (h0 : t.val % 4 = 0) (h1 : t.val % 4 ≤ t.val / 4 % 4) (h2 : ¬t.val % 4 = 3) (y : S512x1024.Idx) :
    ∃ pc ∈ (kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2.1, y ∈ pc.1.set :=
  View.cover_of_tiledL _ S512x1024.size (by sl_kernel_rfl) y

/-- What a point of case B leaves, from its input blocks and what the point before left. -/
def stB (c : Dev nD) (t : Fin cfg1.N) (h0 : ¬t.val % 4 = 0) (h1 : t.val % 4 ≤ t.val / 4 % 4) (h2 : ¬t.val % 4 = 3) (prev : St1 F) : St1 F :=
  (outIdle,
   VS1_0.read (Elt F) (VS1_0.writes (Elt F) VS1_0.junk (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.1),
   VS1_1.read (Elt F) (VS1_1.writes (Elt F) VS1_1.junk (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.1),
   VS1_2.read (Elt F) (VS1_2.writes (Elt F) VS1_2.junk (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.2.1))

theorem scoverB_0 (c : Dev nD) (t : Fin cfg1.N) (h0 : ¬t.val % 4 = 0) (h1 : t.val % 4 ≤ t.val / 4 % 4) (h2 : ¬t.val % 4 = 3) (prev : St1 F) (y : S512x1.Idx) :
    ∃ pc ∈ (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.1, y ∈ pc.1.set :=
  View.cover_of_tiledL _ S512x1.size (by sl_kernel_rfl) y
theorem scoverB_1 (c : Dev nD) (t : Fin cfg1.N) (h0 : ¬t.val % 4 = 0) (h1 : t.val % 4 ≤ t.val / 4 % 4) (h2 : ¬t.val % 4 = 3) (prev : St1 F) (y : S512x1.Idx) :
    ∃ pc ∈ (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.1, y ∈ pc.1.set :=
  View.cover_of_tiledL _ S512x1.size (by sl_kernel_rfl) y
theorem scoverB_2 (c : Dev nD) (t : Fin cfg1.N) (h0 : ¬t.val % 4 = 0) (h1 : t.val % 4 ≤ t.val / 4 % 4) (h2 : ¬t.val % 4 = 3) (prev : St1 F) (y : S512x1024.Idx) :
    ∃ pc ∈ (kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2).2.2.2.1, y ∈ pc.1.set :=
  View.cover_of_tiledL _ S512x1024.size (by sl_kernel_rfl) y

/-- What a point of case D leaves, from its input blocks and what the point before left. -/
def stD (c : Dev nD) (t : Fin cfg1.N) (h0 : ¬t.val % 4 = 0) (h1 : t.val % 4 ≤ t.val / 4 % 4) (h2 : t.val % 4 = 3) (prev : St1 F) : St1 F :=
  (VO1_3.read (Elt F) (VO1_3.writes (Elt F) VO1_3.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).1),
   VS1_0.read (Elt F) (VS1_0.writes (Elt F) VS1_0.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.1),
   VS1_1.read (Elt F) (VS1_1.writes (Elt F) VS1_1.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.1),
   VS1_2.read (Elt F) (VS1_2.writes (Elt F) VS1_2.junk (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.2.1))

theorem scoverD_0 (c : Dev nD) (t : Fin cfg1.N) (h0 : ¬t.val % 4 = 0) (h1 : t.val % 4 ≤ t.val / 4 % 4) (h2 : t.val % 4 = 3) (prev : St1 F) (y : S512x1.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.1, y ∈ pc.1.set :=
  View.cover_of_tiledL _ S512x1.size (by sl_kernel_rfl) y
theorem scoverD_1 (c : Dev nD) (t : Fin cfg1.N) (h0 : ¬t.val % 4 = 0) (h1 : t.val % 4 ≤ t.val / 4 % 4) (h2 : t.val % 4 = 3) (prev : St1 F) (y : S512x1.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.1, y ∈ pc.1.set :=
  View.cover_of_tiledL _ S512x1.size (by sl_kernel_rfl) y
theorem scoverD_2 (c : Dev nD) (t : Fin cfg1.N) (h0 : ¬t.val % 4 = 0) (h1 : t.val % 4 ≤ t.val / 4 % 4) (h2 : t.val % 4 = 3) (prev : St1 F) (y : S512x1024.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).2.2.2.1, y ∈ pc.1.set :=
  View.cover_of_tiledL _ S512x1024.size (by sl_kernel_rfl) y
theorem coverD_3 (c : Dev nD) (t : Fin cfg1.N) (h0 : ¬t.val % 4 = 0) (h1 : t.val % 4 ≤ t.val / 4 % 4) (h2 : t.val % 4 = 3) (prev : St1 F) (y : S1x512x1024.Idx) :
    ∃ pc ∈ (kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2).1, y ∈ pc.1.set :=
  View.cover_of_tiledL _ S1x512x1024.size (by sl_kernel_rfl) y

/-- What a point of case E leaves, from its input blocks and what the point before left. -/
def stE (c : Dev nD) (t : Fin cfg1.N) (h0 : ¬t.val % 4 = 0) (h1 : ¬t.val % 4 ≤ t.val / 4 % 4) (h2 : t.val % 4 = 3) (prev : St1 F) : St1 F :=
  (VO1_3.read (Elt F) (VO1_3.writes (Elt F) VO1_3.junk (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.2.1 prev.2.2.1 prev.2.2.2).1),
   prev.2.1,
   prev.2.2.1,
   prev.2.2.2)

theorem coverE_3 (c : Dev nD) (t : Fin cfg1.N) (h0 : ¬t.val % 4 = 0) (h1 : ¬t.val % 4 ≤ t.val / 4 % 4) (h2 : t.val % 4 = 3) (prev : St1 F) (y : S1x512x1024.Idx) :
    ∃ pc ∈ (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) prev.2.1 prev.2.2.1 prev.2.2.2).1, y ∈ pc.1.set :=
  View.cover_of_tiledL _ S1x512x1024.size (by sl_kernel_rfl) y

/-- A middle key block after the query block: nothing is stored. -/
def stC (prev : St1 F) : St1 F := (outIdle, prev.2.1, prev.2.2.1, prev.2.2.2)

/-- THE ACCUMULATION: what the output block and the scratch operands hold after the body at position `n`. -/
def outsAt1 (c : Dev nD) : (n : ℕ) → n < cfg1.N → St1 F
  | 0, hn => stA V c ⟨0, hn⟩ (by show 0 % 4 = 0; rfl) (by show 0 % 4 ≤ 0 / 4 % 4; decide) (by show ¬0 % 4 = 3; decide)
  | n + 1, hn =>
    if h0 : (n + 1) % 4 = 0 then stA V c ⟨n + 1, hn⟩ h0 (by show (n + 1) % 4 ≤ _; omega) (by show ¬(n + 1) % 4 = 3; omega)
    else if h1 : (n + 1) % 4 ≤ (n + 1) / 4 % 4 then
      if h2 : (n + 1) % 4 = 3 then stD V c ⟨n + 1, hn⟩ h0 h1 h2 (outsAt1 c n (Nat.lt_of_succ_lt hn))
      else stB V c ⟨n + 1, hn⟩ h0 h1 h2 (outsAt1 c n (Nat.lt_of_succ_lt hn))
    else
      if h2 : (n + 1) % 4 = 3 then stE V c ⟨n + 1, hn⟩ h0 h1 h2 (outsAt1 c n (Nat.lt_of_succ_lt hn))
      else stC (outsAt1 c n (Nat.lt_of_succ_lt hn))

theorem outsAt1_A (c : Dev nD) (t : Fin cfg1.N) (h0 : t.val % 4 = 0) (h1 : t.val % 4 ≤ t.val / 4 % 4) (h2 : ¬t.val % 4 = 3) :
    outsAt1 V c t.val t.isLt = stA V c t h0 h1 h2 := by
  obtain ⟨n, hn⟩ := t
  cases n with
  | zero => rfl
  | succ n => exact (dif_pos h0).trans rfl
theorem outsAt1_B (c : Dev nD) (t : Fin cfg1.N) (h0 : ¬t.val % 4 = 0) (h1 : t.val % 4 ≤ t.val / 4 % 4) (h2 : ¬t.val % 4 = 3) :
    outsAt1 V c t.val t.isLt = stB V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans rfl))
theorem outsAt1_C (c : Dev nD) (t : Fin cfg1.N) (h0 : ¬t.val % 4 = 0) (h1 : ¬t.val % 4 ≤ t.val / 4 % 4) (h2 : ¬t.val % 4 = 3) :
    outsAt1 V c t.val t.isLt = stC (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_neg h2).trans rfl))
theorem outsAt1_D (c : Dev nD) (t : Fin cfg1.N) (h0 : ¬t.val % 4 = 0) (h1 : t.val % 4 ≤ t.val / 4 % 4) (h2 : t.val % 4 = 3) :
    outsAt1 V c t.val t.isLt = stD V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_pos h2).trans rfl))
theorem outsAt1_E (c : Dev nD) (t : Fin cfg1.N) (h0 : ¬t.val % 4 = 0) (h1 : ¬t.val % 4 ≤ t.val / 4 % 4) (h2 : t.val % 4 = 3) :
    outsAt1 V c t.val t.isLt = stE V c t h0 h1 h2 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans ((dif_pos h2).trans rfl))

/-- The scratch operands at the contents a state names. -/
def scrAt (c : Dev nD) (s : St1 F) : sProp 𝕄 :=
  iprop(owns (c : Thread nD τ) scM1_0 fullShare s.2.1 ∗ owns (c : Thread nD τ) scM1_1 fullShare s.2.2.1 ∗ owns (c : Thread nD τ) scM1_2 fullShare s.2.2.2)

/-- The region's invariant before position `n`: before the first point the plain one (every scratch at anything);
    afterwards the scratch operands at what the point before left in them. -/
def PhiS (c : Dev nD) : (n : ℕ) → n ≤ cfg1.N → sProp 𝕄
  | 0, _ => Pipeline.ΦA spec1 c
  | n + 1, hn => iprop(restI (F := F) c (scrAt c (outsAt1 V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restI (F := F) c (scrAt c (outsAt1 V c n hn)) ∗ (∃ r, prngReg c r)) := rfl
theorem PhiS_pos (c : Dev nD) (n : ℕ) (h : n ≤ cfg1.N) (hz : n ≠ 0) :
    PhiS V c n h = iprop(restI (F := F) c (scrAt c (outsAt1 V c (n - 1) (by omega))) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.R1Body.lean ====
/-
  The body's obligation for the attention kernel at every grid point: the point's case is decided from its number,
  the invariant hands the body the scratch operands at what the point before left (at anything before the first
  point) and takes them back at what this point leaves; the output block is handed back untouched off the last key
  block.
-/
import proofs.«182005_j67748814127590_2_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [outsAt1_A V c t h0 h1 h2]
    unfold scrAt stA; (try dsimp only)
    by_cases hz : t.val = 0
    · rw [PhiS_castSucc V c t, PhiS_zero V c _ _ hz, PhiA1_eq]; unfold restI
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 Hg]
      · isplitl [R0 R1 R2 R3 R4 R5 R6 R7 R8 R9 R10 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scoverA_0 V c t h0 h1 h2)
          isplitl [HS1]
          · unfold owns; iexists _; isplitr
            swap; · iexact HS1
            ipureintro; exact View.read_writes_of_cover _ _ _ _ _ (scoverA_1 V c t h0 h1 h2)
          unfold owns; iexists _; isplitr
          swap; · iexact HS2
          ipureintro; exact View.read_writes_of_cover _ _ _ _ _ (scoverA_2 V c t h0 h1 h2)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]; unfold restI scrAt
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 Hg]
      · isplitl [R0 R1 R2 R3 R4 R5 R6 R7 R8 R9 R10 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scoverA_0 V c t h0 h1 h2)
          isplitl [HS1]
          · unfold owns; iexists _; isplitr
            swap; · iexact HS1
            ipureintro; exact View.read_writes_of_cover _ _ _ _ _ (scoverA_1 V c t h0 h1 h2)
          unfold owns; iexists _; isplitr
          swap; · iexact HS2
          ipureintro; exact View.read_writes_of_cover _ _ _ _ _ (scoverA_2 V c t h0 h1 h2)
        iexact Hg
      isplitl [Ho]; · iexact Ho
      isplitl [H0]; · iexact H0
      isplitl [H1]; · iexact H1
      isplitl [H2]; · iexact H2
      iexists _; iexact H3
  · by_cases h1 : t.val % 4 ≤ t.val / 4 % 4
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold scrAt stD; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scoverD_0 V c t h0 h1 h2 _)
            isplitl [HS1]
            · unfold owns; iexists _; isplitr
              swap; · iexact HS1
              ipureintro; exact View.read_writes_of_cover _ _ _ _ _ (scoverD_1 V c t h0 h1 h2 _)
            unfold owns; iexists _; isplitr
            swap; · iexact HS2
            ipureintro; exact View.read_writes_of_cover _ _ _ _ _ (scoverD_2 V c t h0 h1 h2 _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 V c t h0 h1 h2 _)
      · skip
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold scrAt stB; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scoverB_0 V c t h0 h1 h2 _)
            isplitl [HS1]
            · unfold owns; iexists _; isplitr
              swap; · iexact HS1
              ipureintro; exact View.read_writes_of_cover _ _ _ _ _ (scoverB_1 V c t h0 h1 h2 _)
            unfold owns; iexists _; isplitr
            swap; · iexact HS2
            ipureintro; exact View.read_writes_of_cover _ _ _ _ _ (scoverB_2 V c t h0 h1 h2 _)
          iexact Hg
        isplitl [Ho]; · iexact Ho
        isplitl [H0]; · iexact H0
        isplitl [H1]; · iexact H1
        isplitl [H2]; · iexact H2
        iexists _; iexact H3
    · by_cases h2 : t.val % 4 = 3
      · skip
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold scrAt stE; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_3 V c t h0 h1 h2 _)
      · skip
        rw [Dat.leavesExact_idle (dat1 V c) 3 t (idleAt1_3 t (fun h => h2 ((hcond1_2 t).mp h))) (noFlush1_3 t (fun h => h2 ((hcond1_2 t).mp h)))]
        rw [outsAt1_C V c t h0 h1 h2]
        unfold scrAt stC; (try dsimp only)
        have hz : t.val ≠ 0 := fun e => h0 (by rw [e])
        rw [PhiS_castSucc V c t, PhiS_pos V c _ _ hz]; unfold restI scrAt
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the scratch's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scrAt
  refine sep_mono (restI_mono c ?_) .rfl
  iintro ⟨HS0, HS1, HS2⟩
  isplitl [HS0]; · iexists _; iexact HS0
  isplitl [HS1]; · iexists _; iexact HS1
  iexists _; iexact HS2

end Cert.KernelIdeal.Hand

end
-- ==== Proof.KI.Run.lean ====
/-
  The whole run of the program: both regions and the host stretches between them, as the segments of the
  launch theorem for programs of several regions.

  The contents of a core's buffers are folded on from the first region's exit: the three reshapes of the
  projections, then the attention region's arrays at what its write-backs leave.  Each region is entered from
  "every unscoped buffer at the boundary's contents, the generator register at some state, nothing owed": its
  arrays are split out of the unscoped buffers and put back at the exit contents.  The second region's invariant
  carries its scratch from point to point; it starts from, and ends in, the plain invariant.  The run's final
  memory is read against the last boundary's contents, and each argument's buffer is walked back through the
  fold to the launch memory, since no operation and no region writes it.
-/
import proofs.«182005_j67748814127590_2_alg».proof.Proof.KI.RunA
import proofs.«182005_j67748814127590_2_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The fold, from the first region's exit to the end -/

/-- After the second host stretch: the second region's entry. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4
  exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4
  exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A reference the second stretch does not write is as the first region left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-! ### The arguments end as launched

No host operation writes an argument and no window's array is an argument (the first region reads a reshape of
the activations and the rounded transposes of the weights), so each step of the fold leaves it alone. -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| W1_of m ρ c main_arg0 (by decide)
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| W1_of m ρ c main_arg1 (by decide)
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| W1_of m ρ c main_arg2 (by decide)
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| W1_of m ρ c main_arg3 (by decide)

/-! ### What the second region reads and what the program returns -/

/-- The result array holds what the attention pipeline's write-backs leave in it. -/
theorem W4_main_v11 (c : Dev nD) : W4 m ρ c (Proc.devRef .tc main_v11) = (dat1 (V3 m ρ) c).arrAt 3 cfg1.N :=
  W4_arr m ρ c 3

/-- The query projections as the second region reads them: the first region's first output, reshaped. -/
theorem V3_main_v8 (c : Dev nD) :
    (V3 m ρ c main_v8 : S4x2048x1024.Idx → Elt F .bf16)
      = shapeCast S4x2048x1024 ((dat0 (V1 m ρ) c).arrAt 4 cfg0.N) shapeCasts_S8192x1024_S4x2048x1024 := by
  rw [← W2_arr m ρ c 4]
  show StableHlo.after hostOps1 (W2 m ρ c) (Proc.devRef .tc main_v8) = _
  after_results
  rfl
/-- The key projections: the first region's second output, reshaped. -/
theorem V3_main_v9 (c : Dev nD) :
    (V3 m ρ c main_v9 : S4x2048x1024.Idx → Elt F .bf16)
      = shapeCast S4x2048x1024 ((dat0 (V1 m ρ) c).arrAt 5 cfg0.N) shapeCasts_S8192x1024_S4x2048x1024 := by
  rw [← W2_arr m ρ c 5]
  show StableHlo.after hostOps1 (W2 m ρ c) (Proc.devRef .tc main_v9) = _
  after_results
  rfl
/-- The value projections: the first region's third output, reshaped. -/
theorem V3_main_v10 (c : Dev nD) :
    (V3 m ρ c main_v10 : S4x2048x1024.Idx → Elt F .bf16)
      = shapeCast S4x2048x1024 ((dat0 (V1 m ρ) c).arrAt 6 cfg0.N) shapeCasts_S8192x1024_S4x2048x1024 := by
  rw [← W2_arr m ρ c 6]
  show StableHlo.after hostOps1 (W2 m ρ c) (Proc.devRef .tc main_v10) = _
  after_results
  rfl

/-! ## The proof data family and the thread state -/

/-- Each pipeline's proof data at its region's entry contents: a literal match, so that the configuration at a
    numeral index reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4.  Its invariant starts from the
    plain one and gives the plain one back after the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- From any memory with zero counters, every weakly fair execution of the program on the TensorCores
    terminates without a fault, and any property of the final memory that follows from "every unscoped buffer of
    every core holds the last contents of the fold" holds of it. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run, with the final memory read at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  run_post m ρ fun s h => h

/-- The frame: the program runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.Hand

end
-- ==== Proof.KI.R1Pieces.lean ====
/-
  What each case of the attention kernel's body leaves in the scratch operands and in the output block, as the
  body's arithmetic (its payloads) of the point's input blocks and of what the point before left.
-/
import proofs.«182005_j67748814127590_2_alg».proof.Proof.KI.R1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The query-block and key-block numbers of a point, as the body's words. -/
abbrev qw (t : Fin cfg1.N) : BitVec 32 := BitVec.ofNat 32 ((grid1.coords t) 1).val
abbrev kw (t : Fin cfg1.N) : BitVec 32 := BitVec.ofNat 32 ((grid1.coords t) 2).val

theorem rd0 (x : Vec F S512x1 .f32) : View.read (Elt F) (View.whole cc1_scratch0) ((Memref.isWhole_whole cc1_scratch0).unread x) = x :=
  (Memref.isWhole_whole cc1_scratch0).read_unread x
theorem rd1 (x : Vec F S512x1 .f32) : View.read (Elt F) (View.whole cc1_scratch1) ((Memref.isWhole_whole cc1_scratch1).unread x) = x :=
  (Memref.isWhole_whole cc1_scratch1).read_unread x
theorem rd2 (x : Vec F S512x1024 .f32) : View.read (Elt F) (View.whole cc1_scratch2) ((Memref.isWhole_whole cc1_scratch2).unread x) = x :=
  (Memref.isWhole_whole cc1_scratch2).read_unread x

/-! ## A key block not after the query block, not the first: the state is updated from what the point before left -/

theorem stB_m (c : Dev nD) (t : Fin cfg1.N) (h0 : ¬t.val % 4 = 0) (h1 : t.val % 4 ≤ t.val / 4 % 4) (h2 : ¬t.val % 4 = 3) (prev : St1 F) :
    (stB V c t h0 h1 h2 prev).2.1 = k1_pay5 (k1_pay9 (qw t) (kw t) (iblk1 V c 0 t) (iblk1 V c 1 t) prev.2.1) := by
  unfold stB; dsimp only
  rw [View.read_writes_eq_canon _ _ _ (scoverB_0 V c t h0 h1 h2 prev)]
  unfold kernelRun1_B
  dsimp only
  sl_unfold_words
  rw [View.canon_unit_zero hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stB_l (c : Dev nD) (t : Fin cfg1.N) (h0 : ¬t.val % 4 = 0) (h1 : t.val % 4 ≤ t.val / 4 % 4) (h2 : ¬t.val % 4 = 3) (prev : St1 F) :
    (stB V c t h0 h1 h2 prev).2.2.1 = k1_pay12 (qw t) (kw t) (iblk1 V c 0 t) (iblk1 V c 1 t) prev.2.1 prev.2.2.1 := by
  unfold stB; dsimp only
  rw [View.read_writes_eq_canon _ _ _ (scoverB_1 V c t h0 h1 h2 prev)]
  unfold kernelRun1_B
  dsimp only
  sl_unfold_words
  rw [View.canon_unit_zero hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stB_acc (c : Dev nD) (t : Fin cfg1.N) (h0 : ¬t.val % 4 = 0) (h1 : t.val % 4 ≤ t.val / 4 % 4) (h2 : ¬t.val % 4 = 3) (prev : St1 F) :
    (stB V c t h0 h1 h2 prev).2.2.2 = k1_pay4 (k1_pay7 (iblk1 V c 2 t)) (k1_pay10 (qw t) (kw t) (iblk1 V c 0 t) (iblk1 V c 1 t) prev.2.1) (k1_pay11 (qw t) (kw t) (iblk1 V c 0 t) (iblk1 V c 1 t) prev.2.1) prev.2.2.2 := by
  unfold stB; dsimp only
  rw [View.read_writes_eq_canon _ _ _ (scoverB_2 V c t h0 h1 h2 prev)]
  unfold kernelRun1_B
  dsimp only
  sl_unfold_words
  rw [View.canon_unit_zero hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

/-! ## The last key block on the diagonal: the same update, then the quotient -/

theorem stD_m (c : Dev nD) (t : Fin cfg1.N) (h0 : ¬t.val % 4 = 0) (h1 : t.val % 4 ≤ t.val / 4 % 4) (h2 : t.val % 4 = 3) (prev : St1 F) :
    (stD V c t h0 h1 h2 prev).2.1 = k1_pay5 (k1_pay9 (qw t) (kw t) (iblk1 V c 0 t) (iblk1 V c 1 t) prev.2.1) := by
  unfold stD; dsimp only
  rw [View.read_writes_eq_canon _ _ _ (scoverD_0 V c t h0 h1 h2 prev)]
  unfold kernelRun1_D
  dsimp only
  sl_unfold_words
  rw [View.canon_unit_zero hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stD_l (c : Dev nD) (t : Fin cfg1.N) (h0 : ¬t.val % 4 = 0) (h1 : t.val % 4 ≤ t.val / 4 % 4) (h2 : t.val % 4 = 3) (prev : St1 F) :
    (stD V c t h0 h1 h2 prev).2.2.1 = k1_pay12 (qw t) (kw t) (iblk1 V c 0 t) (iblk1 V c 1 t) prev.2.1 prev.2.2.1 := by
  unfold stD; dsimp only
  rw [View.read_writes_eq_canon _ _ _ (scoverD_1 V c t h0 h1 h2 prev)]
  unfold kernelRun1_D
  dsimp only
  sl_unfold_words
  rw [View.canon_unit_zero hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stD_acc (c : Dev nD) (t : Fin cfg1.N) (h0 : ¬t.val % 4 = 0) (h1 : t.val % 4 ≤ t.val / 4 % 4) (h2 : t.val % 4 = 3) (prev : St1 F) :
    (stD V c t h0 h1 h2 prev).2.2.2 = k1_pay4 (k1_pay7 (iblk1 V c 2 t)) (k1_pay10 (qw t) (kw t) (iblk1 V c 0 t) (iblk1 V c 1 t) prev.2.1) (k1_pay11 (qw t) (kw t) (iblk1 V c 0 t) (iblk1 V c 1 t) prev.2.1) prev.2.2.2 := by
  unfold stD; dsimp only
  rw [View.read_writes_eq_canon _ _ _ (scoverD_2 V c t h0 h1 h2 prev)]
  unfold kernelRun1_D
  dsimp only
  sl_unfold_words
  rw [View.canon_unit_zero hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stD_out (c : Dev nD) (t : Fin cfg1.N) (h0 : ¬t.val % 4 = 0) (h1 : t.val % 4 ≤ t.val / 4 % 4) (h2 : t.val % 4 = 3) (prev : St1 F) :
    (stD V c t h0 h1 h2 prev).1 = k1_pay6 (k1_pay4 (k1_pay7 (iblk1 V c 2 t)) (k1_pay10 (qw t) (kw t) (iblk1 V c 0 t) (iblk1 V c 1 t) prev.2.1) (k1_pay11 (qw t) (kw t) (iblk1 V c 0 t) (iblk1 V c 1 t) prev.2.1) prev.2.2.2) (k1_pay12 (qw t) (kw t) (iblk1 V c 0 t) (iblk1 V c 1 t) prev.2.1 prev.2.2.1) := by
  unfold stD; dsimp only
  rw [View.read_writes_eq_canon _ _ _ (coverD_3 V c t h0 h1 h2 prev)]
  unfold kernelRun1_D
  dsimp only
  sl_unfold_words
  rw [View.canon_unit_zero hz3]
  simp only [View.readCov_unit_zero (S := S512x1) _ hz2, View.readCov_unit_zero (S := S512x1024) _ hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

/-! ## The last key block after the query block: the quotient of what the point before left -/

theorem stE_out (c : Dev nD) (t : Fin cfg1.N) (h0 : ¬t.val % 4 = 0) (h1 : ¬t.val % 4 ≤ t.val / 4 % 4) (h2 : t.val % 4 = 3) (prev : St1 F) :
    (stE V c t h0 h1 h2 prev).1 = k1_pay6 prev.2.2.2 prev.2.2.1 := by
  unfold stE; dsimp only
  rw [View.read_writes_eq_canon _ _ _ (coverE_3 V c t h0 h1 h2 prev)]
  unfold kernelRun1_E
  dsimp only
  sl_unfold_words
  rw [View.canon_unit_zero hz3]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

/-! ## The first key block: the state is reset, then updated -/

theorem stA_m (c : Dev nD) (t : Fin cfg1.N) (h0 : t.val % 4 = 0) (h1 : t.val % 4 ≤ t.val / 4 % 4) (h2 : ¬t.val % 4 = 3) :
    (stA V c t h0 h1 h2).2.1 = k1_pay5 (k1_pay9 (qw t) (kw t) (iblk1 V c 0 t) (iblk1 V c 1 t) k1_pay1) := by
  unfold stA; dsimp only
  rw [View.read_writes_eq_canon _ _ _ (scoverA_0 V c t h0 h1 h2)]
  unfold kernelRun1_A
  dsimp only
  sl_unfold_words
  rw [View.canon_cons_unit_zero (S := S512x1) hz2]
  simp only [View.readCov_unit_zero (S := S512x1) _ hz2, View.readCov_unit_zero (S := S512x1024) _ hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stA_l (c : Dev nD) (t : Fin cfg1.N) (h0 : t.val % 4 = 0) (h1 : t.val % 4 ≤ t.val / 4 % 4) (h2 : ¬t.val % 4 = 3) :
    (stA V c t h0 h1 h2).2.2.1 = k1_pay12 (qw t) (kw t) (iblk1 V c 0 t) (iblk1 V c 1 t) k1_pay1 k1_pay2 := by
  unfold stA; dsimp only
  rw [View.read_writes_eq_canon _ _ _ (scoverA_1 V c t h0 h1 h2)]
  unfold kernelRun1_A
  dsimp only
  sl_unfold_words
  rw [View.canon_cons_unit_zero (S := S512x1) hz2]
  simp only [View.readCov_unit_zero (S := S512x1) _ hz2, View.readCov_unit_zero (S := S512x1024) _ hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

theorem stA_acc (c : Dev nD) (t : Fin cfg1.N) (h0 : t.val % 4 = 0) (h1 : t.val % 4 ≤ t.val / 4 % 4) (h2 : ¬t.val % 4 = 3) :
    (stA V c t h0 h1 h2).2.2.2 = k1_pay4 (k1_pay7 (iblk1 V c 2 t)) (k1_pay10 (qw t) (kw t) (iblk1 V c 0 t) (iblk1 V c 1 t) k1_pay1) (k1_pay11 (qw t) (kw t) (iblk1 V c 0 t) (iblk1 V c 1 t) k1_pay1) k1_pay3 := by
  unfold stA; dsimp only
  rw [View.read_writes_eq_canon _ _ _ (scoverA_2 V c t h0 h1 h2)]
  unfold kernelRun1_A
  dsimp only
  sl_unfold_words
  rw [View.canon_cons_unit_zero (S := S512x1024) hz2]
  simp only [View.readCov_unit_zero (S := S512x1) _ hz2, View.readCov_unit_zero (S := S512x1024) _ hz2]
  simp only [View.readAt_eq_ld, (hs1_0 t).read_unread, (hs1_1 t).read_unread, (hs1_2 t).read_unread, Memref.IsWhole.read_unread, View.ld_unit_zero (S := S1x512x1024) hz3, View.ld_unit_zero (S := S512x1) hz2, View.ld_unit_zero (S := S512x1024) hz2, rd0, rd1, rd2]

end Cert.KernelIdeal.Hand

end
-- ==== Proof.KI.R1Blocks.lean ====
/-
  The attention kernel's windows read at a point: with `t = 16 b + 4 qi + ki`, the query window's block is rows
  `512 qi … 512 qi + 511` of batch `b` of the query array, the key and value windows' block the same rows of key
  block `min ki qi`, and the output window's block rows `512 qi …` of batch `b` of the result.
-/
import proofs.«182005_j67748814127590_2_alg».proof.Proof.KI.R1Dat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- A point's coordinates from its number. -/
theorem coords1 : ∀ t : Fin cfg1.N, ((grid1.coords t) 0).val = t.val / 16 ∧ ((grid1.coords t) 1).val = t.val / 4 % 4 ∧ ((grid1.coords t) 2).val = t.val % 4 :=
  (by decide +kernel : ∀ t : Fin grid1.N, ((grid1.coords t) 0).val = t.val / 16 ∧ ((grid1.coords t) 1).val = t.val / 4 % 4 ∧ ((grid1.coords t) 2).val = t.val % 4)

theorem idx1_0 : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
theorem idx1_1 : ∀ t : Fin cfg1.N, win1_1.index t 0 = t.val / 16 ∧ win1_1.index t 1 = min (t.val % 4) (t.val / 4 % 4) ∧ win1_1.index t 2 = 0 :=
  (by decide +kernel : ∀ t : Fin grid1.N, win1_1.index t 0 = t.val / 16 ∧ win1_1.index t 1 = min (t.val % 4) (t.val / 4 % 4) ∧ win1_1.index t 2 = 0)
theorem idx1_2 : ∀ t : Fin cfg1.N, win1_2.index t 0 = t.val / 16 ∧ win1_2.index t 1 = min (t.val % 4) (t.val / 4 % 4) ∧ win1_2.index t 2 = 0 :=
  (by decide +kernel : ∀ t : Fin grid1.N, win1_2.index t 0 = t.val / 16 ∧ win1_2.index t 1 = min (t.val % 4) (t.val / 4 % 4) ∧ win1_2.index t 2 = 0)
theorem idx1_3 : ∀ t : Fin cfg1.N, win1_3.index t 0 = t.val / 16 ∧ win1_3.index t 1 = t.val / 4 % 4 ∧ win1_3.index t 2 = 0 :=
  (by decide +kernel : ∀ t : Fin grid1.N, win1_3.index t 0 = t.val / 16 ∧ win1_3.index t 1 = t.val / 4 % 4 ∧ win1_3.index t 2 = 0)

/-- Row `r` of block `j` (of 512 rows) of a 2048-row axis. -/
abbrev rowOf (j : ℕ) (hj : j < 4) (r : Fin 512) : Fin 2048 := ⟨j * 512 + r.val, by have := r.isLt; omega⟩
abbrev batchOf (t : Fin cfg1.N) : Fin 4 := ⟨t.val / 16, by have : t.val < 64 := lt_of_lt_of_eq t.isLt N_1; omega⟩

theorem iblk1_0_apply (c : Dev nD) (t : Fin cfg1.N) (r : Fin 512) (d : Fin 1024) :
    iblk1 V c 0 t (ix3 (0 : Fin 1) r d) = V c main_v8 (ix3 (batchOf t) (rowOf (t.val / 4 % 4) (by have : t.val < 64 := lt_of_lt_of_eq t.isLt N_1; omega) r) d) := by
  unfold iblk1
  rw [View.read_apply]
  show V c main_v8 _ = V c main_v8 _
  refine congrArg (V c main_v8) ?_
  funext a
  apply Fin.ext
  match a with
  | ⟨0, _⟩ => show win1_0.index t 0 * 1 + 1 * 0 = t.val / 16; rw [(idx1_0 t).1]; omega
  | ⟨1, _⟩ => show win1_0.index t 1 * 512 + 1 * r.val = (t.val / 4 % 4) * 512 + r.val; rw [(idx1_0 t).2.1, Nat.one_mul]
  | ⟨2, _⟩ => show win1_0.index t 2 * 1024 + 1 * d.val = d.val; rw [(idx1_0 t).2.2]; omega

theorem iblk1_1_apply (c : Dev nD) (t : Fin cfg1.N) (r : Fin 512) (d : Fin 1024) :
    iblk1 V c 1 t (ix3 (0 : Fin 1) r d) = V c main_v9 (ix3 (batchOf t) (rowOf (min (t.val % 4) (t.val / 4 % 4)) (by have : t.val < 64 := lt_of_lt_of_eq t.isLt N_1; omega) r) d) := by
  unfold iblk1
  rw [View.read_apply]
  show V c main_v9 _ = V c main_v9 _
  refine congrArg (V c main_v9) ?_
  funext a
  apply Fin.ext
  match a with
  | ⟨0, _⟩ => show win1_1.index t 0 * 1 + 1 * 0 = t.val / 16; rw [(idx1_1 t).1]; omega
  | ⟨1, _⟩ => show win1_1.index t 1 * 512 + 1 * r.val = (min (t.val % 4) (t.val / 4 % 4)) * 512 + r.val; rw [(idx1_1 t).2.1, Nat.one_mul]
  | ⟨2, _⟩ => show win1_1.index t 2 * 1024 + 1 * d.val = d.val; rw [(idx1_1 t).2.2]; omega

theorem iblk1_2_apply (c : Dev nD) (t : Fin cfg1.N) (r : Fin 512) (d : Fin 1024) :
    iblk1 V c 2 t (ix3 (0 : Fin 1) r d) = V c main_v10 (ix3 (batchOf t) (rowOf (min (t.val % 4) (t.val / 4 % 4)) (by have : t.val < 64 := lt_of_lt_of_eq t.isLt N_1; omega) r) d) := by
  unfold iblk1
  rw [View.read_apply]
  show V c main_v10 _ = V c main_v10 _
  refine congrArg (V c main_v10) ?_
  funext a
  apply Fin.ext
  match a with
  | ⟨0, _⟩ => show win1_2.index t 0 * 1 + 1 * 0 = t.val / 16; rw [(idx1_2 t).1]; omega
  | ⟨1, _⟩ => show win1_2.index t 1 * 512 + 1 * r.val = (min (t.val % 4) (t.val / 4 % 4)) * 512 + r.val; rw [(idx1_2 t).2.1, Nat.one_mul]
  | ⟨2, _⟩ => show win1_2.index t 2 * 1024 + 1 * d.val = d.val; rw [(idx1_2 t).2.2]; omega

/-- Where the output window's block at point `t` sits in the result array. -/
theorem oblk_emb (t : Fin cfg1.N) (r : Fin 512) (d : Fin 1024) :
    ((cfg1.win 3).blk t).view.emb (ix3 (0 : Fin 1) r d) = ix3 (batchOf t) (rowOf (t.val / 4 % 4) (by have : t.val < 64 := lt_of_lt_of_eq t.isLt N_1; omega) r) d := by
  funext a
  apply Fin.ext
  match a with
  | ⟨0, _⟩ => show win1_3.index t 0 * 1 + 1 * 0 = t.val / 16; rw [(idx1_3 t).1]; omega
  | ⟨1, _⟩ => show win1_3.index t 1 * 512 + 1 * r.val = (t.val / 4 % 4) * 512 + r.val; rw [(idx1_3 t).2.1, Nat.one_mul]
  | ⟨2, _⟩ => show win1_3.index t 2 * 1024 + 1 * d.val = d.val; rw [(idx1_3 t).2.2]; omega

/-- An index of the result array is in point `t`'s block iff each coordinate is in the block's range on its axis. -/
theorem mem_oblk (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v11).slice (win1_3.rect t)).set ↔ _
  rw [View.set_slice_whole, Rect.mem_set_unit]
  exact Iff.rfl

/-- Every index of the result array is in the block of the last point of its row of key blocks, where the block is written back. -/
theorem ocover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 64 := N_1
  refine ⟨⟨16 * (i 0).val + 4 * ((i 1).val / 512) + 3, by omega⟩, (flush1_3 _).mpr (by show (16 * (i 0).val + 4 * ((i 1).val / 512) + 3) % 4 = 3; omega), ?_⟩
  rw [mem_oblk]
  obtain ⟨e0, e1, e2⟩ := idx1_3 ⟨16 * (i 0).val + 4 * ((i 1).val / 512) + 3, by omega⟩
  intro a
  match a with
  | ⟨0, _⟩ => show win1_3.index _ 0 * 1 ≤ (i 0).val ∧ (i 0).val < win1_3.index _ 0 * 1 + 1; rw [e0]; show (16 * (i 0).val + 4 * ((i 1).val / 512) + 3) / 16 * 1 ≤ _ ∧ _ < (16 * (i 0).val + 4 * ((i 1).val / 512) + 3) / 16 * 1 + 1; omega
  | ⟨1, _⟩ => show win1_3.index _ 1 * 512 ≤ (i 1).val ∧ (i 1).val < win1_3.index _ 1 * 512 + 512; rw [e1]; show (16 * (i 0).val + 4 * ((i 1).val / 512) + 3) / 4 % 4 * 512 ≤ _ ∧ _ < (16 * (i 0).val + 4 * ((i 1).val / 512) + 3) / 4 % 4 * 512 + 512; omega
  | ⟨2, _⟩ => show win1_3.index _ 2 * 1024 ≤ (i 2).val ∧ (i 2).val < win1_3.index _ 2 * 1024 + 1024; rw [e2]; omega

end Cert.KernelIdeal.Hand

end
-- ==== Proof.Spec.lean ====
/-
  The function both programs compute, on the extended reals, index by index.

  For a batch `b`, a query row `q` and an output column `d`:
  the three projections are `x · Wᵀ` (row `(b, s)` of `x` against row `o` of a weight);
  the score of query `q` against key `k` is the dot product of their projections times `1/32`
  (`32 = √1024`), and `-∞` for a key after the query (`k > q`: the causal mask);
  a row's weights are `exp (score - row maximum)`, normalised by their sum;
  the result is the weighted sum of the value projections.
-/
import Idealize.ShloMosaic.PureOps.Ideal
import Idealize.ShloMosaic.Lib.ValueIdx

noncomputable section

open scoped BigOperators

namespace Cert.Attn

open Idealize.ShloMosaic Idealize.ShloMosaic.ValueIdx

/-- An activation array `[4, 2048, 1024]` and a weight `[1024, 1024]`, as functions of the index. -/
abbrev Act : Type := (⟨3, ![4, 2048, 1024]⟩ : Shape).Idx → EReal
abbrev Wgt : Type := (⟨2, ![1024, 1024]⟩ : Shape).Idx → EReal

/-- A projection: row `(b, s)` of `x` against row `o` of the weight (`y = x Wᵀ`). -/
def proj (x : Act) (w : Wgt) (b : Fin 4) (s : Fin 2048) (o : Fin 1024) : EReal :=
  ∑ i : Fin 1024, x (ix3 b s i) * w (ix2 o i)

/-- The raw score of query `q` against key `k`: the dot product of their projections. -/
def dotQK (x : Act) (wq wk : Wgt) (b : Fin 4) (q k : Fin 2048) : EReal :=
  ∑ d : Fin 1024, proj x wq b q d * proj x wk b k d

/-- The scaled, causally masked score: `-∞` for a key after the query. -/
def score (x : Act) (wq wk : Wgt) (b : Fin 4) (q k : Fin 2048) : EReal :=
  if k.val ≤ q.val then dotQK x wq wk b q k * (((1 / 32 : ℝ) : ℝ) : EReal) else ⊥

/-- A row's maximum score (the fold of `max` from `-∞`). -/
def rowMax (x : Act) (wq wk : Wgt) (b : Fin 4) (q : Fin 2048) : EReal :=
  (Finset.univ : Finset (Fin 2048)).fold max ⊥ (fun k => score x wq wk b q k)

/-- The unnormalised weight of key `k` in row `q`. -/
def wgt (x : Act) (wq wk : Wgt) (b : Fin 4) (q k : Fin 2048) : EReal :=
  Ideal.exp (score x wq wk b q k - rowMax x wq wk b q)

/-- The row's normaliser. -/
def denom (x : Act) (wq wk : Wgt) (b : Fin 4) (q : Fin 2048) : EReal :=
  ∑ k : Fin 2048, wgt x wq wk b q k

/-- Causal softmax attention at `(b, q, d)`. -/
def out3 (x : Act) (wq wk wv : Wgt) (b : Fin 4) (q : Fin 2048) (d : Fin 1024) : EReal :=
  ∑ k : Fin 2048, Ideal.div (wgt x wq wk b q k) (denom x wq wk b q) * proj x wv b k d

end Cert.Attn

end
-- ==== Proof.OnlineSoftmaxA.lean ====
/-
  The blockwise ("online") evaluation of a softmax-weighted sum, and its real-number bookkeeping.

  A row of 2048 scores is read in four blocks of 512.  The running state is a triple
  (maximum so far, normaliser relative to that maximum, weighted sum relative to that maximum);
  when the maximum grows from m to m', the old normaliser and sum are rescaled by exp (m - m').
  This file fixes the definitions and shows that one step, started from real data, stays real
  and has the expected closed form.
-/
import proofs.«182005_j67748814127590_2_alg».proof.Proof.Spec

noncomputable section

open scoped BigOperators

namespace Cert.Attn

open Idealize.ShloMosaic Idealize.ShloMosaic.ValueIdx

/-- Block j (512 keys) of a row of 2048 entries; ⊥ past the end. -/
def blk (S : Fin 2048 → EReal) (j : ℕ) (c : Fin 512) : EReal :=
  if h : j * 512 + c.val < 2048 then S ⟨j * 512 + c.val, h⟩ else ⊥

/-- One step of the running (maximum, normaliser, weighted sum) over a block of scores s and values v. -/
def step (st : EReal × EReal × EReal) (s v : Fin 512 → EReal) : EReal × EReal × EReal :=
  (max st.1 ((Finset.univ : Finset (Fin 512)).fold max ⊥ s),
   Ideal.exp (st.1 - max st.1 ((Finset.univ : Finset (Fin 512)).fold max ⊥ s)) * st.2.1
     + ∑ c : Fin 512, Ideal.exp (s c - max st.1 ((Finset.univ : Finset (Fin 512)).fold max ⊥ s)),
   Ideal.exp (st.1 - max st.1 ((Finset.univ : Finset (Fin 512)).fold max ⊥ s)) * st.2.2
     + ∑ c : Fin 512, Ideal.exp (s c - max st.1 ((Finset.univ : Finset (Fin 512)).fold max ⊥ s)) * v c)

/-- The state after blocks 0 … n, from (⊥, 0, 0). -/
def run (S V : Fin 2048 → EReal) : ℕ → EReal × EReal × EReal
  | 0 => step (⊥, 0, 0) (blk S 0) (blk V 0)
  | n + 1 => step (run S V n) (blk S (n + 1)) (blk V (n + 1))

/-! ### Real numbers inside the extended reals -/

/-- A finite sum of real numbers, taken in the extended reals, is the real sum. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real weight exp (x - M) of an extended-real score x against a real maximum M; 0 at -∞. -/
def ew (x : EReal) (M : ℝ) : ℝ := if x = ⊥ then 0 else Real.exp (x.toReal - M)

theorem ew_bot (M : ℝ) : ew ⊥ M = 0 := if_pos rfl

theorem ew_coe (r M : ℝ) : ew (r : EReal) M = Real.exp (r - M) := by
  rw [ew, if_neg (EReal.coe_ne_bot r), EReal.toReal_coe]

theorem ew_nonneg (x : EReal) (M : ℝ) : 0 ≤ ew x M := by
  unfold ew
  split_ifs
  · exact le_rfl
  · exact (Real.exp_pos _).le

/-- exp (x - M) for x = -∞ or real, M real, is the real weight. -/
theorem exp_sub_coe {x : EReal} (hx : x = ⊥ ∨ ∃ r : ℝ, x = (r : EReal)) (M : ℝ) :
    Ideal.exp (x - (M : EReal)) = ((ew x M : ℝ) : EReal) := by
  rcases hx with rfl | ⟨r, rfl⟩
  · rw [EReal.bot_sub, Ideal.exp_bot, ew_bot, EReal.coe_zero]
  · rw [← EReal.coe_sub, Ideal.exp_coe, ew_coe]

/-- Changing the reference maximum from M to M' multiplies every weight by exp (M - M'). -/
theorem ew_rescale {x : EReal} (hx : x = ⊥ ∨ ∃ r : ℝ, x = (r : EReal)) (M M' : ℝ) :
    Real.exp (M - M') * ew x M = ew x M' := by
  rcases hx with rfl | ⟨r, rfl⟩
  · rw [ew_bot, ew_bot, mul_zero]
  · rw [ew_coe, ew_coe, ← Real.exp_add]
    congr 1
    ring

/-- A real value is the coercion of its real part. -/
theorem coe_toReal_of_real {x : EReal} (hx : ∃ r : ℝ, x = (r : EReal)) : ((x.toReal : ℝ) : EReal) = x := by
  obtain ⟨r, rfl⟩ := hx
  rw [EReal.toReal_coe]

/-! ### One step on real data -/

/-- One step from a state (m, L, A) with L, A real and m = -∞ or real, over a block of scores that are
    -∞ or real and real values, when the new maximum M' is real: the new state is real, the old
    normaliser and sum are scaled by the weight of m against M', and the block's weights are added. -/
theorem step_real (m : EReal) (L A M' : ℝ) (s v : Fin 512 → EReal)
    (hm : m = ⊥ ∨ ∃ r : ℝ, m = (r : EReal))
    (hs : ∀ c, s c = ⊥ ∨ ∃ r : ℝ, s c = (r : EReal)) (hv : ∀ c, ∃ r : ℝ, v c = (r : EReal))
    (hM' : max m ((Finset.univ : Finset (Fin 512)).fold max ⊥ s) = (M' : EReal)) :
    step (m, (L : EReal), (A : EReal)) s v
      = ((M' : EReal), ((ew m M' * L + ∑ c : Fin 512, ew (s c) M' : ℝ) : EReal),
          ((ew m M' * A + ∑ c : Fin 512, ew (s c) M' * (v c).toReal : ℝ) : EReal)) := by
  unfold step
  dsimp only
  rw [hM']
  refine congrArg₂ Prod.mk rfl (congrArg₂ Prod.mk ?_ ?_)
  · rw [exp_sub_coe hm, EReal.coe_add, EReal.coe_mul, coe_sum_real]
    congr 1
    exact Finset.sum_congr rfl (fun c _ => exp_sub_coe (hs c) M')
  · rw [exp_sub_coe hm, EReal.coe_add, EReal.coe_mul, coe_sum_real]
    congr 1
    refine Finset.sum_congr rfl (fun c _ => ?_)
    rw [exp_sub_coe (hs c), EReal.coe_mul, coe_toReal_of_real (hv c)]

end Cert.Attn

end
-- ==== Proof.OnlineSoftmaxB.lean ====
/-
  The blockwise evaluation agrees with the plain softmax-weighted sum.

  Invariant: after blocks 0 … j the state is (M, L, A) with M the (real) maximum of the scores of the
  first (j+1)·512 keys, L the sum over those keys of exp (score - M), and A the sum of
  exp (score - M) · value.  Keys past block n have score -∞, so they change neither the maximum nor
  the sums; the normaliser is positive because key 0 has a real score; the final quotient A / L is
  the sum of (exp (score - M) / L) · value.
-/
import proofs.«182005_j67748814127590_2_alg».proof.Proof.OnlineSoftmaxA

noncomputable section

open scoped BigOperators

namespace Cert.Attn

open Idealize.ShloMosaic Idealize.ShloMosaic.ValueIdx

/-! ### The keys of the first blocks -/

/-- The keys of blocks 0 … j-1. -/
def pre (j : ℕ) : Finset (Fin 2048) := Finset.univ.filter (fun k => k.val < j * 512)

theorem mem_pre {j : ℕ} {k : Fin 2048} : k ∈ pre j ↔ k.val < j * 512 := by
  simp [pre]

theorem pre_zero : pre 0 = ∅ := by
  ext k
  simp [mem_pre]

/-- Inside the row, an entry of block j is the entry of the row at j·512 + c. -/
theorem blk_eq (S : Fin 2048 → EReal) (j : ℕ) (hj : j < 4) (c : Fin 512) :
    blk S j c = S ⟨j * 512 + c.val, by have := c.isLt; omega⟩ := by
  unfold blk
  rw [dif_pos]

/-- A sum over the keys of blocks 0 … j splits into the sum over blocks 0 … j-1 and the sum over block j. -/
theorem sum_pre_succ (j : ℕ) (hj : j < 4) (f : Fin 2048 → ℝ) :
    ∑ k ∈ pre (j + 1), f k
      = ∑ k ∈ pre j, f k + ∑ c : Fin 512, f ⟨j * 512 + c.val, by have := c.isLt; omega⟩ := by
  have hsplit : pre (j + 1)
      = pre j ∪ Finset.univ.filter (fun k : Fin 2048 => j * 512 ≤ k.val ∧ k.val < (j + 1) * 512) := by
    ext k
    simp only [mem_pre, Finset.mem_union, Finset.mem_filter, Finset.mem_univ, true_and]
    omega
  have hdisj : Disjoint (pre j)
      (Finset.univ.filter (fun k : Fin 2048 => j * 512 ≤ k.val ∧ k.val < (j + 1) * 512)) := by
    rw [Finset.disjoint_left]
    intro k hk hk'
    rw [mem_pre] at hk
    simp only [Finset.mem_filter, Finset.mem_univ, true_and] at hk'
    omega
  rw [hsplit, Finset.sum_union hdisj]
  congr 1
  symm
  refine Finset.sum_nbij' (fun c : Fin 512 => (⟨j * 512 + c.val, by have := c.isLt; omega⟩ : Fin 2048))
    (fun k : Fin 2048 => (⟨(k.val - j * 512) % 512, Nat.mod_lt _ (by norm_num)⟩ : Fin 512)) ?_ ?_ ?_ ?_ ?_
  · intro c _
    have := c.isLt
    simp only [Finset.mem_filter, Finset.mem_univ, true_and]
    omega
  · intro k _
    exact Finset.mem_univ _
  · intro c _
    have := c.isLt
    apply Fin.ext
    simp only
    omega
  · intro k hk
    simp only [Finset.mem_filter, Finset.mem_univ, true_and] at hk
    apply Fin.ext
    simp only
    omega
  · intro c _
    rfl

/-- The maximum over the keys of blocks 0 … j is the larger of the maximum over blocks 0 … j-1 and
    the maximum of block j. -/
theorem fold_pre_succ (S : Fin 2048 → EReal) (j : ℕ) (hj : j < 4) :
    (pre (j + 1)).fold max ⊥ S
      = max ((pre j).fold max ⊥ S) ((Finset.univ : Finset (Fin 512)).fold max ⊥ (blk S j)) := by
  apply le_antisymm
  · refine (Finset.fold_max_le _).mpr ⟨bot_le, fun k hk => ?_⟩
    rw [mem_pre] at hk
    by_cases h : k.val < j * 512
    · exact le_max_of_le_left ((Finset.le_fold_max _).mpr (Or.inr ⟨k, mem_pre.mpr h, le_rfl⟩))
    · refine le_max_of_le_right ((Finset.le_fold_max _).mpr
        (Or.inr ⟨(⟨k.val - j * 512, by omega⟩ : Fin 512), Finset.mem_univ _, ?_⟩))
      rw [blk_eq S j hj]
      refine le_of_eq (congrArg S (Fin.ext ?_))
      simp only
      omega
  · refine max_le ?_ ?_
    · refine (Finset.fold_max_le _).mpr ⟨bot_le, fun k hk => ?_⟩
      rw [mem_pre] at hk
      exact (Finset.le_fold_max _).mpr (Or.inr ⟨k, mem_pre.mpr (by omega), le_rfl⟩)
    · refine (Finset.fold_max_le _).mpr ⟨bot_le, fun c _ => ?_⟩
      have := c.isLt
      rw [blk_eq S j hj c]
      refine (Finset.le_fold_max _).mpr (Or.inr ⟨_, mem_pre.mpr ?_, le_rfl⟩)
      simp only
      omega

/-- A maximum over keys that include key 0 is real, when key 0's score is real and no score is +∞. -/
theorem fold_real (S : Fin 2048 → EReal) (hS : ∀ k, S k = ⊥ ∨ ∃ r : ℝ, S k = (r : EReal))
    (h0 : ∃ r : ℝ, S ⟨0, by norm_num⟩ = (r : EReal)) (s : Finset (Fin 2048))
    (hs : (⟨0, by norm_num⟩ : Fin 2048) ∈ s) : ∃ M : ℝ, s.fold max ⊥ S = (M : EReal) := by
  have htop : s.fold max ⊥ S ≠ ⊤ := by
    refine ((Finset.fold_max_lt _).mpr ⟨bot_lt_top, fun k _ => ?_⟩).ne
    rcases hS k with h | ⟨r, h⟩
    · rw [h]; exact bot_lt_top
    · rw [h]; exact EReal.coe_lt_top r
  have hbot : s.fold max ⊥ S ≠ ⊥ := by
    obtain ⟨r, hr⟩ := h0
    refine ((Finset.lt_fold_max _).mpr (Or.inr ⟨_, hs, ?_⟩)).ne'
    rw [hr]; exact EReal.bot_lt_coe r
  exact ⟨_, (EReal.coe_toReal htop hbot).symm⟩

/-! ### The invariant -/

/-- One step over block j, from a state whose normaliser and sum, rescaled to the new maximum M', are the
    sums over blocks 0 … j-1: the new state carries the sums over blocks 0 … j. -/
theorem step_block (S V : Fin 2048 → EReal)
    (hS : ∀ k, S k = ⊥ ∨ ∃ r : ℝ, S k = (r : EReal)) (hV : ∀ k, ∃ r : ℝ, V k = (r : EReal))
    (j : ℕ) (hj : j < 4) (m : EReal) (L A M' : ℝ) (hm : m = ⊥ ∨ ∃ r : ℝ, m = (r : EReal))
    (hM' : max m ((Finset.univ : Finset (Fin 512)).fold max ⊥ (blk S j)) = (M' : EReal))
    (hL : ew m M' * L = ∑ k ∈ pre j, ew (S k) M')
    (hA : ew m M' * A = ∑ k ∈ pre j, ew (S k) M' * (V k).toReal) :
    step (m, (L : EReal), (A : EReal)) (blk S j) (blk V j)
      = ((M' : EReal), ((∑ k ∈ pre (j + 1), ew (S k) M' : ℝ) : EReal),
          ((∑ k ∈ pre (j + 1), ew (S k) M' * (V k).toReal : ℝ) : EReal)) := by
  rw [step_real m L A M' _ _ hm (fun c => by rw [blk_eq S j hj c]; exact hS _)
    (fun c => by rw [blk_eq V j hj c]; exact hV _) hM']
  rw [hL, hA, sum_pre_succ j hj (fun k => ew (S k) M'),
    sum_pre_succ j hj (fun k => ew (S k) M' * (V k).toReal)]
  simp only [blk_eq S j hj, blk_eq V j hj]

/-- After blocks 0 … j the state is real: the maximum, the normaliser and the weighted sum of the keys of
    those blocks. -/
theorem run_real (S V : Fin 2048 → EReal)
    (hS : ∀ k, S k = ⊥ ∨ ∃ r : ℝ, S k = (r : EReal)) (hV : ∀ k, ∃ r : ℝ, V k = (r : EReal))
    (h0 : ∃ r : ℝ, S ⟨0, by norm_num⟩ = (r : EReal)) (j : ℕ) (hj : j < 4) :
    ∃ M : ℝ, (pre (j + 1)).fold max ⊥ S = (M : EReal) ∧
      run S V j = ((M : EReal), ((∑ k ∈ pre (j + 1), ew (S k) M : ℝ) : EReal),
        ((∑ k ∈ pre (j + 1), ew (S k) M * (V k).toReal : ℝ) : EReal)) := by
  induction j with
  | zero =>
    obtain ⟨M', hM'⟩ := fold_real S hS h0 (pre (0 + 1)) (mem_pre.mpr (by norm_num))
    have hmax : max (⊥ : EReal) ((Finset.univ : Finset (Fin 512)).fold max ⊥ (blk S 0)) = (M' : EReal) := by
      rw [← hM', fold_pre_succ S 0 hj, pre_zero, Finset.fold_empty]
    refine ⟨M', hM', ?_⟩
    show step (⊥, 0, 0) (blk S 0) (blk V 0) = _
    rw [← EReal.coe_zero]
    exact step_block S V hS hV 0 hj ⊥ 0 0 M' (Or.inl rfl) hmax
      (by rw [pre_zero, Finset.sum_empty, mul_zero]) (by rw [pre_zero, Finset.sum_empty, mul_zero])
  | succ j ih =>
    obtain ⟨M, hM, hrun⟩ := ih (by omega)
    obtain ⟨M', hM'⟩ := fold_real S hS h0 (pre (j + 1 + 1))
      (mem_pre.mpr (by show 0 < (j + 1 + 1) * 512; omega))
    have hmax : max (M : EReal) ((Finset.univ : Finset (Fin 512)).fold max ⊥ (blk S (j + 1))) = (M' : EReal) := by
      rw [← hM, ← fold_pre_succ S (j + 1) hj, hM']
    refine ⟨M', hM', ?_⟩
    show step (run S V j) (blk S (j + 1)) (blk V (j + 1)) = _
    rw [hrun]
    refine step_block S V hS hV (j + 1) hj (M : EReal) _ _ M' (Or.inr ⟨M, rfl⟩) hmax ?_ ?_
    · rw [ew_coe, Finset.mul_sum]
      exact Finset.sum_congr rfl (fun k _ => ew_rescale (hS k) M M')
    · rw [ew_coe, Finset.mul_sum]
      refine Finset.sum_congr rfl (fun k _ => ?_)
      rw [← mul_assoc, ew_rescale (hS k) M M']

end Cert.Attn

end
-- ==== Proof.OnlineSoftmax.lean ====
/-
  The blockwise evaluation of a causal attention row is the plain softmax-weighted sum.

  Keys past block n have score -∞: they move neither the row maximum nor the sums, and contribute 0 to
  the plain sum.  The normaliser L is positive because key 0 has a real score, so dividing by it is
  multiplying by the real 1 / L, and (Σ e_k v_k) / L = Σ (e_k / L) v_k in the reals.
  For the attention row of query q the scores are -∞ exactly after q, so n = q / 512 blocks suffice.
-/
import proofs.«182005_j67748814127590_2_alg».proof.Proof.OnlineSoftmaxB

noncomputable section

open scoped BigOperators

namespace Cert.Attn

open Idealize.ShloMosaic Idealize.ShloMosaic.ValueIdx

theorem online_softmax (S V : Fin 2048 → EReal) (n : ℕ) (hn : n < 4)
    (hS : ∀ k, S k = ⊥ ∨ ∃ r : ℝ, S k = (r : EReal)) (hV : ∀ k, ∃ r : ℝ, V k = (r : EReal))
    (hlate : ∀ k : Fin 2048, (n + 1) * 512 ≤ k.val → S k = ⊥)
    (h0 : ∃ r : ℝ, S ⟨0, by norm_num⟩ = (r : EReal)) :
    Ideal.div (run S V n).2.2 (run S V n).2.1
      = ∑ k : Fin 2048, Ideal.div (Ideal.exp (S k - (Finset.univ : Finset (Fin 2048)).fold max ⊥ S))
          (∑ k' : Fin 2048, Ideal.exp (S k' - (Finset.univ : Finset (Fin 2048)).fold max ⊥ S)) * V k := by
  obtain ⟨M, hM, hrun⟩ := run_real S V hS hV h0 n hn
  -- the row maximum is the maximum of the first n+1 blocks
  have hfold : (Finset.univ : Finset (Fin 2048)).fold max ⊥ S = (M : EReal) := by
    rw [← hM]
    apply le_antisymm
    · refine (Finset.fold_max_le _).mpr ⟨bot_le, fun k _ => ?_⟩
      by_cases h : k.val < (n + 1) * 512
      · exact (Finset.le_fold_max _).mpr (Or.inr ⟨k, mem_pre.mpr h, le_rfl⟩)
      · rw [hlate k (by omega)]
        exact bot_le
    · exact (Finset.fold_max_le _).mpr
        ⟨bot_le, fun k _ => (Finset.le_fold_max _).mpr (Or.inr ⟨k, Finset.mem_univ k, le_rfl⟩)⟩
  -- the later keys add nothing to the two sums
  have hsumL : ∑ k ∈ pre (n + 1), ew (S k) M = ∑ k, ew (S k) M :=
    Finset.sum_subset (Finset.subset_univ _) (fun k _ hk => by
      rw [mem_pre] at hk
      rw [hlate k (by omega), ew_bot])
  have hsumA : ∑ k ∈ pre (n + 1), ew (S k) M * (V k).toReal = ∑ k, ew (S k) M * (V k).toReal :=
    Finset.sum_subset (Finset.subset_univ _) (fun k _ hk => by
      rw [mem_pre] at hk
      rw [hlate k (by omega), ew_bot, zero_mul])
  -- the normaliser is positive: key 0 has a positive weight
  have hLpos : 0 < ∑ k, ew (S k) M := by
    obtain ⟨r, hr⟩ := h0
    refine lt_of_lt_of_le ?_ (Finset.single_le_sum (fun k _ => ew_nonneg (S k) M)
      (Finset.mem_univ (⟨0, by norm_num⟩ : Fin 2048)))
    rw [hr, ew_coe]
    exact Real.exp_pos _
  have hden : ∑ k' : Fin 2048, Ideal.exp (S k' - (M : EReal)) = ((∑ k, ew (S k) M : ℝ) : EReal) := by
    rw [coe_sum_real]
    exact Finset.sum_congr rfl (fun k _ => exp_sub_coe (hS k) M)
  rw [hrun, hfold, hden]
  dsimp only
  rw [hsumL, hsumA, Ideal.div_coe hLpos.ne']
  have hterm : ∀ k : Fin 2048,
      Ideal.div (Ideal.exp (S k - (M : EReal))) ((∑ k, ew (S k) M : ℝ) : EReal) * V k
        = ((ew (S k) M * (1 / ∑ k, ew (S k) M) * (V k).toReal : ℝ) : EReal) := fun k => by
    rw [Ideal.div_coe hLpos.ne', exp_sub_coe (hS k), EReal.coe_mul, EReal.coe_mul,
      coe_toReal_of_real (hV k)]
  rw [Finset.sum_congr rfl (fun k _ => hterm k), ← coe_sum_real, ← EReal.coe_mul]
  congr 1
  rw [Finset.sum_mul]
  exact Finset.sum_congr rfl (fun k _ => by ring)

/-! ### The attention row -/

/-- A product of two reals is real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- A finite sum of reals is real. -/
theorem real_sum {ι : Type*} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [coe_sum_real]
  exact Finset.sum_congr rfl (fun i _ => hg i)

theorem proj_real (x : Act) (w : Wgt) (hx : ∀ i, ∃ r : ℝ, x i = (r : EReal)) (hw : ∀ i, ∃ r : ℝ, w i = (r : EReal))
    (b : Fin 4) (s : Fin 2048) (o : Fin 1024) : ∃ r : ℝ, proj x w b s o = (r : EReal) := by
  unfold proj
  exact real_sum _ _ (fun i => real_mul (hx _) (hw _))

/-- The raw score of a query against a key is real. -/
theorem dotQK_real (x : Act) (wq wk : Wgt) (hx : ∀ i, ∃ r : ℝ, x i = (r : EReal))
    (hq : ∀ i, ∃ r : ℝ, wq i = (r : EReal)) (hk : ∀ i, ∃ r : ℝ, wk i = (r : EReal))
    (b : Fin 4) (q k : Fin 2048) : ∃ r : ℝ, dotQK x wq wk b q k = (r : EReal) := by
  unfold dotQK
  exact real_sum _ _ (fun d => real_mul (proj_real x wq hx hq b q d) (proj_real x wk hx hk b k d))

/-- A masked score is -∞ or real. -/
theorem score_cases (x : Act) (wq wk : Wgt) (hx : ∀ i, ∃ r : ℝ, x i = (r : EReal))
    (hq : ∀ i, ∃ r : ℝ, wq i = (r : EReal)) (hk : ∀ i, ∃ r : ℝ, wk i = (r : EReal))
    (b : Fin 4) (q k : Fin 2048) :
    score x wq wk b q k = ⊥ ∨ ∃ r : ℝ, score x wq wk b q k = (r : EReal) := by
  unfold score
  split_ifs
  · exact Or.inr (real_mul (dotQK_real x wq wk hx hq hk b q k) ⟨_, rfl⟩)
  · exact Or.inl rfl

theorem out3_eq_online (x : Act) (wq wk wv : Wgt) (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) (b : Fin 4) (q : Fin 2048) (d : Fin 1024) :
    out3 x wq wk wv b q d
      = Ideal.div (run (fun k => score x wq wk b q k) (fun k => proj x wv b k d) (q.val / 512)).2.2
          (run (fun k => score x wq wk b q k) (fun k => proj x wv b k d) (q.val / 512)).2.1 := by
  have hqlt := q.isLt
  unfold out3 denom wgt rowMax
  refine (online_softmax (fun k => score x wq wk b q k) (fun k => proj x wv b k d) (q.val / 512)
    ?_ ?_ ?_ ?_ ?_).symm
  · omega
  · intro k
    exact score_cases x wq wk hx hq hk b q k
  · intro k
    exact proj_real x wv hx hv b k d
  · intro k hk'
    show score x wq wk b q k = ⊥
    unfold score
    rw [if_neg]
    omega
  · show ∃ r : ℝ, score x wq wk b q ⟨0, by norm_num⟩ = (r : EReal)
    unfold score
    rw [if_pos (Nat.zero_le _)]
    exact real_mul (dotQK_real x wq wk hx hq hk b q _) ⟨_, rfl⟩

end Cert.Attn

end
-- ==== Proof.KI.R1PayA.lean ====
/-
  The attention kernel's stored values read at an index, first part: the literals, the layout steps, the two
  contractions, and the stored values that need nothing else.

  On the extended reals a change of float format is the identity, a contraction into a zero accumulator is the sum of
  the products, and the layout steps (a cast that drops or adds a unit axis, a column repeated along a row) only move
  indices. So each stored value, read at explicit coordinates, is a short formula in the loaded blocks.
-/
import proofs.«182005_j67748814127590_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«182005_j67748814127590_2_alg».proof.Proof.OnlineSoftmax

noncomputable section

open scoped BigOperators

namespace Cert.KernelIdeal.Pay

open Cert.KernelIdeal Cert.KernelIdeal.Gen
open Idealize.ShloMosaic Idealize.ShloMosaic.ValueIdx

/-! ## Literals -/

/-- The word `0xFF800000` (sign set, exponent all ones, fraction zero) is `-∞`. -/
theorem word_negInf : Ideal.ofBits .f32 0xFF800000#32 = (⊥ : EReal) := by
  simp [Ideal.ofBits, Ideal.ieee]

/-- The word `0x3D000000` is `2⁻⁵ = 1/32`. -/
theorem word_inv32 : Ideal.ofBits .f32 0x3D000000#32 = (((1 / 32 : ℝ) : ℝ) : EReal) := by
  simp [Ideal.ofBits, Ideal.ieee, -EReal.coe_mul]; norm_num

/-- The mask's fill value is the named constant that denotes `-∞`. -/
theorem negBig : Named.named (F := Ideal) κ "neg_big" (φ := .f32) 0xF149F2CA#32 = (⊥ : EReal) := rfl

/-! ## Two column layouts -/

section Layout
variable {α : Type}

/-- A vector `[a]` cast to a column `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` repeated to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The causal comparison of global positions -/

/-! ## The two contractions -/

/-- The score contraction: both operands contract their second axis (query rows against key rows). -/
abbrev Dqk : DotDims S512x1024 S512x1024 S512x512 := dot_S512x1024_S512x1024_S512x512_1_1_0_0_n_n
/-- The value contraction: weights' columns against the value block's rows. -/
abbrev Dpv : DotDims S512x512 S512x1024 S512x1024 := dot_S512x512_S512x1024_S512x1024_1_0_0_1_n_n

/-- A position below `2048`, as a 32-bit word read signed, is itself. -/
theorem toInt_pos (n : Nat) (h : n < 2048) : (BitVec.ofNat 32 n).toInt = (n : Int) := by
  rw [BitVec.toInt_eq_toNat_of_lt (by rw [BitVec.toNat_ofNat]; omega), BitVec.toNat_ofNat]; omega

/-- Block number times `512` plus the position inside the block, computed on 32-bit words, is the word of that
    natural number (the word of a sum or product is the sum or product of the words). -/
theorem globalPos (n : ℕ) (x : Fin 512) :
    IntOp.addi (Scalar.muli (BitVec.ofNat 32 n) 512#32) (BitVec.ofNat 32 x.val) = BitVec.ofNat 32 (n * 512 + x.val) := by
  show BitVec.ofNat 32 n * BitVec.ofNat 32 512 + BitVec.ofNat 32 x.val = _
  rw [BitVec.ofNat_add, BitVec.ofNat_mul]

/-- The signed comparison "key position ≤ query position" of the global positions `b · 512 + c` and `a · 512 + r`
    holds exactly when it holds for the natural numbers: with block numbers below `4` both are below `2048`, so their
    signed readings are the numbers themselves. -/
theorem causal_bit (a b : ℕ) (ha : a < 4) (hb : b < 4) (r c : Fin 512) :
    IntOp.cmpi .sle (IntOp.addi (Scalar.muli (BitVec.ofNat 32 b) 512#32) (BitVec.ofNat 32 c.val))
        (IntOp.addi (Scalar.muli (BitVec.ofNat 32 a) 512#32) (BitVec.ofNat 32 r.val))
      = if b * 512 + c.val ≤ a * 512 + r.val then 1#1 else 0#1 := by
  have hr := r.isLt
  have hc := c.isLt
  rw [globalPos, globalPos]
  by_cases h : b * 512 + c.val ≤ a * 512 + r.val
  · rw [if_pos h]
    refine IntOp.cmpi_sle.mpr ?_
    rw [toInt_pos _ (by omega), toInt_pos _ (by omega)]; exact_mod_cast h
  · rw [if_neg h]
    refine eq_zero_of_ne_one fun hh => h ?_
    have := IntOp.cmpi_sle.mp hh
    rw [toInt_pos _ (by omega), toInt_pos _ (by omega)] at this; exact_mod_cast this

/-- The left operand's row is the result's row … -/
theorem qk_lhs_row (j : S512x512.Idx) (q : Dqk.contr.Idx) : (Dqk.lhsIdx j q 0).val = (j 0).val := by
  unfold DotDims.lhsIdx
  rw [dif_neg (show ¬(0 : Fin S512x1024.rank) ∈ Dqk.lhsBatch by decide),
    dif_pos (show (0 : Fin S512x1024.rank) ∈ Dqk.lhsNonContracting by decide)]
  rfl

/-- … so at result `(r, c)` and contraction position `k` the left operand is read at `(r, k)` … -/
theorem qk_lhs (r c : Fin 512) (k : Fin 1024) :
    Dqk.lhsIdx (ix2 r c) ((contrEquiv1 Dqk 1024 rfl rfl).symm k) = ix2 r k := by
  have hk := contrEquiv1_symm_val Dqk 1024 rfl rfl k
  refine funext fun ax => Fin.ext ?_
  match ax with
  | ⟨0, _⟩ => exact qk_lhs_row _ _
  | ⟨1, _⟩ => exact (Dqk.lhsIdx_val_of_single rfl _ _).trans hk

/-- … and the right operand's row is the result's column … -/
theorem qk_rhs_row (j : S512x512.Idx) (q : Dqk.contr.Idx) : (Dqk.rhsIdx j q 0).val = (j 1).val := by
  unfold DotDims.rhsIdx
  rw [dif_neg (show ¬(0 : Fin S512x1024.rank) ∈ Dqk.rhsBatch by decide),
    dif_pos (show (0 : Fin S512x1024.rank) ∈ Dqk.rhsNonContracting by decide)]
  rfl

/-- … so the right operand is read at `(c, k)`. -/
theorem qk_rhs (r c : Fin 512) (k : Fin 1024) :
    Dqk.rhsIdx (ix2 r c) ((contrEquiv1 Dqk 1024 rfl rfl).symm k) = ix2 c k := by
  have hk := contrEquiv1_symm_val Dqk 1024 rfl rfl k
  refine funext fun ax => Fin.ext ?_
  match ax with
  | ⟨0, _⟩ => exact qk_rhs_row _ _
  | ⟨1, _⟩ => exact (Dqk.rhsIdx_val_of_single rfl _ _).trans hk

/-- The score contraction into a zero accumulator at `(r, c)`: the dot product of row `r` of the left operand with
    row `c` of the right one. -/
theorem qk_dot (q k : FVec Ideal S512x1024 .bf16) (r c : Fin 512) :
    matmul Dqk none q k (constant (F := Ideal) S512x512 .f32 0x00000000#32) (ix2 r c)
      = ∑ d : Fin 1024, q (ix2 r d) * k (ix2 c d) := by
  refine (Ideal.matmul_constant_zero_apply Dqk none q k (ix2 r c)).trans ?_
  rw [← Equiv.sum_comp (contrEquiv1 Dqk 1024 rfl rfl).symm]
  exact Finset.sum_congr rfl fun d _ => by rw [qk_lhs, qk_rhs]

/-- For the value contraction the left operand's row is the result's row … -/
theorem pv_lhs_row (j : S512x1024.Idx) (q : Dpv.contr.Idx) : (Dpv.lhsIdx j q 0).val = (j 0).val := by
  unfold DotDims.lhsIdx
  rw [dif_neg (show ¬(0 : Fin S512x512.rank) ∈ Dpv.lhsBatch by decide),
    dif_pos (show (0 : Fin S512x512.rank) ∈ Dpv.lhsNonContracting by decide)]
  rfl

/-- … so at result `(r, d)` and contraction position `k` the left operand is read at `(r, k)` … -/
theorem pv_lhs (r : Fin 512) (d : Fin 1024) (k : Fin 512) :
    Dpv.lhsIdx (ix2 r d) ((contrEquiv1 Dpv 512 rfl rfl).symm k) = ix2 r k := by
  have hk := contrEquiv1_symm_val Dpv 512 rfl rfl k
  refine funext fun ax => Fin.ext ?_
  match ax with
  | ⟨0, _⟩ => exact pv_lhs_row _ _
  | ⟨1, _⟩ => exact (Dpv.lhsIdx_val_of_single rfl _ _).trans hk

/-- … and the right operand's column is the result's column … -/
theorem pv_rhs_col (j : S512x1024.Idx) (q : Dpv.contr.Idx) : (Dpv.rhsIdx j q 1).val = (j 1).val := by
  unfold DotDims.rhsIdx
  rw [dif_neg (show ¬(1 : Fin S512x1024.rank) ∈ Dpv.rhsBatch by decide),
    dif_pos (show (1 : Fin S512x1024.rank) ∈ Dpv.rhsNonContracting by decide)]
  rfl

/-- … so the right operand is read at `(k, d)`. -/
theorem pv_rhs (r : Fin 512) (d : Fin 1024) (k : Fin 512) :
    Dpv.rhsIdx (ix2 r d) ((contrEquiv1 Dpv 512 rfl rfl).symm k) = ix2 k d := by
  have hk := contrEquiv1_symm_val Dpv 512 rfl rfl k
  refine funext fun ax => Fin.ext ?_
  match ax with
  | ⟨0, _⟩ => exact (Dpv.rhsIdx_val_of_single rfl _ _).trans hk
  | ⟨1, _⟩ => exact pv_rhs_col _ _

/-- The value contraction into a zero accumulator at `(r, d)`: row `r` of the left operand against column `d` of the
    right one. -/
theorem pv_dot (p : FVec Ideal S512x512 .bf16) (v : FVec Ideal S512x1024 .bf16) (r : Fin 512) (d : Fin 1024) :
    matmul Dpv none p v (constant (F := Ideal) S512x1024 .f32 0x00000000#32) (ix2 r d)
      = ∑ c : Fin 512, p (ix2 r c) * v (ix2 c d) := by
  refine (Ideal.matmul_constant_zero_apply Dpv none p v (ix2 r d)).trans ?_
  rw [← Equiv.sum_comp (contrEquiv1 Dpv 512 rfl rfl).symm]
  exact Finset.sum_congr rfl fun c _ => by rw [pv_lhs, pv_rhs]

/-! ## The stored values that are layout only -/

/-- The running maximum starts at `-∞`. -/
theorem pay1_apply (r : Fin 512) : k1_pay1 (F := Ideal) (ix2 r (0 : Fin 1)) = (⊥ : EReal) := by
  unfold k1_pay1
  rw [shapeCast_self]
  exact word_negInf

/-- The running normaliser starts at `0`. -/
theorem pay2_apply (r : Fin 512) : k1_pay2 (F := Ideal) (ix2 r (0 : Fin 1)) = (0 : EReal) := by
  unfold k1_pay2
  rw [shapeCast_self]
  exact Ideal.ofBits_zero_f32

/-- The running weighted sum starts at `0`. -/
theorem pay3_apply (r : Fin 512) (d : Fin 1024) : k1_pay3 (F := Ideal) (ix2 r d) = (0 : EReal) := by
  unfold k1_pay3
  rw [shapeCast_self]
  exact Ideal.ofBits_zero_f32

/-- The new maximum is stored as it is. -/
theorem pay5_apply (v32 : FVec Ideal S512x1 .f32) (r : Fin 512) :
    k1_pay5 (F := Ideal) v32 (ix2 r (0 : Fin 1)) = v32 (ix2 r (0 : Fin 1)) := by
  unfold k1_pay5
  rw [shapeCast_self]

/-- The value block with its leading unit axis dropped. -/
theorem pay7_apply (xv : Vec Ideal S1x512x1024 .bf16) (c : Fin 512) (d : Fin 1024) :
    k1_pay7 (F := Ideal) xv (ix2 c d) = xv (ix3 (0 : Fin 1) c d) := by
  unfold k1_pay7
  exact shapeCast_1ab_ab_apply xv _ c d

/-- The result block: the weighted sum divided by the row's normaliser. -/
theorem pay6_apply (v9 : Vec Ideal S512x1024 .f32) (v10 : Vec Ideal S512x1 .f32) (r : Fin 512) (d : Fin 1024) :
    k1_pay6 (F := Ideal) v9 v10 (ix3 (0 : Fin 1) r d) = Ideal.div (v9 (ix2 r d)) (v10 (ix2 r (0 : Fin 1))) := by
  unfold k1_pay6
  refine (shapeCast_ab_1ab_apply _ _ (0 : Fin 1) r d).trans ?_
  show Ideal.div (v9 (ix2 r d)) (broadcastTo S512x1024 v10 broadcasts_S512x1_S512x1024 (ix2 r d)) = _
  rw [broadcastTo_a1_ab_apply]

/-- The new weighted sum at `(r, d)`: the old one rescaled by the row's factor, plus the weights of row `r` against
    column `d` of the value block. -/
theorem pay4_apply (v14 : FVec Ideal S512x1024 .bf16) (v34 : FVec Ideal S512x1 .f32) (v37 : FVec Ideal S512x512 .f32)
    (v46 : Vec Ideal S512x1024 .f32) (r : Fin 512) (d : Fin 1024) :
    k1_pay4 (F := Ideal) v14 v34 v37 v46 (ix2 r d)
      = v34 (ix2 r (0 : Fin 1)) * v46 (ix2 r d) + ∑ c : Fin 512, v37 (ix2 r c) * v14 (ix2 c d) := by
  unfold k1_pay4
  rw [shapeCast_self]
  show broadcastTo S512x1024 v34 broadcasts_S512x1_S512x1024 (ix2 r d) * v46 (ix2 r d)
      + matmul Dpv none (truncf .bf16 v37 bitsLt_bf16_f32) v14 (constant (F := Ideal) S512x1024 .f32 0x00000000#32) (ix2 r d) = _
  rw [broadcastTo_a1_ab_apply, pv_dot]
  rfl

end Cert.KernelIdeal.Pay

end
-- ==== Proof.KI.R1Pay.lean ====
/-
  The attention kernel's stored values read at an index, second part: one block of masked scores and the
  online-softmax step it feeds.

  For query block `a` and key block `b` the body forms the block of scores `q · kᵀ / 32`, masked to `-∞` where the
  key's global position `b · 512 + c` is after the query's `a · 512 + r`; the new row maximum is the old one against the
  block's row maximum; the old normaliser and weighted sum are rescaled by `exp (old maximum - new maximum)` and the
  block's weights `exp (score - new maximum)` are added, by themselves and against the value block.
-/
import proofs.«182005_j67748814127590_2_alg».proof.Proof.KI.R1PayA

noncomputable section

open scoped BigOperators

namespace Cert.KernelIdeal.Pay

open Cert.KernelIdeal Cert.KernelIdeal.Gen
open Idealize.ShloMosaic Idealize.ShloMosaic.ValueIdx

/-- The block of masked scores for query block `a` and key block `b`, at query row `r` and key row `c` of the blocks:
    the dot product of the two rows times `1/32` when the key is not after the query, `-∞` otherwise. -/
def sblk (xq xk : Vec Ideal S1x512x1024 .bf16) (a b : ℕ) (r c : Fin 512) : EReal :=
  if b * 512 + c.val ≤ a * 512 + r.val then
    (∑ d : Fin 1024, xq (ix3 (0 : Fin 1) r d) * xk (ix3 (0 : Fin 1) c d)) * (((1 / 32 : ℝ) : ℝ) : EReal)
  else ⊥

/-! ## The two lane reductions -/

/-- The index `r` of the reduced vector with `c` put back on the reduced (second) axis is `(r, c)`. -/
theorem putBackLane (h : S512x512.Reduces [1] S512) (r : Fin 512) (c : Fin (S512x512.size 1)) :
    h.lift (ix1 r) c = ix2 r (⟨c.val, c.isLt⟩ : Fin 512) := by
  funext ax; apply Fin.ext
  fin_cases ax <;> rfl

/-- The maximum along a row from `-∞`: the fold of `max` from `-∞` over the row's entries. -/
theorem laneMax (src : FVec Ideal S512x512 .f32) (h : S512x512.Reduces [1] S512) (hφ : FKind.Formats .f32)
    (hacc : (0xFF800000#32 : BitVec 32) = 0xFF800000#32) (r : Fin 512) :
    multiReduction .maximumf [1] S512 src 0xFF800000#32 h hφ hacc (ix1 r)
      = (Finset.univ : Finset (Fin 512)).fold max ⊥ (fun c => src (ix2 r c)) := by
  refine (Ideal.multiReduction_maximumf_single src 0xFF800000#32 h hφ hacc (ix1 r)).trans ?_
  have hf : (src ∘ h.lift (ix1 r)) = fun c : Fin 512 => src (ix2 r c) :=
    funext fun c => congrArg src (putBackLane h r c)
  rw [hf]
  show (Finset.univ : Finset (Fin 512)).fold max (Ideal.ofBits .f32 0xFF800000#32) (fun c => src (ix2 r c)) = _
  rw [word_negInf]

/-- The sum along a row: the sum of the row's entries. -/
theorem laneSum (src : FVec Ideal S512x512 .f32) (h : S512x512.Reduces [1] S512) (hφ : FKind.Formats .f32)
    (hacc : (0x00000000#32 : BitVec 32) = 0x00000000#32) (r : Fin 512) :
    multiReduction .add [1] S512 src 0x00000000#32 h hφ hacc (ix1 r) = ∑ c : Fin 512, src (ix2 r c) := by
  refine (Ideal.multiReduction_add_single src 0x00000000#32 h hφ hacc (ix1 r)).trans ?_
  exact Finset.sum_congr rfl fun c _ => congrArg src (putBackLane h r c)

/-! ## The stored values of one step -/

section
variable (xq xk : Vec Ideal S1x512x1024 .bf16) (a b : ℕ) (ha : a < 4) (hb : b < 4)
include ha hb

/-- The block of masked scores at `(r, c)`. -/
theorem pay8_apply (r c : Fin 512) :
    k1_pay8 (F := Ideal) (BitVec.ofNat 32 a) (BitVec.ofNat 32 b) xq xk (ix2 r c) = sblk xq xk a b r c := by
  unfold k1_pay8
  show Scalar.select
      (IntOp.cmpi .sle
        (IntOp.addi (Scalar.muli (BitVec.ofNat 32 b) 512#32) (iota .tc S512x512 32 [1] iota_S512x512_d1_w32 (ix2 r c)))
        (IntOp.addi (Scalar.muli (BitVec.ofNat 32 a) 512#32) (iota .tc S512x512 32 [0] iota_S512x512_d0_w32 (ix2 r c))))
      (matmul Dqk none (shapeCast S512x1024 xq shapeCasts_S1x512x1024_S512x1024)
          (shapeCast S512x1024 xk shapeCasts_S1x512x1024_S512x1024)
          (constant (F := Ideal) S512x512 .f32 0x00000000#32) (ix2 r c) * Ideal.ofBits .f32 0x3D000000#32)
      (Named.named (F := Ideal) κ "neg_big" (φ := .f32) 0xF149F2CA#32) = _
  rw [iota_single_apply, iota_single_apply, qk_dot, word_inv32, negBig]
  show Scalar.select (IntOp.cmpi .sle (IntOp.addi (Scalar.muli (BitVec.ofNat 32 b) 512#32) (BitVec.ofNat 32 c.val))
      (IntOp.addi (Scalar.muli (BitVec.ofNat 32 a) 512#32) (BitVec.ofNat 32 r.val))) _ _ = _
  rw [causal_bit a b ha hb r c]
  unfold sblk
  by_cases h : b * 512 + c.val ≤ a * 512 + r.val
  · rw [if_pos h, if_pos h, select_one]
    refine congrArg (· * (((1 / 32 : ℝ) : ℝ) : EReal)) (Finset.sum_congr rfl fun d _ => ?_)
    rw [shapeCast_1ab_ab_apply, shapeCast_1ab_ab_apply]
  · rw [if_neg h, if_neg h, select_zero]

/-- The new row maximum: the old one against the block's row maximum. -/
theorem pay9_apply (m : Vec Ideal S512x1 .f32) (r : Fin 512) :
    k1_pay9 (F := Ideal) (BitVec.ofNat 32 a) (BitVec.ofNat 32 b) xq xk m (ix2 r (0 : Fin 1))
      = max (m (ix2 r (0 : Fin 1))) ((Finset.univ : Finset (Fin 512)).fold max ⊥ (fun c => sblk xq xk a b r c)) := by
  unfold k1_pay9
  show max (m (ix2 r (0 : Fin 1)))
      (shapeCast S512x1 (multiReduction .maximumf [1] S512 (k1_pay8 (F := Ideal) (BitVec.ofNat 32 a) (BitVec.ofNat 32 b) xq xk)
        0xFF800000#32 reduces_S512x512_S512 (.inl rfl) rfl) shapeCasts_S512_S512x1 (ix2 r (0 : Fin 1))) = _
  rw [shapeCast_a_a1_apply]
  refine congrArg (max (m (ix2 r (0 : Fin 1)))) ((laneMax _ _ _ rfl r).trans ?_)
  exact congrArg (fun f => (Finset.univ : Finset (Fin 512)).fold max ⊥ f) (funext fun c => pay8_apply xq xk a b ha hb r c)

/-- The rescaling factor of the old normaliser and weighted sum. -/
theorem pay10_apply (m : Vec Ideal S512x1 .f32) (r : Fin 512) :
    k1_pay10 (F := Ideal) (BitVec.ofNat 32 a) (BitVec.ofNat 32 b) xq xk m (ix2 r (0 : Fin 1))
      = Ideal.exp (m (ix2 r (0 : Fin 1))
          - max (m (ix2 r (0 : Fin 1))) ((Finset.univ : Finset (Fin 512)).fold max ⊥ (fun c => sblk xq xk a b r c))) := by
  unfold k1_pay10
  show Ideal.exp (m (ix2 r (0 : Fin 1))
      - k1_pay9 (F := Ideal) (BitVec.ofNat 32 a) (BitVec.ofNat 32 b) xq xk m (ix2 r (0 : Fin 1))) = _
  rw [pay9_apply xq xk a b ha hb m r]

/-- The block's weights: the exponential of the score minus the new row maximum. -/
theorem pay11_apply (m : Vec Ideal S512x1 .f32) (r c : Fin 512) :
    k1_pay11 (F := Ideal) (BitVec.ofNat 32 a) (BitVec.ofNat 32 b) xq xk m (ix2 r c)
      = Ideal.exp (sblk xq xk a b r c
          - max (m (ix2 r (0 : Fin 1))) ((Finset.univ : Finset (Fin 512)).fold max ⊥ (fun c => sblk xq xk a b r c))) := by
  unfold k1_pay11
  show Ideal.exp (k1_pay8 (F := Ideal) (BitVec.ofNat 32 a) (BitVec.ofNat 32 b) xq xk (ix2 r c)
      - broadcastTo S512x512 (k1_pay9 (F := Ideal) (BitVec.ofNat 32 a) (BitVec.ofNat 32 b) xq xk m) broadcasts_S512x1_S512x512 (ix2 r c)) = _
  rw [broadcastTo_a1_ab_apply, pay8_apply xq xk a b ha hb r c, pay9_apply xq xk a b ha hb m r]

/-- The new normaliser: the old one rescaled, plus the sum of the block's weights along the row. -/
theorem pay12_apply (m l : Vec Ideal S512x1 .f32) (r : Fin 512) :
    k1_pay12 (F := Ideal) (BitVec.ofNat 32 a) (BitVec.ofNat 32 b) xq xk m l (ix2 r (0 : Fin 1))
      = Ideal.exp (m (ix2 r (0 : Fin 1))
            - max (m (ix2 r (0 : Fin 1))) ((Finset.univ : Finset (Fin 512)).fold max ⊥ (fun c => sblk xq xk a b r c)))
          * l (ix2 r (0 : Fin 1))
        + ∑ c : Fin 512, Ideal.exp (sblk xq xk a b r c
            - max (m (ix2 r (0 : Fin 1))) ((Finset.univ : Finset (Fin 512)).fold max ⊥ (fun c => sblk xq xk a b r c))) := by
  unfold k1_pay12
  rw [shapeCast_self]
  show k1_pay10 (F := Ideal) (BitVec.ofNat 32 a) (BitVec.ofNat 32 b) xq xk m (ix2 r (0 : Fin 1)) * l (ix2 r (0 : Fin 1))
      + shapeCast S512x1 (multiReduction .add [1] S512 (k1_pay11 (F := Ideal) (BitVec.ofNat 32 a) (BitVec.ofNat 32 b) xq xk m)
          0x00000000#32 reduces_S512x512_S512 (.inl rfl) rfl) shapeCasts_S512_S512x1 (ix2 r (0 : Fin 1)) = _
  rw [shapeCast_a_a1_apply, pay10_apply xq xk a b ha hb m r]
  refine congrArg (_ + ·) ((laneSum _ _ _ rfl r).trans ?_)
  exact Finset.sum_congr rfl fun c _ => pay11_apply xq xk a b ha hb m r c

/-- One body step on row `r` and column `d`, in the vocabulary of the online softmax: from the loaded state (maximum,
    normaliser, weighted sum) the three stored values are one `step` over the block's masked scores and the value
    block's column `d`. -/
theorem step_eq (xv : Vec Ideal S1x512x1024 .bf16) (m l : Vec Ideal S512x1 .f32) (acc : Vec Ideal S512x1024 .f32)
    (r : Fin 512) (d : Fin 1024) :
    (k1_pay9 (F := Ideal) (BitVec.ofNat 32 a) (BitVec.ofNat 32 b) xq xk m (ix2 r (0 : Fin 1)),
      k1_pay12 (F := Ideal) (BitVec.ofNat 32 a) (BitVec.ofNat 32 b) xq xk m l (ix2 r (0 : Fin 1)),
      k1_pay4 (F := Ideal) (k1_pay7 (F := Ideal) xv) (k1_pay10 (F := Ideal) (BitVec.ofNat 32 a) (BitVec.ofNat 32 b) xq xk m)
        (k1_pay11 (F := Ideal) (BitVec.ofNat 32 a) (BitVec.ofNat 32 b) xq xk m) acc (ix2 r d))
      = Cert.Attn.step (m (ix2 r (0 : Fin 1)), l (ix2 r (0 : Fin 1)), acc (ix2 r d))
          (fun c => sblk xq xk a b r c) (fun c => xv (ix3 (0 : Fin 1) c d)) := by
  rw [pay9_apply xq xk a b ha hb m r, pay12_apply xq xk a b ha hb m l r, pay4_apply, pay10_apply xq xk a b ha hb m r]
  unfold Cert.Attn.step
  refine Prod.ext rfl (Prod.ext rfl ?_)
  refine congrArg (_ + ·) (Finset.sum_congr rfl fun c _ => ?_)
  rw [pay11_apply xq xk a b ha hb m r c, pay7_apply]

end

end Cert.KernelIdeal.Pay

end
-- ==== Proof.KI.R1Value.lean ====
/-
  What the attention kernel leaves in the result array, at the extended reals. Row `r` of query block `qi` of batch
  `b` runs the online softmax over the key blocks `0 … qi`: by induction on the grid point the scratch operands
  hold, at `(r, d)`, the running (maximum, normaliser, weighted sum) of that row's masked scores against column `d`
  of the values; a key block after the query block leaves them as they are; at the last key block the quotient is
  written to the output block, and the blocks written back tile the result.
-/
import proofs.«182005_j67748814127590_2_alg».proof.Proof.KI.R1Pieces
import proofs.«182005_j67748814127590_2_alg».proof.Proof.KI.R1Blocks
import proofs.«182005_j67748814127590_2_alg».proof.Proof.KI.R1Pay
import proofs.«182005_j67748814127590_2_alg».proof.Proof.OnlineSoftmax

set_option maxRecDepth 16384

noncomputable section

open scoped BigOperators

namespace Cert.KernelIdeal.Hand

open Cert.KernelIdeal Cert.KernelIdeal.Gen Cert.KernelIdeal.Pay Cert.Attn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Query `q`'s masked, scaled scores against every key of batch `b`, from the query and key arrays. -/
def Srow (Qa Ka : Act) (b : Fin 4) (q : Fin 2048) : Fin 2048 → EReal :=
  fun k => if k.val ≤ q.val then (∑ d : Fin 1024, Qa (ix3 b q d) * Ka (ix3 b k d)) * (((1 / 32 : ℝ) : ℝ) : EReal) else ⊥
/-- Column `d` of batch `b` of the value array. -/
def Vcol (Va : Act) (b : Fin 4) (d : Fin 1024) : Fin 2048 → EReal := fun k => Va (ix3 b k d)

/-- The batch of point number `n`, and row `r` of row block `j`, with no side condition (the numbers are reduced mod 4). -/
def bOf (n : ℕ) : Fin 4 := ⟨n / 16 % 4, Nat.mod_lt _ (by norm_num)⟩
def rOf (j : ℕ) (r : Fin 512) : Fin 2048 := ⟨j % 4 * 512 + r.val, by have := r.isLt; have := Nat.mod_lt j (show 0 < 4 by norm_num); omega⟩

theorem batchOf_eq (t : Fin cfg1.N) : batchOf t = bOf t.val :=
  Fin.ext (by have : t.val < 64 := lt_of_lt_of_eq t.isLt N_1; show t.val / 16 = t.val / 16 % 4; omega)
theorem rOf_mod (j : ℕ) (r : Fin 512) : rOf (j % 4) r = rOf j r :=
  Fin.ext (by show j % 4 % 4 * 512 + r.val = j % 4 * 512 + r.val; rw [Nat.mod_mod])
theorem rowOf_eq (j : ℕ) (hj : j < 4) (r : Fin 512) : rowOf j hj r = rOf j r :=
  Fin.ext (by show j * 512 + r.val = j % 4 * 512 + r.val; rw [Nat.mod_eq_of_lt hj])

/-- The three state components at row `r` (and column `d` of the weighted sum). -/
def stAt (s : St1 Ideal) (r : Fin 512) (d : Fin 1024) : EReal × EReal × EReal :=
  (s.2.1 (ix2 r (0 : Fin 1)), s.2.2.1 (ix2 r (0 : Fin 1)), s.2.2.2 (ix2 r d))

/-- The query, key and value arrays the region is entered with. -/
abbrev Qa (c : Dev nD) : Act := V c main_v8
abbrev Ka (c : Dev nD) : Act := V c main_v9
abbrev Va (c : Dev nD) : Act := V c main_v10

/-- The block of masked scores the body forms at a point whose key block is not after its query block IS block `ki` of the row's scores. -/
theorem sblk_eq (c : Dev nD) (t : Fin cfg1.N) (hle : t.val % 4 ≤ t.val / 4 % 4) (r cc : Fin 512) :
    sblk (iblk1 V c 0 t) (iblk1 V c 1 t) (t.val / 4 % 4) (t.val % 4) r cc
      = blk (Srow (Qa V c) (Ka V c) (bOf t.val) (rOf (t.val / 4) r)) (t.val % 4) cc := by
  have hN : t.val < 64 := lt_of_lt_of_eq t.isLt N_1
  have hlt : t.val % 4 * 512 + cc.val < 2048 := by have := cc.isLt; omega
  unfold sblk blk Srow
  rw [dif_pos hlt]
  have hk : rowOf (min (t.val % 4) (t.val / 4 % 4)) (by omega) cc = (⟨t.val % 4 * 512 + cc.val, hlt⟩ : Fin 2048) :=
    Fin.ext (by show min (t.val % 4) (t.val / 4 % 4) * 512 + cc.val = _; rw [Nat.min_eq_left hle])
  have hq : rowOf (t.val / 4 % 4) (by omega) r = rOf (t.val / 4) r := Fin.ext rfl
  simp only [iblk1_0_apply, iblk1_1_apply, batchOf_eq, hk, hq]
  try rfl

/-- The value block's column at that point is block `ki` of the value column. -/
theorem vblk_eq (c : Dev nD) (t : Fin cfg1.N) (hle : t.val % 4 ≤ t.val / 4 % 4) (d : Fin 1024) (cc : Fin 512) :
    iblk1 V c 2 t (ix3 (0 : Fin 1) cc d) = blk (Vcol (Va V c) (bOf t.val) d) (t.val % 4) cc := by
  have hN : t.val < 64 := lt_of_lt_of_eq t.isLt N_1
  have hlt : t.val % 4 * 512 + cc.val < 2048 := by have := cc.isLt; omega
  unfold blk Vcol
  rw [dif_pos hlt]
  have hk : rowOf (min (t.val % 4) (t.val / 4 % 4)) (by omega) cc = (⟨t.val % 4 * 512 + cc.val, hlt⟩ : Fin 2048) :=
    Fin.ext (by show min (t.val % 4) (t.val / 4 % 4) * 512 + cc.val = _; rw [Nat.min_eq_left hle])
  simp only [iblk1_2_apply, batchOf_eq, hk]
  try rfl

/-- Which words the body sees for the query-block and key-block numbers. -/
theorem qw_eq (t : Fin cfg1.N) : qw t = BitVec.ofNat 32 (t.val / 4 % 4) := congrArg (BitVec.ofNat 32) (coords1 t).2.1
theorem kw_eq (t : Fin cfg1.N) : kw t = BitVec.ofNat 32 (t.val % 4) := congrArg (BitVec.ofNat 32) (coords1 t).2.2

/-- One update at a point whose key block is not after its query block: the three stored values at `(r, d)` are one
    step of the online softmax from the loaded state, over block `ki` of the row's scores and of the value column. -/
theorem update_eq (c : Dev nD) (t : Fin cfg1.N) (hle : t.val % 4 ≤ t.val / 4 % 4) (m l : Vec Ideal S512x1 .f32) (acc : Vec Ideal S512x1024 .f32)
    (r : Fin 512) (d : Fin 1024) :
    (k1_pay5 (F := Ideal) (k1_pay9 (F := Ideal) (qw t) (kw t) (iblk1 V c 0 t) (iblk1 V c 1 t) m) (ix2 r (0 : Fin 1)),
      k1_pay12 (F := Ideal) (qw t) (kw t) (iblk1 V c 0 t) (iblk1 V c 1 t) m l (ix2 r (0 : Fin 1)),
      k1_pay4 (F := Ideal) (k1_pay7 (F := Ideal) (iblk1 V c 2 t)) (k1_pay10 (F := Ideal) (qw t) (kw t) (iblk1 V c 0 t) (iblk1 V c 1 t) m)
        (k1_pay11 (F := Ideal) (qw t) (kw t) (iblk1 V c 0 t) (iblk1 V c 1 t) m) acc (ix2 r d))
      = step (m (ix2 r (0 : Fin 1)), l (ix2 r (0 : Fin 1)), acc (ix2 r d))
          (blk (Srow (Qa V c) (Ka V c) (bOf t.val) (rOf (t.val / 4) r)) (t.val % 4))
          (blk (Vcol (Va V c) (bOf t.val) d) (t.val % 4)) := by
  have hN : t.val < 64 := lt_of_lt_of_eq t.isLt N_1
  rw [pay5_apply, qw_eq, kw_eq]
  refine (step_eq (iblk1 V c 0 t) (iblk1 V c 1 t) (t.val / 4 % 4) (t.val % 4) (by omega) (by omega) (iblk1 V c 2 t) m l acc r d).trans ?_
  congr 1
  · funext cc; exact sblk_eq V c t hle r cc
  · funext cc; exact vblk_eq V c t hle d cc

/-- The update continues the run: from the state after key blocks `0 … j` of the row, one step over block `j + 1`. -/
theorem upd_step (c : Dev nD) (n : ℕ) (hn : n + 1 < cfg1.N) (h0 : ¬(n + 1) % 4 = 0) (h1 : (n + 1) % 4 ≤ (n + 1) / 4 % 4)
    (prev : St1 Ideal) (r : Fin 512) (d : Fin 1024)
    (ihn : stAt prev r d = run (Srow (Qa V c) (Ka V c) (bOf n) (rOf (n / 4) r)) (Vcol (Va V c) (bOf n) d) (min (n % 4) (n / 4 % 4))) :
    (k1_pay5 (F := Ideal) (k1_pay9 (F := Ideal) (qw ⟨n + 1, hn⟩) (kw ⟨n + 1, hn⟩) (iblk1 V c 0 ⟨n + 1, hn⟩) (iblk1 V c 1 ⟨n + 1, hn⟩) prev.2.1) (ix2 r (0 : Fin 1)),
      k1_pay12 (F := Ideal) (qw ⟨n + 1, hn⟩) (kw ⟨n + 1, hn⟩) (iblk1 V c 0 ⟨n + 1, hn⟩) (iblk1 V c 1 ⟨n + 1, hn⟩) prev.2.1 prev.2.2.1 (ix2 r (0 : Fin 1)),
      k1_pay4 (F := Ideal) (k1_pay7 (F := Ideal) (iblk1 V c 2 ⟨n + 1, hn⟩)) (k1_pay10 (F := Ideal) (qw ⟨n + 1, hn⟩) (kw ⟨n + 1, hn⟩) (iblk1 V c 0 ⟨n + 1, hn⟩) (iblk1 V c 1 ⟨n + 1, hn⟩) prev.2.1)
        (k1_pay11 (F := Ideal) (qw ⟨n + 1, hn⟩) (kw ⟨n + 1, hn⟩) (iblk1 V c 0 ⟨n + 1, hn⟩) (iblk1 V c 1 ⟨n + 1, hn⟩) prev.2.1) prev.2.2.2 (ix2 r d))
      = run (Srow (Qa V c) (Ka V c) (bOf (n + 1)) (rOf ((n + 1) / 4) r)) (Vcol (Va V c) (bOf (n + 1)) d) (min ((n + 1) % 4) ((n + 1) / 4 % 4)) := by
  have hN : n + 1 < 64 := lt_of_lt_of_eq hn N_1
  have eb : bOf (n + 1) = bOf n := Fin.ext (by show (n + 1) / 16 % 4 = n / 16 % 4; omega)
  have er : rOf ((n + 1) / 4) r = rOf (n / 4) r := Fin.ext (by show (n + 1) / 4 % 4 * 512 + r.val = n / 4 % 4 * 512 + r.val; omega)
  have hmin : min ((n + 1) % 4) ((n + 1) / 4 % 4) = min (n % 4) (n / 4 % 4) + 1 := by omega
  have hk : (n + 1) % 4 = min (n % 4) (n / 4 % 4) + 1 := by omega
  refine (update_eq V c ⟨n + 1, hn⟩ h1 prev.2.1 prev.2.2.1 prev.2.2.2 r d).trans ?_
  show step (stAt prev r d) (blk (Srow (Qa V c) (Ka V c) (bOf (n + 1)) (rOf ((n + 1) / 4) r)) ((n + 1) % 4)) (blk (Vcol (Va V c) (bOf (n + 1)) d) ((n + 1) % 4)) = _
  rw [hmin, hk, eb, er, ihn]
  rfl

/-- THE INVARIANT: after point number `n` the scratch operands hold, at row `r` and column `d`, the running state of the
    online softmax of that row over the key blocks `0 … min ki qi`. -/
theorem inv_all (c : Dev nD) (n : ℕ) : ∀ (hn : n < cfg1.N) (r : Fin 512) (d : Fin 1024),
    stAt (outsAt1 V c n hn) r d
      = run (Srow (Qa V c) (Ka V c) (bOf n) (rOf (n / 4) r)) (Vcol (Va V c) (bOf n) d) (min (n % 4) (n / 4 % 4)) := by
  induction n with
  | zero =>
    intro hn r d
    have h0 : (⟨0, hn⟩ : Fin cfg1.N).val % 4 = 0 := rfl
    have h1 : (⟨0, hn⟩ : Fin cfg1.N).val % 4 ≤ (⟨0, hn⟩ : Fin cfg1.N).val / 4 % 4 := Nat.zero_le _
    have h2 : ¬(⟨0, hn⟩ : Fin cfg1.N).val % 4 = 3 := by show ¬(0 % 4 = 3); decide
    rw [show outsAt1 V c 0 hn = stA V c ⟨0, hn⟩ h0 h1 h2 from outsAt1_A V c ⟨0, hn⟩ h0 h1 h2]
    unfold stAt
    rw [stA_m, stA_l, stA_acc]
    refine (update_eq V c ⟨0, hn⟩ h1 (k1_pay1 (F := Ideal)) (k1_pay2 (F := Ideal)) (k1_pay3 (F := Ideal)) r d).trans ?_
    rw [pay1_apply, pay2_apply, pay3_apply]
    rfl
  | succ n ih =>
    intro hn r d
    have hN : n + 1 < 64 := lt_of_lt_of_eq hn N_1
    have ihn := ih (Nat.lt_of_succ_lt hn) r d
    by_cases h0 : (n + 1) % 4 = 0
    · have h1 : (n + 1) % 4 ≤ (n + 1) / 4 % 4 := by omega
      have h2 : ¬(n + 1) % 4 = 3 := by omega
      rw [show outsAt1 V c (n + 1) hn = stA V c ⟨n + 1, hn⟩ h0 h1 h2 from outsAt1_A V c ⟨n + 1, hn⟩ h0 h1 h2]
      unfold stAt
      rw [stA_m, stA_l, stA_acc]
      refine (update_eq V c ⟨n + 1, hn⟩ h1 (k1_pay1 (F := Ideal)) (k1_pay2 (F := Ideal)) (k1_pay3 (F := Ideal)) r d).trans ?_
      rw [pay1_apply, pay2_apply, pay3_apply]
      show step (⊥, 0, 0) (blk _ ((n + 1) % 4)) (blk _ ((n + 1) % 4)) = _
      rw [h0, Nat.zero_min]
      rfl
    · by_cases h1 : (n + 1) % 4 ≤ (n + 1) / 4 % 4
      · by_cases h2 : (n + 1) % 4 = 3
        · rw [show outsAt1 V c (n + 1) hn = stD V c ⟨n + 1, hn⟩ h0 h1 h2 (outsAt1 V c n (Nat.lt_of_succ_lt hn)) from outsAt1_D V c ⟨n + 1, hn⟩ h0 h1 h2]
          unfold stAt
          rw [stD_m, stD_l, stD_acc]
          exact upd_step V c n hn h0 h1 _ r d ihn
        · rw [show outsAt1 V c (n + 1) hn = stB V c ⟨n + 1, hn⟩ h0 h1 h2 (outsAt1 V c n (Nat.lt_of_succ_lt hn)) from outsAt1_B V c ⟨n + 1, hn⟩ h0 h1 h2]
          unfold stAt
          rw [stB_m, stB_l, stB_acc]
          exact upd_step V c n hn h0 h1 _ r d ihn
      · have eb : bOf (n + 1) = bOf n := Fin.ext (by show (n + 1) / 16 % 4 = n / 16 % 4; omega)
        have er : rOf ((n + 1) / 4) r = rOf (n / 4) r := Fin.ext (by show (n + 1) / 4 % 4 * 512 + r.val = n / 4 % 4 * 512 + r.val; omega)
        have hmin : min ((n + 1) % 4) ((n + 1) / 4 % 4) = min (n % 4) (n / 4 % 4) := by omega
        rw [eb, er, hmin, ← ihn]
        by_cases h2 : (n + 1) % 4 = 3
        · rw [show outsAt1 V c (n + 1) hn = stE V c ⟨n + 1, hn⟩ h0 h1 h2 (outsAt1 V c n (Nat.lt_of_succ_lt hn)) from outsAt1_E V c ⟨n + 1, hn⟩ h0 h1 h2]
          unfold stAt stE
          rfl
        · rw [show outsAt1 V c (n + 1) hn = stC (outsAt1 V c n (Nat.lt_of_succ_lt hn)) from outsAt1_C V c ⟨n + 1, hn⟩ h0 h1 h2]
          unfold stAt stC
          rfl

/-- At the last key block the output block holds the quotient of the state the point leaves. -/
theorem out_state (c : Dev nD) (t : Fin cfg1.N) (h2 : t.val % 4 = 3) (r : Fin 512) (d : Fin 1024) :
    (outsAt1 V c t.val t.isLt).1 (ix3 (0 : Fin 1) r d)
      = Ideal.div ((outsAt1 V c t.val t.isLt).2.2.2 (ix2 r d)) ((outsAt1 V c t.val t.isLt).2.2.1 (ix2 r (0 : Fin 1))) := by
  have h0 : ¬t.val % 4 = 0 := by omega
  by_cases h1 : t.val % 4 ≤ t.val / 4 % 4
  · rw [outsAt1_D V c t h0 h1 h2, stD_out, stD_acc, stD_l, pay6_apply]
  · rw [outsAt1_E V c t h0 h1 h2, stE_out, pay6_apply]
    rfl

/-- Causal softmax attention of row `q` of batch `b` at column `d`, as the online softmax computes it from the arrays. -/
def g3 (Qa Ka Va : Act) (b : Fin 4) (q : Fin 2048) (d : Fin 1024) : EReal :=
  Ideal.div (run (Srow Qa Ka b q) (Vcol Va b d) (q.val / 512)).2.2 (run (Srow Qa Ka b q) (Vcol Va b d) (q.val / 512)).2.1
/-- The result array the region leaves. -/
def G1 (Qa Ka Va : Act) : S4x2048x1024.Idx → EReal := fun i => g3 Qa Ka Va (i 0) (i 1) (i 2)

theorem out_at (c : Dev nD) (t : Fin cfg1.N) (h2 : t.val % 4 = 3) (r : Fin 512) (d : Fin 1024) :
    (outsAt1 V c t.val t.isLt).1 (ix3 (0 : Fin 1) r d) = g3 (Qa V c) (Ka V c) (Va V c) (bOf t.val) (rOf (t.val / 4) r) d := by
  have hN : t.val < 64 := lt_of_lt_of_eq t.isLt N_1
  have hinv := inv_all V c t.val t.isLt r d
  unfold stAt at hinv
  have hl := congrArg (fun s : EReal × EReal × EReal => s.2.1) hinv
  have ha := congrArg (fun s : EReal × EReal × EReal => s.2.2) hinv
  dsimp only at hl ha
  rw [out_state V c t h2, hl, ha]
  unfold g3
  have hj : (rOf (t.val / 4) r).val / 512 = min (t.val % 4) (t.val / 4 % 4) := by
    show (t.val / 4 % 4 * 512 + r.val) / 512 = _
    have := r.isLt; omega
  rw [hj]

/-- What a point of the last key block writes back is its block of the result. -/
theorem flushed1_eq (c : Dev nD) (t : Fin cfg1.N) (hf : (cfg1.win 3).flush t = true) :
    (dat1 V c).flushed 3 t = ((cfg1.win 3).blk t).view.read (Elt Ideal) (G1 (Qa V c) (Ka V c) (Va V c)) := by
  have h2 : t.val % 4 = 3 := (flush1_3 t).mp hf
  have hN : t.val < 64 := lt_of_lt_of_eq t.isLt N_1
  show (cfg1.win 3).cut (grid1.coords t) ((dat1 V c).after 3 t) = _
  rw [after1_3]
  funext y
  obtain ⟨u, r, d, rfl⟩ : ∃ (u : Fin 1) (r : Fin 512) (d : Fin 1024), y = ix3 u r d := ⟨y 0, y 1, y 2, eq_ix3 y⟩
  obtain rfl : u = 0 := Subsingleton.elim _ _
  show (outsAt1 V c t.val t.isLt).1 (ix3 (0 : Fin 1) r d) = G1 (Qa V c) (Ka V c) (Va V c) (((cfg1.win 3).blk t).view.emb (ix3 (0 : Fin 1) r d))
  rw [oblk_emb, out_at V c t h2, batchOf_eq, rowOf_eq, rOf_mod]
  rfl

/-- THE RESULT ARRAY after the region. -/
theorem arr1_3 (c : Dev nD) : (dat1 V c).arrAt 3 cfg1.N = G1 (Qa V c) (Ka V c) (Va V c) :=
  (dat1 V c).arrAt_eq_of_cover 3 _ (fun t hf => flushed1_eq V c t hf) ocover

end Cert.KernelIdeal.Hand

end
-- ==== Proof.KI.Region0Value.lean ====
import proofs.«182005_j67748814127590_2_alg».proof.Proof.KI.Region0
import Idealize.ShloMosaic.Lib.Pipeline.Value
import Idealize.ShloMosaic.Lib.ValueIdx
import Idealize.ShloMosaic.PureOps.Ideal.Laws

/-!
# The projection region at the ideal values: the three output arrays as matrix products

Read at exact extended reals a change of float format is the identity and a matrix product is the plain sum of
products.  So each block the body stores is a block of rows of the product of the activation array with one weight
matrix, and since the 16 blocks of 512 rows tile the 8192 rows, each output array ends as that product.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## One stored element -/

/-- The product of a row-block of activations with a weight matrix, element by element. -/
def rowsTimes {n : Nat} (a : (⟨2, ![n, 1024]⟩ : Shape).Idx → EReal) (wt : (⟨2, ![1024, 1024]⟩ : Shape).Idx → EReal) :
    (⟨2, ![n, 1024]⟩ : Shape).Idx → EReal :=
  fun i => ∑ k : Fin 1024, a (ix2 (i 0) k) * wt (ix2 k (i 1))

/-- The product's left factor sits at the output's row and the summation index, -/
theorem lhs_at (j : S512x1024.Idx) (q : dot_S512x1024_S1024x1024_S512x1024_1_0_0_1_n_n.contr.Idx) (k : Fin 1024)
    (hk : (q ⟨0, by decide⟩).val = k.val) :
    dot_S512x1024_S1024x1024_S512x1024_1_0_0_1_n_n.lhsIdx j q = ix2 (j 0) k :=
  funext fun a => Fin.ext (by
    match a with
    | ⟨0, _⟩ =>
      show (dot_S512x1024_S1024x1024_S512x1024_1_0_0_1_n_n.lhsIdx j q 0).val = (j 0).val
      unfold DotDims.lhsIdx
      rw [dif_neg (show ¬(0 : Fin S512x1024.rank) ∈ dot_S512x1024_S1024x1024_S512x1024_1_0_0_1_n_n.lhsBatch by decide),
        dif_pos (show (0 : Fin S512x1024.rank) ∈ dot_S512x1024_S1024x1024_S512x1024_1_0_0_1_n_n.lhsNonContracting by decide)]
      rfl
    | ⟨1, _⟩ => exact (dot_S512x1024_S1024x1024_S512x1024_1_0_0_1_n_n.lhsIdx_val_of_single rfl j q).trans hk)

/-- and the right factor at the summation index and the output's column. -/
theorem rhs_at (j : S512x1024.Idx) (q : dot_S512x1024_S1024x1024_S512x1024_1_0_0_1_n_n.contr.Idx) (k : Fin 1024)
    (hk : (q ⟨0, by decide⟩).val = k.val) :
    dot_S512x1024_S1024x1024_S512x1024_1_0_0_1_n_n.rhsIdx j q = ix2 k (j 1) :=
  funext fun a => Fin.ext (by
    match a with
    | ⟨0, _⟩ => exact (dot_S512x1024_S1024x1024_S512x1024_1_0_0_1_n_n.rhsIdx_val_of_single rfl j q).trans hk
    | ⟨1, _⟩ =>
      show (dot_S512x1024_S1024x1024_S512x1024_1_0_0_1_n_n.rhsIdx j q 1).val = (j 1).val
      unfold DotDims.rhsIdx
      rw [dif_neg (show ¬(1 : Fin S1024x1024.rank) ∈ dot_S512x1024_S1024x1024_S512x1024_1_0_0_1_n_n.rhsBatch by decide),
        dif_pos (show (1 : Fin S1024x1024.rank) ∈ dot_S512x1024_S1024x1024_S512x1024_1_0_0_1_n_n.rhsNonContracting by decide)]
      rfl)

/-- A matrix product into the zero accumulator, at the ideal values: the sum of products. -/
theorem product_apply (x : FVec Ideal S512x1024 .bf16) (wt : FVec Ideal S1024x1024 .bf16) (j : S512x1024.Idx) :
    FloatOps.matmul (F := Ideal) dot_S512x1024_S1024x1024_S512x1024_1_0_0_1_n_n none x wt (constant S512x1024 .f32 0x00000000#32) j
      = rowsTimes x wt j := by
  rw [Ideal.matmul_constant_zero_apply,
    ← Equiv.sum_comp (contrEquiv1 dot_S512x1024_S1024x1024_S512x1024_1_0_0_1_n_n 1024 rfl rfl).symm]
  unfold rowsTimes
  refine Finset.sum_congr rfl fun k _ => ?_
  have hk := contrEquiv1_symm_val dot_S512x1024_S1024x1024_S512x1024_1_0_0_1_n_n 1024 rfl rfl k
  rw [lhs_at j _ k hk, rhs_at j _ k hk]
  rfl

/-- The three stored values: the roundings are identities at the ideal values and the cast of a shape to itself
    changes nothing, so each is the product of the activation block with its weight. -/
theorem pay2_apply (x : Vec Ideal S512x1024 .f32) (wt : Vec Ideal S1024x1024 .bf16) :
    k0_pay2 (F := Ideal) x wt = rowsTimes x wt := by
  funext j
  unfold k0_pay2 k0_pay1
  simp only [shapeCast_self]
  exact product_apply x wt j
theorem pay3_apply (x : Vec Ideal S512x1024 .f32) (wt : Vec Ideal S1024x1024 .bf16) :
    k0_pay3 (F := Ideal) x wt = rowsTimes x wt := by
  funext j
  unfold k0_pay3 k0_pay1
  simp only [shapeCast_self]
  exact product_apply x wt j
theorem pay4_apply (x : Vec Ideal S512x1024 .f32) (wt : Vec Ideal S1024x1024 .bf16) :
    k0_pay4 (F := Ideal) x wt = rowsTimes x wt := by
  funext j
  unfold k0_pay4 k0_pay1
  simp only [shapeCast_self]
  exact product_apply x wt j

theorem rowsTimes_apply {n : Nat} (a : (⟨2, ![n, 1024]⟩ : Shape).Idx → EReal) (wt : (⟨2, ![1024, 1024]⟩ : Shape).Idx → EReal)
    (i : (⟨2, ![n, 1024]⟩ : Shape).Idx) : rowsTimes a wt i = ∑ k : Fin 1024, a (ix2 (i 0) k) * wt (ix2 k (i 1)) := rfl

/-! ## Where the blocks sit -/

section Arrays

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the 16 points, by evaluation: the activation block and the three output blocks at point `t`
    are the `t`-th blocks of 512 rows, all columns; every weight block is the whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ### The first output array -/

/-- What point `t` writes back to the first output array is block `t` of the product of the activation array with
    the first weight matrix, both as the region finds them. -/
theorem flushed4_eq (c : Dev nD) (t : Fin cfg0.N) :
    (dat0 (F := Ideal) V c).flushed 4 t
      = ((cfg0.win 4).blk t).view.read (Elt Ideal) (rowsTimes (n := 8192) (V c main_v0) (V c main_v2)) := by
  show (cfg0.win 4).cut (grid0.coords t) ((dat0 V c).after 4 t) = _
  rw [after0_4]
  unfold out0_4
  rw [View.canon_unit_zero zeros2]
  simp only [View.ld_unit_zero (S := S512x1024) zeros2, View.ld_unit_zero (S := S1024x1024) zeros2]
  rw [pay2_apply]
  obtain ⟨a0, a1, b0, b1, c0, c1, d0, d1, p0, p1, q0, q1, r0, r1⟩ := index_facts t
  funext j
  show rowsTimes (iblk0 V c 0 t) (iblk0 V c 1 t) j
    = rowsTimes (n := 8192) (V c main_v0) (V c main_v2) (((cfg0.win 4).blk t).view.emb j)
  rw [rowsTimes_apply, rowsTimes_apply]
  refine Finset.sum_congr rfl fun k _ => ?_
  have hx : ((cfg0.win 0).blk t).view.emb (ix2 (j 0) k) = ix2 ((((cfg0.win 4).blk t).view.emb j) 0) k := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * k.val = k.val; omega
  have hw : ((cfg0.win 1).blk t).view.emb (ix2 k (j 1)) = ix2 k ((((cfg0.win 4).blk t).view.emb j) 1) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_4.index t (1 : Fin 2) * 1024 + 1 * (j 1).val; omega
  have ex : (iblk0 V c 0 t (ix2 (j 0) k) : EReal) = V c main_v0 (ix2 ((((cfg0.win 4).blk t).view.emb j) 0) k) :=
    (show iblk0 V c 0 t (ix2 (j 0) k) = V c main_v0 (((cfg0.win 0).blk t).view.emb (ix2 (j 0) k)) from rfl).trans
      (congrArg (V c main_v0) hx)
  have ew : (iblk0 V c 1 t (ix2 k (j 1)) : EReal) = V c main_v2 (ix2 k ((((cfg0.win 4).blk t).view.emb j) 1)) :=
    (show iblk0 V c 1 t (ix2 k (j 1)) = V c main_v2 (((cfg0.win 1).blk t).view.emb (ix2 k (j 1))) from rfl).trans
      (congrArg (V c main_v2) hw)
  exact congrArg₂ (fun p q : EReal => p * q) ex ew

/-- An index of the first output array lies in point `t`'s block exactly when each coordinate lies in the block's
    range on its axis. -/
theorem mem_blk4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7_0).slice (win0_4.rect t)).set ↔ _
  rw [View.set_slice_whole, Rect.mem_set_unit]
  exact Iff.rfl

/-- Every index of the first output array is in the block of the point numbered by its row divided by 512. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : grid0.N = 16 := N_0
  let t : Fin cfg0.N := ⟨(i 0).val / 512, by show (i 0).val / 512 < grid0.N; omega⟩
  obtain ⟨a0, a1, b0, b1, c0, c1, d0, d1, p0, p1, q0, q1, r0, r1⟩ := index_facts t
  have ht : t.val = (i 0).val / 512 := rfl
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the region the first output array is the product of the activation array with the first weight matrix. -/
theorem arr0_4 (c : Dev nD) :
    (dat0 (F := Ideal) V c).arrAt 4 cfg0.N
      = rowsTimes (n := 8192) (V c (Pipeline.arrRef spec0 0)) (V c (Pipeline.arrRef spec0 1)) :=
  (dat0 (F := Ideal) V c).arrAt_eq_of_cover 4 _ (fun t _ => flushed4_eq V c t) cover4

/-! ### The second output array -/

/-- What point `t` writes back to the second output array is block `t` of the product of the activation array with
    the second weight matrix, both as the region finds them. -/
theorem flushed5_eq (c : Dev nD) (t : Fin cfg0.N) :
    (dat0 (F := Ideal) V c).flushed 5 t
      = ((cfg0.win 5).blk t).view.read (Elt Ideal) (rowsTimes (n := 8192) (V c main_v0) (V c main_v4)) := by
  show (cfg0.win 5).cut (grid0.coords t) ((dat0 V c).after 5 t) = _
  rw [after0_5]
  unfold out0_5
  rw [View.canon_unit_zero zeros2]
  simp only [View.ld_unit_zero (S := S512x1024) zeros2, View.ld_unit_zero (S := S1024x1024) zeros2]
  rw [pay3_apply]
  obtain ⟨a0, a1, b0, b1, c0, c1, d0, d1, p0, p1, q0, q1, r0, r1⟩ := index_facts t
  funext j
  show rowsTimes (iblk0 V c 0 t) (iblk0 V c 2 t) j
    = rowsTimes (n := 8192) (V c main_v0) (V c main_v4) (((cfg0.win 5).blk t).view.emb j)
  rw [rowsTimes_apply, rowsTimes_apply]
  refine Finset.sum_congr rfl fun k _ => ?_
  have hx : ((cfg0.win 0).blk t).view.emb (ix2 (j 0) k) = ix2 ((((cfg0.win 5).blk t).view.emb j) 0) k := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * k.val = k.val; omega
  have hw : ((cfg0.win 2).blk t).view.emb (ix2 k (j 1)) = ix2 k ((((cfg0.win 5).blk t).view.emb j) 1) := by
    funext a; apply Fin.ext
    match a with
    | ⟨0, _⟩ => show win0_2.index t (0 : Fin 2) * 1024 + 1 * k.val = k.val; omega
    | ⟨1, _⟩ => show win0_2.index t (1 : Fin 2) * 1024 + 1 * (j 1).val = win0_5.index t (1 : Fin 2) * 1024 + 1 * (j 1).val; omega
  have ex : (iblk0 V c 0 t (ix2 (j 0) k) : EReal) = V c main_v0 (ix2 ((((cfg0.win 5).blk t).view.emb j) 0) k) :=
    (show iblk0 V c 0 t (ix2 (j 0) k) = V c main_v0 (((cfg0.win 0).blk t).view.emb (ix2 (j 0) k)) from rfl).trans
      (congrArg (V c main_v0) hx)
  have ew : (iblk0 V c 2 t (ix2 k (j 1)) : EReal) = V c main_v4 (ix2 k ((((cfg0.win 5).blk t).view.emb j) 1)) :=
    (show iblk0 V c 2 t (ix2 k (j 1)) = V c main_v4 (((cfg0.win 2).blk t).view.emb (ix2 k (j 1))) from rfl).trans
      (congrArg (V c main_v4) hw)
  exact congrArg₂ (fun p q : EReal => p * q) ex ew

/-- An index of the second output array lies in point `t`'s block exactly when each coordinate lies in the block's
    range on its axis. -/
theorem mem_blk5 (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7_1).slice (win0_5.rect t)).set ↔ _
  rw [View.set_slice_whole, Rect.mem_set_unit]
  exact Iff.rfl

/-- Every index of the second output array is in the block of the point numbered by its row divided by 512. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : grid0.N = 16 := N_0
  let t : Fin cfg0.N := ⟨(i 0).val / 512, by show (i 0).val / 512 < grid0.N; omega⟩
  obtain ⟨a0, a1, b0, b1, c0, c1, d0, d1, p0, p1, q0, q1, r0, r1⟩ := index_facts t
  have ht : t.val = (i 0).val / 512 := rfl
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the region the second output array is the product of the activation array with the second weight matrix. -/
theorem arr0_5 (c : Dev nD) :
    (dat0 (F := Ideal) V c).arrAt 5 cfg0.N
      = rowsTimes (n := 8192) (V c (Pipeline.arrRef spec0 0)) (V c (Pipeline.arrRef spec0 2)) :=
  (dat0 (F := Ideal) V c).arrAt_eq_of_cover 5 _ (fun t _ => flushed5_eq V c t) cover5

/-! ### The third output array -/

/-- What point `t` writes back to the third output array is block `t` of the product of the activation array with
    the third weight matrix, both as the region finds them. -/
theorem flushed6_eq (c : Dev nD) (t : Fin cfg0.N) :
    (dat0 (F := Ideal) V c).flushed 6 t
      = ((cfg0.win 6).blk t).view.read (Elt Ideal) (rowsTimes (n := 8192) (V c main_v0) (V c main_v6)) := by
  show (cfg0.win 6).cut (grid0.coords t) ((dat0 V c).after 6 t) = _
  rw [after0_6]
  unfold out0_6
  rw [View.canon_unit_zero zeros2]
  simp only [View.ld_unit_zero (S := S512x1024) zeros2, View.ld_unit_zero (S := S1024x1024) zeros2]
  rw [pay4_apply]
  obtain ⟨a0, a1, b0, b1, c0, c1, d0, d1, p0, p1, q0, q1, r0, r1⟩ := index_facts t
  funext j
  show rowsTimes (iblk0 V c 0 t) (iblk0 V c 3 t) j
    = rowsTimes (n := 8192) (V c main_v0) (V c main_v6) (((cfg0.win 6).blk t).view.emb j)
  rw [rowsTimes_apply, rowsTimes_apply]
  refine Finset.sum_congr rfl fun k _ => ?_
  have hx : ((cfg0.win 0).blk t).view.emb (ix2 (j 0) k) = ix2 ((((cfg0.win 6).blk t).view.emb j) 0) k := by
    funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * k.val = k.val; omega
  have hw : ((cfg0.win 3).blk t).view.emb (ix2 k (j 1)) = ix2 k ((((cfg0.win 6).blk t).view.emb j) 1) := by
    funext a; apply Fin.ext
    match a with
    | ⟨0, _⟩ => show win0_3.index t (0 : Fin 2) * 1024 + 1 * k.val = k.val; omega
    | ⟨1, _⟩ => show win0_3.index t (1 : Fin 2) * 1024 + 1 * (j 1).val = win0_6.index t (1 : Fin 2) * 1024 + 1 * (j 1).val; omega
  have ex : (iblk0 V c 0 t (ix2 (j 0) k) : EReal) = V c main_v0 (ix2 ((((cfg0.win 6).blk t).view.emb j) 0) k) :=
    (show iblk0 V c 0 t (ix2 (j 0) k) = V c main_v0 (((cfg0.win 0).blk t).view.emb (ix2 (j 0) k)) from rfl).trans
      (congrArg (V c main_v0) hx)
  have ew : (iblk0 V c 3 t (ix2 k (j 1)) : EReal) = V c main_v6 (ix2 k ((((cfg0.win 6).blk t).view.emb j) 1)) :=
    (show iblk0 V c 3 t (ix2 k (j 1)) = V c main_v6 (((cfg0.win 3).blk t).view.emb (ix2 k (j 1))) from rfl).trans
      (congrArg (V c main_v6) hw)
  exact congrArg₂ (fun p q : EReal => p * q) ex ew

/-- An index of the third output array lies in point `t`'s block exactly when each coordinate lies in the block's
    range on its axis. -/
theorem mem_blk6 (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v7_2).slice (win0_6.rect t)).set ↔ _
  rw [View.set_slice_whole, Rect.mem_set_unit]
  exact Iff.rfl

/-- Every index of the third output array is in the block of the point numbered by its row divided by 512. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : grid0.N = 16 := N_0
  let t : Fin cfg0.N := ⟨(i 0).val / 512, by show (i 0).val / 512 < grid0.N; omega⟩
  obtain ⟨a0, a1, b0, b1, c0, c1, d0, d1, p0, p1, q0, q1, r0, r1⟩ := index_facts t
  have ht : t.val = (i 0).val / 512 := rfl
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- After the region the third output array is the product of the activation array with the third weight matrix. -/
theorem arr0_6 (c : Dev nD) :
    (dat0 (F := Ideal) V c).arrAt 6 cfg0.N
      = rowsTimes (n := 8192) (V c (Pipeline.arrRef spec0 0)) (V c (Pipeline.arrRef spec0 3)) :=
  (dat0 (F := Ideal) V c).arrAt_eq_of_cover 6 _ (fun t _ => flushed6_eq V c t) cover6

end Arrays

end Cert.KernelIdeal.Hand

end
-- ==== Proof.KI.HostGlue.lean ====
import proofs.«182005_j67748814127590_2_alg».proof.Proof.KI.Region0Value
import proofs.«182005_j67748814127590_2_alg».proof.Proof.Spec
import Idealize.ShloMosaic.Lib.Pipeline.Value
import Idealize.ShloMosaic.Lib.ValueIdx
import Idealize.ShloMosaic.Lib.ValueLayout

/-!
# The reshapes and transposes around the projection region

Before the first region the program flattens the activation array `[4, 2048, 1024]` to `[8192, 1024]` (row
`(b, s)` becomes row `b · 2048 + s`), transposes each weight matrix and rounds it to bf16, which at the ideal
values changes nothing.  After the region it folds each `[8192, 1024]` product back to `[4, 2048, 1024]`.  Read at
an index, the whole chain is the projection `x · wᵀ`: the sum over `i` of `x (b, s, i) · w (o, i)`.
-/

noncomputable section

namespace Cert.KernelIdeal.Hand

open Cert.KernelIdeal Cert.KernelIdeal.Gen
open Idealize.ShloMosaic Idealize.ShloMosaic.ValueIdx

/-- Row `(b, s)` of the `[4, 2048]` leading axes, flattened. -/
def flatRow (b : Fin 4) (s : Fin 2048) : Fin 8192 := ⟨b.val * 2048 + s.val, by have := b.isLt; have := s.isLt; omega⟩

/-- The flattened activation array at row `b · 2048 + s` is the activation array at `(b, s)`. -/
theorem flatten_apply {α : Type} (x : S4x2048x1024.Idx → α) (b : Fin 4) (s : Fin 2048) (k : Fin 1024) :
    shapeCast S8192x1024 x shapeCasts_S4x2048x1024_S8192x1024 (ix2 (flatRow b s) k) = x (ix3 b s k) :=
  shapeCast_apply x _ _ _ (by
    rw [Shape.rowMajor_val_three, Shape.rowMajor_val_two]
    show (b.val * 2048 + s.val) * 1024 + k.val = (b.val * 2048 + s.val) * 1024 + k.val
    rfl)

/-- An `[8192, 1024]` array folded back to `[4, 2048, 1024]`, at `(b, s, o)`, is the array at row `b · 2048 + s`. -/
theorem unflatten_apply {α : Type} (y : S8192x1024.Idx → α) (b : Fin 4) (s : Fin 2048) (o : Fin 1024) :
    shapeCast S4x2048x1024 y shapeCasts_S8192x1024_S4x2048x1024 (ix3 b s o) = y (ix2 (flatRow b s) o) :=
  shapeCast_apply y _ _ _ (by
    rw [Shape.rowMajor_val_three, Shape.rowMajor_val_two]
    show (b.val * 2048 + s.val) * 1024 + o.val = (b.val * 2048 + s.val) * 1024 + o.val
    rfl)

/-- The chain of host operations around the first region, read at an index, is the projection. -/
theorem proj_glue (x : Cert.Attn.Act) (w : Cert.Attn.Wgt) (b : Fin 4) (s : Fin 2048) (o : Fin 1024) :
    shapeCast S4x2048x1024
        (rowsTimes (n := 8192) (shapeCast S8192x1024 x shapeCasts_S4x2048x1024_S8192x1024)
          (truncf (F := Ideal) .bf16
            (transpose S1024x1024 [1, 0] w transposes_S1024x1024_S1024x1024_1_0 : FVec Ideal S1024x1024 .f32)
            bitsLt_bf16_f32))
        shapeCasts_S8192x1024_S4x2048x1024 (ix3 b s o)
      = Cert.Attn.proj x w b s o := by
  refine (unflatten_apply _ b s o).trans ?_
  rw [rowsTimes_apply]
  unfold Cert.Attn.proj
  refine Finset.sum_congr rfl fun k _ => ?_
  exact congrArg₂ (fun p q : EReal => p * q) (flatten_apply x b s k)
    (transpose_ix2_apply w transposes_S1024x1024_S1024x1024_1_0 k o)

end Cert.KernelIdeal.Hand

end
-- ==== Proof.KI.Finite.lean ====
import proofs.«182005_j67748814127590_2_alg».proof.Defs
import Idealize.ShloMosaic.Lib.ReduceAll
import Idealize.ShloMosaic.Lib.ValueIdx

/-!
# The precondition says every input entry is a real number

The precondition compares, entry by entry, the absolute value of each input array with `+∞` and takes the
conjunction of all comparisons.  An extended real whose absolute value is below `+∞` is neither `+∞` nor `-∞`,
so it is a real number.
-/

noncomputable section

namespace Cert.KernelIdeal.Hand

open Idealize.ShloMosaic

/-- A shape with no axis has exactly one index. -/
instance scalarIdx_subsingleton : Subsingleton Cert.Pre_finite_inputs.S_.Idx := ⟨fun a b => funext fun d => d.elim0⟩

/-- The f32 pattern with all exponent bits set and no fraction bit denotes `+∞`. -/
theorem inf_pattern : Ideal.ofBits .f32 0x7F800000#32 = (⊤ : EReal) := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- If the conjunction over all entries of "absolute value below `+∞`" is true, every entry is a real number. -/
theorem all_real_of_reduce {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 h i)

/-- Under the precondition every entry of each of the four input arrays is a real number. -/
theorem finite_of_pre [hPre : Cert.Pre_finite_inputs.Facts]
    (x0 : FVec Ideal Cert.Pre_finite_inputs.S4x2048x1024 .f32)
    (x1 x2 x3 : FVec Ideal Cert.Pre_finite_inputs.S1024x1024 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨all_real_of_reduce x0 _ _ _ e0, all_real_of_reduce x1 _ _ _ e1,
    all_real_of_reduce x2 _ _ _ e2, all_real_of_reduce x3 _ _ _ e3⟩

end Cert.KernelIdeal.Hand

end
-- ==== Proof.KI.Final.lean ====
/-
  The idealized kernel's result. The arrays the attention region is entered with are the three projections of the
  inputs (the host reshapes and transposes around the projection region, read at an index); so each row's masked
  scores and value columns are the specification's, and the quotient of the online softmax's final state is the
  specification's causal softmax attention (the online-softmax theorem, which needs every input entry real: the
  precondition).
-/
import proofs.«182005_j67748814127590_2_alg».proof.Defs
import proofs.«182005_j67748814127590_2_alg».proof.Proof.KI.Run
import proofs.«182005_j67748814127590_2_alg».proof.Proof.KI.R1Value
import proofs.«182005_j67748814127590_2_alg».proof.Proof.KI.Region0Value
import proofs.«182005_j67748814127590_2_alg».proof.Proof.KI.HostGlue
import proofs.«182005_j67748814127590_2_alg».proof.Proof.KI.Finite

set_option maxRecDepth 16384

noncomputable section

open scoped BigOperators

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The inputs as the specification takes them. -/
abbrev xIn (c : Dev nD) : Act := m ((c.tc : Thread nD τ).loc main_arg0)
abbrev wqIn (c : Dev nD) : Wgt := m ((c.tc : Thread nD τ).loc main_arg1)
abbrev wkIn (c : Dev nD) : Wgt := m ((c.tc : Thread nD τ).loc main_arg2)
abbrev wvIn (c : Dev nD) : Wgt := m ((c.tc : Thread nD τ).loc main_arg3)

theorem Qa_eq (c : Dev nD) (b : Fin 4) (s : Fin 2048) (o : Fin 1024) :
    Qa (V3 m ρ) c (ix3 b s o) = proj (xIn m c) (wqIn m c) b s o := by
  show (V3 m ρ c main_v8 : S4x2048x1024.Idx → Elt Ideal .bf16) (ix3 b s o) = _
  rw [V3_main_v8 m ρ c, arr0_4 (V1 m ρ) c]
  show shapeCast S4x2048x1024 (rowsTimes (n := 8192) (V1 m ρ c main_v0 : S8192x1024.Idx → Elt Ideal .f32) (V1 m ρ c main_v2 : S1024x1024.Idx → Elt Ideal .bf16)) shapeCasts_S8192x1024_S4x2048x1024 (ix3 b s o) = _
  rw [V1_main_v0 m ρ c, V1_main_v2 m ρ c]
  exact proj_glue (xIn m c) (wqIn m c) b s o

theorem Ka_eq (c : Dev nD) (b : Fin 4) (s : Fin 2048) (o : Fin 1024) :
    Ka (V3 m ρ) c (ix3 b s o) = proj (xIn m c) (wkIn m c) b s o := by
  show (V3 m ρ c main_v9 : S4x2048x1024.Idx → Elt Ideal .bf16) (ix3 b s o) = _
  rw [V3_main_v9 m ρ c, arr0_5 (V1 m ρ) c]
  show shapeCast S4x2048x1024 (rowsTimes (n := 8192) (V1 m ρ c main_v0 : S8192x1024.Idx → Elt Ideal .f32) (V1 m ρ c main_v4 : S1024x1024.Idx → Elt Ideal .bf16)) shapeCasts_S8192x1024_S4x2048x1024 (ix3 b s o) = _
  rw [V1_main_v0 m ρ c, V1_main_v4 m ρ c]
  exact proj_glue (xIn m c) (wkIn m c) b s o

theorem Va_eq (c : Dev nD) (b : Fin 4) (s : Fin 2048) (o : Fin 1024) :
    Va (V3 m ρ) c (ix3 b s o) = proj (xIn m c) (wvIn m c) b s o := by
  show (V3 m ρ c main_v10 : S4x2048x1024.Idx → Elt Ideal .bf16) (ix3 b s o) = _
  rw [V3_main_v10 m ρ c, arr0_6 (V1 m ρ) c]
  show shapeCast S4x2048x1024 (rowsTimes (n := 8192) (V1 m ρ c main_v0 : S8192x1024.Idx → Elt Ideal .f32) (V1 m ρ c main_v6 : S1024x1024.Idx → Elt Ideal .bf16)) shapeCasts_S8192x1024_S4x2048x1024 (ix3 b s o) = _
  rw [V1_main_v0 m ρ c, V1_main_v6 m ρ c]
  exact proj_glue (xIn m c) (wvIn m c) b s o

/-- A row's masked scores from the region's arrays are the specification's. -/
theorem Srow_eq (c : Dev nD) (b : Fin 4) (q : Fin 2048) :
    Srow (Qa (V3 m ρ) c) (Ka (V3 m ρ) c) b q = fun k => score (xIn m c) (wqIn m c) (wkIn m c) b q k := by
  funext k
  unfold Srow score dotQK
  by_cases hk : k.val ≤ q.val
  · rw [if_pos hk, if_pos hk]
    refine congrArg (· * _) (Finset.sum_congr rfl fun d _ => ?_)
    exact congrArg₂ (fun p q : EReal => p * q) (Qa_eq m ρ c b q d) (Ka_eq m ρ c b k d)
  · rw [if_neg hk, if_neg hk]

theorem Vcol_eq (c : Dev nD) (b : Fin 4) (d : Fin 1024) :
    Vcol (Va (V3 m ρ) c) b d = fun k => proj (xIn m c) (wvIn m c) b k d := by
  funext k
  exact Va_eq m ρ c b k d

/-- THE RESULT: under the precondition the result array ends holding the specification's causal softmax attention. -/
theorem result_eq [hPre : Cert.Pre_finite_inputs.Facts] (hpre : Cert.Pre_KernelIdeal m) (c : Dev nD) :
    W4 m ρ c (Proc.devRef .tc main_v11) = fun i => out3 (xIn m c) (wqIn m c) (wkIn m c) (wvIn m c) (i 0) (i 1) (i 2) := by
  obtain ⟨hx, hq, hk, hv⟩ := finite_of_pre (xIn m c) (wqIn m c) (wkIn m c) (wvIn m c) (hpre c)
  rw [W4_main_v11 m ρ c, arr1_3 (V3 m ρ) c]
  funext i
  obtain ⟨b, q, d, rfl⟩ : ∃ (b : Fin 4) (q : Fin 2048) (d : Fin 1024), i = ix3 b q d := ⟨i 0, i 1, i 2, eq_ix3 i⟩
  show g3 (Qa (V3 m ρ) c) (Ka (V3 m ρ) c) (Va (V3 m ρ) c) b q d = out3 (xIn m c) (wqIn m c) (wkIn m c) (wvIn m c) b q d
  unfold g3
  rw [Srow_eq m ρ c b q, Vcol_eq m ρ c b d]
  exact (out3_eq_online (xIn m c) (wqIn m c) (wkIn m c) (wvIn m c) hx hq hk hv b q d).symm

/-- The idealized kernel's run, read: the result at the specification, the arguments unchanged. -/
theorem run_value [hPre : Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v11) = (fun i => out3 (xIn m c) (wqIn m c) (wkIn m c) (wvIn m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_v11 (by decide))).trans (result_eq m ρ hpre c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.Hand

end
-- ==== Proof.RefValueA.lean ====
/-
  The reference program read index by index, first half: from the three projections to the masked score.

  Each stage of the reference is a function of the argument arrays; here each is evaluated at explicit
  coordinates `(b, q, k)` and identified with the corresponding function of the specification:
  the projections `x · Wᵀ`, the dot product of a query row with a key row, its division by `√1024 = 32`
  (on the extended reals the product with `1/32`, at the infinities too), the lower-triangular mask
  (`k ≤ q`, decided from the signed comparison of two row/column counters below `2048`), and the
  selection of `-∞` outside the mask.
-/
import proofs.«182005_j67748814127590_2_alg».proof.Proof.Gen.ReferenceIdeal.Read
import proofs.«182005_j67748814127590_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The three literals of the score -/

/-- The word `0x44800000` is `2¹⁰ = 1024`. -/
theorem word_1024 : Ideal.ofBits .f32 0x44800000#32 = ((1024 : ℝ) : EReal) := by
  simp [Ideal.ofBits, Ideal.ieee, -EReal.coe_mul]; norm_num

/-- The word `0xFF800000` (sign set, exponent all ones, fraction zero) is `-∞`. -/
theorem word_negInf : Ideal.ofBits .f32 0xFF800000#32 = (⊥ : EReal) := by
  simp [Ideal.ofBits, Ideal.ieee]

/-- `√1024 = 32`, since `1024 = 32 · 32`. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num), show (1024 : ℝ) = 32 * 32 by norm_num, Real.sqrt_mul_self (by norm_num)]

/-- Dividing any extended real by `√1024` is multiplying it by `1/32`: `32` is a nonzero real, so the
    quotient is the product with the reciprocal, whatever `z` is. -/
theorem div_sqrt_1024 (z : EReal) :
    Ideal.div z (Ideal.sqrt (Ideal.ofBits .f32 0x44800000#32)) = z * (((1 / 32 : ℝ) : ℝ) : EReal) := by
  rw [word_1024, sqrt_1024]
  exact Ideal.div_coe (by norm_num) z

/-! ## The projections and the raw score -/

section
variable (x0 : (⟨S4x2048x1024, .f32⟩ : BufTy).Contents (Elt Ideal))
  (x1 x2 : (⟨S1024x1024, .f32⟩ : BufTy).Contents (Elt Ideal))

/-- The contraction reads row `(b, s)` of the activations at column `i` … -/
theorem actRow_q (b : Fin 4) (s : Fin 2048) (o i : Fin 1024) : lidx_main_v0 (ix3 b s o) i = ix3 b s i :=
  funext fun a => Fin.ext (by match a with | ⟨0, _⟩ => rfl | ⟨1, _⟩ => rfl | ⟨2, _⟩ => rfl)
/-- … against row `o` of the weight at column `i`. -/
theorem wRow_q (b : Fin 4) (s : Fin 2048) (o i : Fin 1024) : ridx_main_v0 (ix3 b s o) i = ix2 o i :=
  funext fun a => Fin.ext (by match a with | ⟨0, _⟩ => rfl | ⟨1, _⟩ => rfl)
theorem actRow_k (b : Fin 4) (s : Fin 2048) (o i : Fin 1024) : lidx_main_v1 (ix3 b s o) i = ix3 b s i :=
  funext fun a => Fin.ext (by match a with | ⟨0, _⟩ => rfl | ⟨1, _⟩ => rfl | ⟨2, _⟩ => rfl)
theorem wRow_k (b : Fin 4) (s : Fin 2048) (o i : Fin 1024) : ridx_main_v1 (ix3 b s o) i = ix2 o i :=
  funext fun a => Fin.ext (by match a with | ⟨0, _⟩ => rfl | ⟨1, _⟩ => rfl)
theorem actRow_v (b : Fin 4) (s : Fin 2048) (o i : Fin 1024) : lidx_main_v2 (ix3 b s o) i = ix3 b s i :=
  funext fun a => Fin.ext (by match a with | ⟨0, _⟩ => rfl | ⟨1, _⟩ => rfl | ⟨2, _⟩ => rfl)
theorem wRow_v (b : Fin 4) (s : Fin 2048) (o i : Fin 1024) : ridx_main_v2 (ix3 b s o) i = ix2 o i :=
  funext fun a => Fin.ext (by match a with | ⟨0, _⟩ => rfl | ⟨1, _⟩ => rfl)

/-- The query projection at `(b, s, o)`: the sum over the input width of activations times the weight's row `o`. -/
theorem proj_q (b : Fin 4) (s : Fin 2048) (o : Fin 1024) :
    val_main_v0 (F := Ideal) x0 x1 (ix3 b s o) = Cert.Attn.proj x0 x1 b s o := by
  rw [val_main_v0_apply]
  exact Finset.sum_congr rfl fun i _ => by rw [actRow_q, wRow_q]

/-- The key projection: the same contraction against the second weight. -/
theorem proj_k (b : Fin 4) (s : Fin 2048) (o : Fin 1024) :
    val_main_v1 (F := Ideal) x0 x2 (ix3 b s o) = Cert.Attn.proj x0 x2 b s o := by
  rw [val_main_v1_apply]
  exact Finset.sum_congr rfl fun i _ => by rw [actRow_k, wRow_k]

/-- The value projection: the same contraction against the third weight. -/
theorem proj_v (x3 : (⟨S1024x1024, .f32⟩ : BufTy).Contents (Elt Ideal)) (b : Fin 4) (s : Fin 2048) (o : Fin 1024) :
    val_main_v2 (F := Ideal) x0 x3 (ix3 b s o) = Cert.Attn.proj x0 x3 b s o := by
  rw [val_main_v2_apply]
  exact Finset.sum_congr rfl fun i _ => by rw [actRow_v, wRow_v]

/-- The batched contraction reads the query projection's row `(b, q)` … -/
theorem qRow (b : Fin 4) (q k : Fin 2048) (d : Fin 1024) : lidx_main_v3 (ix3 b q k) d = ix3 b q d :=
  funext fun a => Fin.ext (by match a with | ⟨0, _⟩ => rfl | ⟨1, _⟩ => rfl | ⟨2, _⟩ => rfl)
/-- … against the key projection's row `(b, k)`. -/
theorem kRow (b : Fin 4) (q k : Fin 2048) (d : Fin 1024) : ridx_main_v3 (ix3 b q k) d = ix3 b k d :=
  funext fun a => Fin.ext (by match a with | ⟨0, _⟩ => rfl | ⟨1, _⟩ => rfl | ⟨2, _⟩ => rfl)

/-- The raw score at `(b, q, k)`: the dot product of query row `q` with key row `k` of batch `b`. -/
theorem rawScore (b : Fin 4) (q k : Fin 2048) :
    val_main_v3 (F := Ideal) x0 x1 x2 (ix3 b q k) = Cert.Attn.dotQK x0 x1 x2 b q k := by
  rw [val_main_v3_apply]
  exact Finset.sum_congr rfl fun d _ => by rw [qRow, kRow, proj_q, proj_k]

/-- The scaled score: the raw score divided by `√1024`, that is, times `1/32`. -/
theorem scaledScore (b : Fin 4) (q k : Fin 2048) :
    val_main_v6 (F := Ideal) x0 x1 x2 (ix3 b q k)
      = Cert.Attn.dotQK x0 x1 x2 b q k * (((1 / 32 : ℝ) : ℝ) : EReal) := by
  rw [val_main_v6_apply, val_main_v5_apply, val_main_v4_apply, val_main_cst_apply, rawScore]
  exact div_sqrt_1024 _

end

/-! ## The causal mask -/

/-- A counter below `2048`, as a 32-bit word read signed, is itself. -/
theorem toInt_counter (n : Nat) (h : n < 2048) : (BitVec.ofNat 32 n).toInt = (n : Int) := by
  rw [BitVec.toInt_eq_toNat_of_lt (by rw [BitVec.toNat_ofNat]; omega), BitVec.toNat_ofNat]; omega

/-- The signed comparison "row counter plus zero ≥ column counter" of the lower triangle holds exactly when `k ≤ q`:
    both counters are below `2048`, so their signed readings are the counters themselves. -/
theorem lowerTri_bit (q k : Fin 2048) :
    IntOp.cmpi .sge (IntOp.addi (BitVec.ofNat 32 q.val) 0#32) (BitVec.ofNat 32 k.val)
      = if k.val ≤ q.val then 1#1 else 0#1 := by
  have h0 : IntOp.addi (BitVec.ofNat 32 q.val) 0#32 = BitVec.ofNat 32 q.val := BitVec.add_zero _
  rw [h0]
  by_cases h : k.val ≤ q.val
  · rw [if_pos h]
    refine IntOp.cmpi_sge.mpr ?_
    rw [toInt_counter _ q.isLt, toInt_counter _ k.isLt]; exact_mod_cast h
  · rw [if_neg h]
    refine eq_zero_of_ne_one fun hh => h ?_
    have := IntOp.cmpi_sge.mp hh
    rw [toInt_counter _ q.isLt, toInt_counter _ k.isLt] at this; exact_mod_cast this

/-- The mask at `(q, k)`: the lower triangle of the all-ones matrix, `1` when `k ≤ q` and `0` otherwise. -/
theorem mask (q k : Fin 2048) :
    val_main_v8 (F := Ideal) (ix2 q k) = if k.val ≤ q.val then 1#1 else 0#1 := by
  rw [val_main_v8_apply, val_main_call0_v4_apply, val_main_call0_v2_apply, val_main_call0_v0_apply,
    val_main_call0_v1_apply, val_main_call0_c_apply, val_main_call0_v3_apply, val_main_v7_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  rw [lowerTri_bit]
  by_cases h : k.val ≤ q.val
  · rw [if_pos h]; exact select_one _ _
  · rw [if_neg h]; exact select_zero _ _

/-- The mask, given a leading axis of size one and repeated over the four batches, is read at `(q, k)`. -/
theorem maskIdx (b : Fin 4) (q k : Fin 2048) : idx_main_v9 (idx_main_call1_v1 (ix3 b q k)) = ix2 q k :=
  funext fun a => Fin.ext (by match a with | ⟨0, _⟩ => rfl | ⟨1, _⟩ => rfl)

/-! ## The masked score -/

/-- The masked score at `(b, q, k)`: the scaled score where `k ≤ q`, and `-∞` for a key after the query. -/
theorem maskedScore (x0 : (⟨S4x2048x1024, .f32⟩ : BufTy).Contents (Elt Ideal))
    (x1 x2 : (⟨S1024x1024, .f32⟩ : BufTy).Contents (Elt Ideal)) (b : Fin 4) (q k : Fin 2048) :
    val_main_v10 (F := Ideal) x0 x1 x2 (ix3 b q k) = Cert.Attn.score x0 x1 x2 b q k := by
  rw [val_main_v10_apply, val_main_call1_v1_apply, val_main_v9_apply, maskIdx, mask, val_main_call1_v2_apply,
    val_main_call1_v0_apply, val_main_cst_0_apply, scaledScore]
  unfold Cert.Attn.score
  by_cases h : k.val ≤ q.val
  · rw [if_pos h, if_pos h]; exact select_one _ _
  · rw [if_neg h, if_neg h]; exact (select_zero _ _).trans word_negInf

end Cert.ReferenceIdeal.RefValue

end
-- ==== Proof.RefValue.lean ====
/-
  The reference program read index by index, second half: from the masked score to the result.

  A row's maximum is the fold of `max` from `-∞` over the keys (the reduction over the last axis, read as a fold
  over that axis's coordinates, followed by a maximum with `-∞` that changes nothing); a weight is the exponential
  of the score minus the row's maximum; the normaliser is `0` plus the sum of the row's weights; the result is the
  sum over the keys of the normalised weight times the value projection.
-/
import proofs.«182005_j67748814127590_2_alg».proof.Proof.RefValueA

noncomputable section

open scoped BigOperators

namespace Cert.ReferenceIdeal.RefValue

open Cert.ReferenceIdeal Cert.ReferenceIdeal.Gen Cert.ReferenceIdeal.Read
open Idealize.ShloMosaic Idealize.ShloMosaic.ValueIdx

section
variable (x0 : (⟨S4x2048x1024, .f32⟩ : BufTy).Contents (Elt Ideal))
  (x1 x2 : (⟨S1024x1024, .f32⟩ : BufTy).Contents (Elt Ideal))

/-! ## The row maximum -/

/-- The row index `(b, q)` with key `k` put back on the reduced (last) axis is `(b, q, k)`. -/
theorem putBackKey (h : S4x2048x2048.Reduces [2] S4x2048) (b : Fin 4) (q : Fin 2048)
    (k : Fin (S4x2048x2048.size 2)) : h.lift (ix2 b q) k = ix3 b q (⟨k.val, k.isLt⟩ : Fin 2048) := by
  funext c; apply Fin.ext
  fin_cases c <;> rfl

/-- The row maximum at `(b, q)`: the fold of `max` from `-∞` over the row's masked scores. The maximum with the
    `-∞` array that follows the reduction is the identity, `-∞` being the least extended real. -/
theorem rowMaximum (b : Fin 4) (q : Fin 2048) :
    val_main_v13 (F := Ideal) x0 x1 x2 (ix2 b q) = Cert.Attn.rowMax x0 x1 x2 b q := by
  have hred : S4x2048x2048.Reduces [2] S4x2048 := by decide
  have hrow : (val_main_v10 (F := Ideal) x0 x1 x2 ∘ hred.lift (ix2 b q))
      = fun k : Fin 2048 => Cert.Attn.score x0 x1 x2 b q k :=
    funext fun k => (congrArg (val_main_v10 (F := Ideal) x0 x1 x2) (putBackKey hred b q k)).trans
      (maskedScore x0 x1 x2 b q _)
  rw [val_main_v13_apply, val_main_v12_apply, val_main_cst_2_apply]
  unfold val_main_v11
  rw [Host.reduce_eq_fold_single FloatOps.maximumf _ _ reducesTo_S4x2048x2048_S4x2048_d2 hred h_S_,
    val_main_cst_1_apply, hrow]
  show max (Ideal.ofBits .f32 0xFF800000#32)
      ((Finset.univ : Finset (Fin 2048)).fold max (Ideal.ofBits .f32 0xFF800000#32) fun k => Cert.Attn.score x0 x1 x2 b q k) = _
  rw [word_negInf]
  exact max_bot_left _

/-! ## The weights and their sum -/

/-- The row maximum, given a trailing axis of size one and repeated along the keys, is read at `(b, q)`. -/
theorem rowOfMax (b : Fin 4) (q k : Fin 2048) : idx_main_v14 (idx_main_v15 (ix3 b q k)) = ix2 b q :=
  funext fun a => Fin.ext (by match a with | ⟨0, _⟩ => rfl | ⟨1, _⟩ => rfl)

/-- The weight at `(b, q, k)`: the exponential of the masked score minus the row's maximum. -/
theorem weight (b : Fin 4) (q k : Fin 2048) :
    val_main_v17 (F := Ideal) x0 x1 x2 (ix3 b q k) = Cert.Attn.wgt x0 x1 x2 b q k := by
  rw [val_main_v17_apply, val_main_v16_apply, val_main_v15_apply, val_main_v14_apply, rowOfMax, rowMaximum,
    maskedScore]
  rfl

/-- The sum over the last axis at `(b, q)` runs over the entries `(b, q, k)`. -/
theorem keyOfRow (b : Fin 4) (q k : Fin 2048) : idx_main_v18 (ix2 b q) k = ix3 b q k :=
  funext fun a => Fin.ext (by match a with | ⟨0, _⟩ => rfl | ⟨1, _⟩ => rfl | ⟨2, _⟩ => rfl)

/-- The normaliser at `(b, q)`: the sum of the row's weights (the initial value `+0.0` adds nothing). -/
theorem normaliser (b : Fin 4) (q : Fin 2048) :
    val_main_v18 (F := Ideal) x0 x1 x2 (ix2 b q) = Cert.Attn.denom x0 x1 x2 b q := by
  rw [val_main_v18_apply, val_main_cst_3_apply]
  show Ideal.ofBits .f32 0x00000000#32 + _ = _
  rw [Ideal.ofBits_zero_f32, zero_add]
  exact Finset.sum_congr rfl fun k _ => by rw [keyOfRow, weight]

/-- The normaliser, given a trailing axis of size one and repeated along the keys, is read at `(b, q)`. -/
theorem rowOfSum (b : Fin 4) (q k : Fin 2048) : idx_main_v19 (idx_main_v20 (ix3 b q k)) = ix2 b q :=
  funext fun a => Fin.ext (by match a with | ⟨0, _⟩ => rfl | ⟨1, _⟩ => rfl)

/-- The normalised weight at `(b, q, k)`: the weight divided by the row's normaliser. -/
theorem normalised (b : Fin 4) (q k : Fin 2048) :
    val_main_v21 (F := Ideal) x0 x1 x2 (ix3 b q k)
      = Ideal.div (Cert.Attn.wgt x0 x1 x2 b q k) (Cert.Attn.denom x0 x1 x2 b q) := by
  rw [val_main_v21_apply, val_main_v20_apply, val_main_v19_apply, rowOfSum, normaliser, weight]
  rfl

end

/-! ## The result -/

/-- The last contraction reads the normalised weights' row `(b, q)` at key `k` … -/
theorem weightOfKey (b : Fin 4) (q k : Fin 2048) (d : Fin 1024) : lidx_main_v22 (ix3 b q d) k = ix3 b q k :=
  funext fun a => Fin.ext (by match a with | ⟨0, _⟩ => rfl | ⟨1, _⟩ => rfl | ⟨2, _⟩ => rfl)
/-- … against the value projection's row `(b, k)` at column `d`. -/
theorem valueOfKey (b : Fin 4) (q k : Fin 2048) (d : Fin 1024) : ridx_main_v22 (ix3 b q d) k = ix3 b k d :=
  funext fun a => Fin.ext (by match a with | ⟨0, _⟩ => rfl | ⟨1, _⟩ => rfl | ⟨2, _⟩ => rfl)

/-- The reference's result at `(b, q, d)` is causal softmax attention there: the sum over the keys of the normalised
    weight of key `k` in row `q` times the value projection of key `k` at column `d`. -/
theorem ref_eq (x0 : (⟨Cert.ReferenceIdeal.S4x2048x1024, .f32⟩ : BufTy).Contents (Elt Ideal))
    (x1 x2 x3 : (⟨Cert.ReferenceIdeal.S1024x1024, .f32⟩ : BufTy).Contents (Elt Ideal)) (b : Fin 4) (q : Fin 2048) (d : Fin 1024) :
    Cert.ReferenceIdeal.Read.val_main_v22 (F := Ideal) x0 x1 x2 x3 (ValueIdx.ix3 b q d) = Cert.Attn.out3 x0 x1 x2 x3 b q d := by
  rw [val_main_v22_apply]
  exact Finset.sum_congr rfl fun k _ => by rw [weightOfKey, valueOfKey, normalised, proj_v]

end Cert.ReferenceIdeal.RefValue

end
-- ==== Proof.lean ====
/-
  The certificate of a tiled causal self-attention kernel against plain softmax attention.

  The kernel is two pallas_calls. The first projects the activations onto the three weights (x Wᵀ, blocks of 512 rows).
  The second walks, for each batch and each block of 512 queries, over the blocks of 512 keys not after it, keeping per
  row a running maximum, a normaliser and a weighted sum of values (the online softmax), skips the key blocks after
  the query block, and at the last key block writes the quotient. The reference forms all scores, masks the keys
  after each query with -∞, and normalises each row's exponentials once.

  On the extended reals the two agree: the running state after the key blocks 0 … j of a row is (M, Σ exp (s - M),
  Σ exp (s - M) v) over the keys seen so far, M their maximum — the rescaling by exp (M_old - M_new) is exact —; a
  masked key contributes exp (-∞) = 0; the skipped key blocks are entirely masked; and (Σ e v) / (Σ e) = Σ (e / Σ e) v
  needs every term real, which the precondition (finite inputs) gives. The kernel's scale 1/32 is the reference's
  division by √1024, and its finite mask fill is named -∞.

  The frames of the two kernel programs (word-level and idealized) are assembled from each region's body obligation:
  the projection body runs in one piece; the attention body in five cases of its three conditions, the scratch
  operands carried from point to point by the region's invariant.
-/
import proofs.«182005_j67748814127590_2_alg».proof.Defs
import proofs.«182005_j67748814127590_2_alg».proof.Proof.Gen.Kernel
import proofs.«182005_j67748814127590_2_alg».proof.Proof.Gen.KernelIdeal
import proofs.«182005_j67748814127590_2_alg».proof.Proof.Gen.ReferenceIdeal
import proofs.«182005_j67748814127590_2_alg».proof.Proof.Gen.ReferenceIdeal.Run
import proofs.«182005_j67748814127590_2_alg».proof.Proof.Gen.ReferenceIdeal.Read
import proofs.«182005_j67748814127590_2_alg».proof.Proof.Gen.Pre_finite_inputs
import proofs.«182005_j67748814127590_2_alg».proof.Proof.K.Run
import proofs.«182005_j67748814127590_2_alg».proof.Proof.KI.Final
import proofs.«182005_j67748814127590_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's finite mask fill is named -∞. -/
theorem preserves : Cert.preserves_Kernel_KernelIdeal :=
  IdealRules.named_const.statement Cert.KernelIdeal.κ "neg_big" .f32 0xF149F2CA#32 ⊥ rfl

/-- Both programs end with the specification's causal softmax attention of the (agreeing) inputs. -/
theorem algebraic : Cert.algebraic_KernelIdeal_ReferenceIdeal := by
  intro m ρ m' ρ' hpre hagree
  refine ⟨fun c => fun i => Cert.Attn.out3 (Cert.KernelIdeal.Hand.xIn m c) (Cert.KernelIdeal.Hand.wqIn m c)
      (Cert.KernelIdeal.Hand.wkIn m c) (Cert.KernelIdeal.Hand.wvIn m c) (i 0) (i 1) (i 2),
    Cert.KernelIdeal.Hand.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  funext i
  obtain ⟨b, q, d, rfl⟩ : ∃ (b : Fin 4) (q : Fin 2048) (d : Fin 1024), i = ix3 b q d := ⟨i 0, i 1, i 2, eq_ix3 i⟩
  exact Cert.ReferenceIdeal.RefValue.ref_eq _ _ _ _ b q d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
